-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x1024 : Shape := ⟨3, ![1, 8192, 1024]⟩
abbrev S1024x1024 : Shape := ⟨2, ![1024, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S1x8192x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S1x8192x1024 : Shape := ⟨3, ![1, 8192, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S2x1x1024 : Shape := ⟨3, ![2, 1, 1024]⟩
abbrev S1x1x1024 : Shape := ⟨3, ![1, 1, 1024]⟩
abbrev S_ : Shape := ⟨0, ![]⟩
abbrev S1x1 : Shape := ⟨2, ![1, 1]⟩

abbrev nBuf : Space → Nat
  | .hbm => 49
  | .vmem => 22
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S1x1x1024, .f32⟩
  | .hbm, ⟨21, _⟩ => ⟨S1024, .f32⟩
  | .hbm, ⟨22, _⟩ => ⟨S1x1x1024, .f32⟩
  | .hbm, ⟨23, _⟩ => ⟨S1024, .f32⟩
  | .hbm, ⟨24, _⟩ => ⟨S1x1x1024, .f32⟩
  | .hbm, ⟨25, _⟩ => ⟨S1024, .f32⟩
  | .hbm, ⟨26, _⟩ => ⟨S1x1x1024, .f32⟩
  | .hbm, ⟨27, _⟩ => ⟨S1024, .f32⟩
  | .hbm, ⟨28, _⟩ => ⟨S1x1x1024, .f32⟩
  | .hbm, ⟨29, _⟩ => ⟨S1024, .f32⟩
  | .hbm, ⟨30, _⟩ => ⟨S1x1x1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S_, .f32⟩
  | .hbm, ⟨46, _⟩ => ⟨S1x1, .f32⟩
  | .hbm, ⟨47, _⟩ => ⟨S8192x1024, .f32⟩
  | .hbm, ⟨48, _⟩ => ⟨S1x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1x1024, .f32⟩
  | .local _ .vmem, ⟨19, _⟩ => ⟨S1x1, .f32⟩
  | .local _ .vmem, ⟨20, _⟩ => ⟨S1024x1024, .f32⟩
  | .local _ .vmem, ⟨21, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10_0 : Ref sig .tc := ⟨.hbm, 17, rfl⟩
abbrev main_call0_v10_1 : Ref sig .tc := ⟨.hbm, 18, rfl⟩
abbrev main_call0_v10_2 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_v22 : Ref sig .tc := ⟨.hbm, 31, rfl⟩
abbrev main_call0_v23 : Ref sig .tc := ⟨.hbm, 32, rfl⟩
abbrev main_call0_v24 : Ref sig .tc := ⟨.hbm, 33, rfl⟩
abbrev main_call0_v25 : Ref sig .tc := ⟨.hbm, 34, rfl⟩
abbrev main_call0_v26 : Ref sig .tc := ⟨.hbm, 35, rfl⟩
abbrev main_call0_v27 : Ref sig .tc := ⟨.hbm, 36, rfl⟩
abbrev main_call0_v28 : Ref sig .tc := ⟨.hbm, 37, rfl⟩
abbrev main_call0_v29 : Ref sig .tc := ⟨.hbm, 38, rfl⟩
abbrev main_call0_v30 : Ref sig .tc := ⟨.hbm, 39, rfl⟩
abbrev main_call0_v31 : Ref sig .tc := ⟨.hbm, 40, rfl⟩
abbrev main_call0_v32 : Ref sig .tc := ⟨.hbm, 41, rfl⟩
abbrev main_call0_v33 : Ref sig .tc := ⟨.hbm, 42, rfl⟩
abbrev main_call0_v34 : Ref sig .tc := ⟨.hbm, 43, rfl⟩
abbrev main_call0_cst : Ref sig .tc := ⟨.hbm, 44, rfl⟩
abbrev main_call0_v35 : Ref sig .tc := ⟨.hbm, 45, rfl⟩
abbrev main_call0_v36 : Ref sig .tc := ⟨.hbm, 46, rfl⟩
abbrev main_call0_v37 : Ref sig .tc := ⟨.hbm, 47, rfl⟩
abbrev main_v0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_28 : BitVec 32 := 0#32
  let v52 : BitVec 1 := Scalar.cmpi .ne v51 c0_i32_28
  v52

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x8192x1024_S8192x1024 : S1x8192x1024.ShapeCasts S8192x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  slices_S2x1x1024_S1x1x1024_0_0_0 : S2x1x1024.Slices ![0, 0, 0] S1x1x1024
  shapeCasts_S1x1x1024_S1024 : S1x1x1024.ShapeCasts S1024
  slices_S2x1x1024_S1x1x1024_1_0_0 : S2x1x1024.Slices ![1, 0, 0] S1x1x1024
  reducesTo_S1024_S_d0 : S1024.ReducesTo [0] S_
  h_S_ : 0 < S_.numel
  shapeCasts_S_S1x1 : S_.ShapeCasts S1x1
  shapeCasts_S8192x1024_S1x8192x1024 : S8192x1024.ShapeCasts S1x8192x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S1024x1024 : S1x1024.Broadcasts S1024x1024
  reduces_S1024x1024_S1024 : S1024x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S2x1x1024.size a
  hwx0_5 : ∀ i : grid0.Coords, EltTy.bits .f32 = 32 ∨ (Rect.block (s := S2x1x1024) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S2x1x1024.size a
  hwx0_6 : ∀ i : grid0.Coords, EltTy.bits .f32 = 32 ∨ (Rect.block (s := S2x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S2x1x1024.size a
  hwx0_7 : ∀ i : grid0.Coords, EltTy.bits .f32 = 32 ∨ (Rect.block (s := S2x1x1024) S1x1x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x1024.size a
  hwx1_4 : ∀ i : grid1.Coords, EltTy.bits .f32 = 32 ∨ (Rect.block (s := S8192x1024) S1024x1024.size (cc1_transform_4 i) (hinb1_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_call0_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v10_0) S1x1x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v10_1) S1x1x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v10_2) S1x1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_call0_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v36) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v37) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x8192x1024 : Shape := ⟨3, ![1, 8192, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S1x1024 : Shape := ⟨2, ![1, 1024]⟩
abbrev S1 : Shape := ⟨1, ![1]⟩
abbrev S1x1 : Shape := ⟨2, ![1, 1]⟩
abbrev S1x1x1 : Shape := ⟨3, ![1, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x8192x1024, .f32⟩
  | .hbm, ⟨8, _⟩ => ⟨S1x1x1024, .f32⟩
  | .hbm, ⟨9, _⟩ => ⟨S1x8192x1024, .f32⟩
  | .hbm, ⟨10, _⟩ => ⟨S1x8192x1024, .f32⟩
  | .hbm, ⟨11, _⟩ => ⟨S1x8192x1024, .f32⟩
  | .hbm, ⟨12, _⟩ => ⟨S1x1x1024, .f32⟩
  | .hbm, ⟨13, _⟩ => ⟨S1x8192x1024, .f32⟩
  | .hbm, ⟨14, _⟩ => ⟨S1x8192x1024, .f32⟩
  | .hbm, ⟨15, _⟩ => ⟨S1x8192x1024, .f32⟩
  | .hbm, ⟨16, _⟩ => ⟨S1x1x1024, .f32⟩
  | .hbm, ⟨17, _⟩ => ⟨S1x8192x1024, .f32⟩
  | .hbm, ⟨18, _⟩ => ⟨S1x8192x1024, .f32⟩
  | .hbm, ⟨19, _⟩ => ⟨S_, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x8192x1024, .f32⟩
  | .hbm, ⟨32, _⟩ => ⟨S1x8192x1024, .f32⟩
  | .hbm, ⟨33, _⟩ => ⟨S1x8192x1024, .f32⟩
  | .hbm, ⟨34, _⟩ => ⟨S_, .f32⟩
  | .hbm, ⟨35, _⟩ => ⟨S1x1024, .f32⟩
  | .hbm, ⟨36, _⟩ => ⟨S_, .f32⟩
  | .hbm, ⟨37, _⟩ => ⟨S1, .f32⟩
  | .hbm, ⟨38, _⟩ => ⟨S1x1, .f32⟩
  | .hbm, ⟨39, _⟩ => ⟨S1x8192x1024, .f32⟩
  | .hbm, ⟨40, _⟩ => ⟨S1x8192x1024, .f32⟩
  | .hbm, ⟨41, _⟩ => ⟨S_, .f32⟩
  | .hbm, ⟨42, _⟩ => ⟨S1x8192x1024, .f32⟩
  | .hbm, ⟨43, _⟩ => ⟨S1x8192x1024, .f32⟩
  | .hbm, ⟨44, _⟩ => ⟨S_, .f32⟩
  | .hbm, ⟨45, _⟩ => ⟨S1x8192x1024, .f32⟩
  | .hbm, ⟨46, _⟩ => ⟨S1x8192x1024, .f32⟩
  | .hbm, ⟨47, _⟩ => ⟨S1x1x1, .f32⟩
  | .hbm, ⟨48, _⟩ => ⟨S1x8192x1024, .f32⟩
  | .hbm, ⟨49, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S1x8192x1024_0_1_2 : S1x1x1024.BroadcastsInDim S1x8192x1024 (![0, 1, 2] : Fin 3 → Fin S1x8192x1024.rank)
  reducesTo_S1x8192x1024_S1x1024_d1 : S1x8192x1024.ReducesTo [1] S1x1024
  h_S_ : 0 < S_.numel
  bcast_S_S1x1024 : S_.BroadcastsInDim S1x1024 (![] : Fin 0 → Fin S1x1024.rank)
  bcast_S1x1024_S1x1x1024_0_2 : S1x1024.BroadcastsInDim S1x1x1024 (![0, 2] : Fin 2 → Fin S1x1x1024.rank)
  reducesTo_S1x1024_S1_d1 : S1x1024.ReducesTo [1] S1
  bcast_S1_S1x1_0 : S1.BroadcastsInDim S1x1 (![0] : Fin 1 → Fin S1x1.rank)
  bcast_S_S1x8192x1024 : S_.BroadcastsInDim S1x8192x1024 (![] : Fin 0 → Fin S1x8192x1024.rank)
  bcast_S1x1_S1x1x1_1_2 : S1x1.BroadcastsInDim S1x1x1 (![1, 2] : Fin 2 → Fin S1x1x1.rank)
  bcast_S1x1x1_S1x8192x1024_0_1_2 : S1x1x1.BroadcastsInDim S1x8192x1024 (![0, 1, 2] : Fin 3 → Fin S1x8192x1024.rank)
  dot_S1x8192x1024_S1024x1024_S1x8192x1024_2_1_01_0_n_n_wf : DotDims.WF S1x8192x1024 S1024x1024 S1x8192x1024 [2] [1] [0, 1] [0] [] []

variable [Facts₀]

def dot_S1x8192x1024_S1024x1024_S1x8192x1024_2_1_01_0_n_n : DotDims S1x8192x1024 S1024x1024 S1x8192x1024 where
  lhsContracting := [2]
  rhsContracting := [1]
  lhsNonContracting := [0, 1]
  rhsNonContracting := [0]
  lhsBatch := []
  rhsBatch := []
  wf := dot_S1x8192x1024_S1024x1024_S1x8192x1024_2_1_01_0_n_n_wf

class Facts : Prop extends Facts₀ where

variable [Facts]
-- ==== Proof.FrKernel.Base0.lean ====
/-
  The streaming kernel (the first of the two kernel regions) seen from its grid: which of its two branches a grid
  point takes, where its three result windows are written, and what the region's invariant holds.

  The grid is 2 × 4: the leading coordinate picks a half of the rows, the trailing one walks that half's four
  tiles. The body resets its three scratch rows when the trailing coordinate is 0 (grid positions ≡ 0 mod 4) and
  copies them to its three result windows when it is 3 (positions ≡ 3 mod 4); the result windows are touched at no
  other position and are written back exactly there. Each input window's staging buffer holds its block of the
  array the region was entered with, whether the pipeline fetched it at that position or kept it.
-/
import proofs.«181116_j87170656240173_2_alg».proof.Proof.Gen.Kernel.Launch
import proofs.«181116_j87170656240173_2_alg».proof.Proof.Gen.Kernel.Skeleton
import proofs.«181116_j87170656240173_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset branch is taken: the trailing grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The copy-out branch is taken: the trailing grid coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are touched -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1024 .f32 := win0_7.stage (cfg0.slots t 7)
abbrev hs0_7 (t : Fin cfg0.N) : (ms0_7 t).IsWhole := hstage0_7 ((cfg0.slots t 7).cast nbuf0_7)
/-- The three scratch rows: running maximum, running sum of exponentials, running weighted sum. -/
abbrev scM0 : Memref sig .tc .vmem S1x1024 .f32 := Memref.whole cc0_scratch0
abbrev scM1 : Memref sig .tc .vmem S1x1024 .f32 := Memref.whole cc0_scratch1
abbrev scM2 : Memref sig .tc .vmem S1x1024 .f32 := Memref.whole cc0_scratch2
abbrev VS0 : View sig .tc .vmem S1x1024 .f32 := scM0.view
abbrev VS1 : View sig .tc .vmem S1x1024 .f32 := scM1.view
abbrev VS2 : View sig .tc .vmem S1x1024 .f32 := scM2.view
/-- One staging buffer of each result window, through which its contents are stated. -/
abbrev VO5 : View sig .tc .vmem S1x1x1024 .f32 := (Memref.whole cc0_stg5_0 : Memref sig .tc .vmem S1x1x1024 .f32).view
abbrev VO6 : View sig .tc .vmem S1x1x1024 .f32 := (Memref.whole cc0_stg6_0 : Memref sig .tc .vmem S1x1x1024 .f32).view
abbrev VO7 : View sig .tc .vmem S1x1x1024 .f32 := (Memref.whole cc0_stg7_0 : Memref sig .tc .vmem S1x1x1024 .f32).view

/-! ## The region's invariant, opened -/

/-- The scoped buffers of the OTHER kernel region, each whole at some contents: this region never looks at them. -/
def otherRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- Before the first position the invariant is: the three scratch rows at anything, the other region's buffers at
    anything, the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ otherRest0 c) ∗ (∃ r, prngReg c r)) := by
  unfold Pipeline.ΦA; rw [scopedRest0_eq]; simp only [scM0, scM1, scM2, owns_whole, otherRest0]; try rfl

/-! ## The input windows' blocks, at the contents `V` the region is entered with -/

section Blocks
variable (V : (c : Dev nD) → (b : Ref sig .tc) → Buf (Elt F) ((c : Thread nD τ).loc b))

/-- Window `w`'s block at position `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.Kernel.Fr

end
-- ==== Proof.FrKernel.Run0A.lean ====
/-
  The streaming kernel's body at a grid position that starts a half of the rows (trailing coordinate 0): it first
  resets the three scratch rows (maximum to -∞, both sums to 0), then folds the tile in and stores the three rows
  back; what the scratch rows held before does not matter, and the result windows' buffers are not touched.
-/
import proofs.«181116_j87170656240173_2_alg».proof.Proof.Gen.Kernel.Launch
import proofs.«181116_j87170656240173_2_alg».proof.Proof.Gen.Kernel.Skeleton
import proofs.«181116_j87170656240173_2_alg».proof.Proof.Gen.Kernel.Points
import proofs.«181116_j87170656240173_2_alg».proof.Proof.FrKernel.Base0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch rows, as pieces, with the proof that the body runs from
    the inputs at their contents, the result windows' buffers at any contents (handed back untouched) and the scratch
    rows at anything to the continuation holding the scratch rows with those pieces written. -/
noncomputable def kernelRun0_A (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x1024 .f32) (x1 : Vec F S1024x1024 .bf16) (x2 : Vec F S1x1024 .f32) (x3 : Vec F S1024x1024 .bf16) (x4 : Vec F S1x1024 .f32) :
    Σ' (LS0 : List (View.Piece (Elt F) S1x1024 .f32)) (LS1 : List (View.Piece (Elt F) S1x1024 .f32)), { LS2 : List (View.Piece (Elt F) S1x1024 .f32) //
      ∀ (xi5 xi6 xi7 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12) K } := by
  refine ⟨?_, ?_, ?_, fun xi5 xi6 xi7 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.Kernel.Fr

end
-- ==== Proof.FrKernel.Run0B.lean ====
/-
  The streaming kernel's body at a grid position that neither resets nor copies out (trailing coordinate 1 or 2):
  it reads the three scratch rows as the position before left them, folds the tile in, and stores the three rows
  back; the result windows' buffers are not touched.
-/
import proofs.«181116_j87170656240173_2_alg».proof.Proof.Gen.Kernel.Launch
import proofs.«181116_j87170656240173_2_alg».proof.Proof.Gen.Kernel.Skeleton
import proofs.«181116_j87170656240173_2_alg».proof.Proof.Gen.Kernel.Points
import proofs.«181116_j87170656240173_2_alg».proof.Proof.FrKernel.Base0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch rows, as pieces, with the proof that the body runs from
    the inputs at their contents, the result windows' buffers at any contents (handed back untouched) and the scratch
    rows at `xs·` to the continuation holding the scratch rows with those pieces written. -/
noncomputable def kernelRun0_B (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) :
    Σ' (LS0 : List (View.Piece (Elt F) S1x1024 .f32)) (LS1 : List (View.Piece (Elt F) S1x1024 .f32)), { LS2 : List (View.Piece (Elt F) S1x1024 .f32) //
      ∀ (xi5 xi6 xi7 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12) K } := by
  refine ⟨?_, ?_, ?_, fun xi5 xi6 xi7 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.Kernel.Fr

end
-- ==== Proof.FrKernel.Run0C.lean ====
/-
  The streaming kernel's body at a grid position that ends a half of the rows (trailing coordinate 3): it reads the
  three scratch rows as the position before left them, folds the tile in, stores the three rows back, and then copies
  each scratch row into its result window's buffer.
-/
import proofs.«181116_j87170656240173_2_alg».proof.Proof.Gen.Kernel.Launch
import proofs.«181116_j87170656240173_2_alg».proof.Proof.Gen.Kernel.Skeleton
import proofs.«181116_j87170656240173_2_alg».proof.Proof.Gen.Kernel.Points
import proofs.«181116_j87170656240173_2_alg».proof.Proof.FrKernel.Base0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three result windows' buffers and in the three scratch rows, as pieces, with
    the proof that the body runs from the inputs at their contents, the result windows' buffers at anything and the
    scratch rows at `xs·` to the continuation holding each of the six with its pieces written. -/
noncomputable def kernelRun0_C (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) :
    Σ' (L5 : List (View.Piece (Elt F) S1x1x1024 .f32)) (L6 : List (View.Piece (Elt F) S1x1x1024 .f32)) (L7 : List (View.Piece (Elt F) S1x1x1024 .f32)) (LS0 : List (View.Piece (Elt F) S1x1024 .f32)) (LS1 : List (View.Piece (Elt F) S1x1024 .f32)), { LS2 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    iexists _; iexact HS2

end Cert.Kernel.Fr

end
-- ==== Proof.FrKernel.Body0.lean ====
/-
  The streaming kernel region as a whole: what its three scratch rows hold after each grid position (a recurrence over
  the positions: positions ≡ 0 mod 4 start afresh, the others continue from the position before), what its three
  result buffers hold after the positions ≡ 3 mod 4 (the scratch rows copied out), the invariant that carries the
  scratch rows from one position to the next, and the proof that the body meets that description at every position.
-/
import proofs.«181116_j87170656240173_2_alg».proof.Proof.Gen.Kernel.Launch
import proofs.«181116_j87170656240173_2_alg».proof.Proof.Gen.Kernel.Skeleton
import proofs.«181116_j87170656240173_2_alg».proof.Proof.Gen.Kernel.Points
import proofs.«181116_j87170656240173_2_alg».proof.Proof.FrKernel.Run0A
import proofs.«181116_j87170656240173_2_alg».proof.Proof.FrKernel.Run0B
import proofs.«181116_j87170656240173_2_alg».proof.Proof.FrKernel.Run0C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave -/

theorem scover0_A_0 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).1 S1x1024.size (by sl_kernel_rfl) y
def sout0_A_0 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) : Vec F S1x1024 .f32 :=
  VS0.read (Elt F) (VS0.writes (Elt F) VS0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).1)

theorem scover0_A_1 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1 S1x1024.size (by sl_kernel_rfl) y
def sout0_A_1 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) : Vec F S1x1024 .f32 :=
  VS1.read (Elt F) (VS1.writes (Elt F) VS1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1)

theorem scover0_A_2 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1 S1x1024.size (by sl_kernel_rfl) y
def sout0_A_2 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) : Vec F S1x1024 .f32 :=
  VS2.read (Elt F) (VS2.writes (Elt F) VS2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1)

theorem scover0_B_0 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S1x1024.size (by sl_kernel_rfl) y
def sout0_B_0 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1024 .f32 :=
  VS0.read (Elt F) (VS0.writes (Elt F) VS0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1)

theorem scover0_B_1 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S1x1024.size (by sl_kernel_rfl) y
def sout0_B_1 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1024 .f32 :=
  VS1.read (Elt F) (VS1.writes (Elt F) VS1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1)

theorem scover0_B_2 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S1x1024.size (by sl_kernel_rfl) y
def sout0_B_2 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1024 .f32 :=
  VS2.read (Elt F) (VS2.writes (Elt F) VS2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1)

theorem scover0_C_0 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1 S1x1024.size (by sl_kernel_rfl) y
def sout0_C_0 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1024 .f32 :=
  VS0.read (Elt F) (VS0.writes (Elt F) VS0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1)

theorem scover0_C_1 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1 S1x1024.size (by sl_kernel_rfl) y
def sout0_C_1 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1024 .f32 :=
  VS1.read (Elt F) (VS1.writes (Elt F) VS1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1)

theorem scover0_C_2 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1 S1x1024.size (by sl_kernel_rfl) y
def sout0_C_2 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1024 .f32 :=
  VS2.read (Elt F) (VS2.writes (Elt F) VS2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1)

theorem cover0_C_5 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S1x1x1024.size (by sl_kernel_rfl) y
def out0_C_5 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1x1024 .f32 :=
  VO5.read (Elt F) (VO5.writes (Elt F) VO5.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1)

theorem cover0_C_6 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S1x1x1024.size (by sl_kernel_rfl) y
def out0_C_6 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1x1024 .f32 :=
  VO6.read (Elt F) (VO6.writes (Elt F) VO6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1)

theorem cover0_C_7 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S1x1x1024.size (by sl_kernel_rfl) y
def out0_C_7 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1x1024 .f32 :=
  VO7.read (Elt F) (VO7.writes (Elt F) VO7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1)

section Region0
variable (V : (c : Dev nD) → (b : Ref sig .tc) → Buf (Elt F) ((c : Thread nD τ).loc b))

/-! ## The scratch rows and the result buffers, position by position -/

/-- The three scratch rows after a position that resets them first. -/
def stA (c : Dev nD) (t : Fin cfg0.N) (hc0 : cond0_0 (grid0.coords t)) (hc1 : ¬cond0_1 (grid0.coords t)) : (Vec F S1x1024 .f32 × Vec F S1x1024 .f32 × Vec F S1x1024 .f32) :=
  (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t))
/-- The three scratch rows after a middle position, from what the position before left (`p`). -/
def stB (c : Dev nD) (t : Fin cfg0.N) (hc0 : ¬cond0_0 (grid0.coords t)) (hc1 : ¬cond0_1 (grid0.coords t)) (p : (Vec F S1x1024 .f32 × Vec F S1x1024 .f32 × Vec F S1x1024 .f32)) : (Vec F S1x1024 .f32 × Vec F S1x1024 .f32 × Vec F S1x1024 .f32) :=
  (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2,
   sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2)
/-- The three scratch rows after a position that copies them out, from what the position before left. -/
def stC (c : Dev nD) (t : Fin cfg0.N) (hc0 : ¬cond0_0 (grid0.coords t)) (hc1 : cond0_1 (grid0.coords t)) (p : (Vec F S1x1024 .f32 × Vec F S1x1024 .f32 × Vec F S1x1024 .f32)) : (Vec F S1x1024 .f32 × Vec F S1x1024 .f32 × Vec F S1x1024 .f32) :=
  (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2,
   sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2)
/-- The three result buffers after a position that copies the scratch rows out. -/
def outC (c : Dev nD) (t : Fin cfg0.N) (hc0 : ¬cond0_0 (grid0.coords t)) (hc1 : cond0_1 (grid0.coords t)) (p : (Vec F S1x1024 .f32 × Vec F S1x1024 .f32 × Vec F S1x1024 .f32)) : (Vec F S1x1x1024 .f32 × Vec F S1x1x1024 .f32 × Vec F S1x1x1024 .f32) :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2,
   out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2,
   out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2)

/-- THE RECURRENCE. The three scratch rows after the body at position `n`: positions ≡ 0 (mod 4) start afresh, the
    others continue from the position before. -/
def stAt (c : Dev nD) : (n : ℕ) → n < cfg0.N → (Vec F S1x1024 .f32 × Vec F S1x1024 .f32 × Vec F S1x1024 .f32)
  | 0, hn => stA V c ⟨0, hn⟩ ((hcond0_0 ⟨0, hn⟩).mpr (Nat.zero_mod _)) (fun h => absurd ((hcond0_1 ⟨0, hn⟩).mp h) (by show ¬ 0 % 4 = 3; decide))
  | n + 1, hn =>
    if h0 : (n + 1) % 4 = 0 then
      stA V c ⟨n + 1, hn⟩ ((hcond0_0 ⟨n + 1, hn⟩).mpr h0) (fun h => absurd ((hcond0_1 ⟨n + 1, hn⟩).mp h) (by show ¬ (n + 1) % 4 = 3; omega))
    else if h3 : (n + 1) % 4 = 3 then
      stC V c ⟨n + 1, hn⟩ (fun h => h0 ((hcond0_0 ⟨n + 1, hn⟩).mp h)) ((hcond0_1 ⟨n + 1, hn⟩).mpr h3) (stAt c n (Nat.lt_of_succ_lt hn))
    else
      stB V c ⟨n + 1, hn⟩ (fun h => h0 ((hcond0_0 ⟨n + 1, hn⟩).mp h)) (fun h => h3 ((hcond0_1 ⟨n + 1, hn⟩).mp h)) (stAt c n (Nat.lt_of_succ_lt hn))

theorem stAt_A (c : Dev nD) (t : Fin cfg0.N) (h0 : t.val % 4 = 0) (h3 : ¬t.val % 4 = 3) :
    stAt V c t.val t.isLt = stA V c t ((hcond0_0 t).mpr h0) (fun h => h3 ((hcond0_1 t).mp h)) := by
  obtain ⟨n, hn⟩ := t
  cases n with
  | zero => exact rfl
  | succ n => exact (dif_pos h0).trans rfl

theorem stAt_B (c : Dev nD) (t : Fin cfg0.N) (h0 : ¬t.val % 4 = 0) (h3 : ¬t.val % 4 = 3) :
    stAt V c t.val t.isLt = stB V c t (fun h => h0 ((hcond0_0 t).mp h)) (fun h => h3 ((hcond0_1 t).mp h))
      (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem stAt_C (c : Dev nD) (t : Fin cfg0.N) (h0 : ¬t.val % 4 = 0) (h3 : t.val % 4 = 3) :
    stAt V c t.val t.isLt = stC V c t (fun h => h0 ((hcond0_0 t).mp h)) ((hcond0_1 t).mpr h3)
      (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans rfl)

/-- The three result buffers after the body at position `n`: at a position ≡ 3 (mod 4) the scratch rows copied out; at the
    others a placeholder nothing consults (the windows are neither written back there nor read at the next position). -/
def outAt (c : Dev nD) (n : ℕ) (hn : n < cfg0.N) : (Vec F S1x1x1024 .f32 × Vec F S1x1x1024 .f32 × Vec F S1x1x1024 .f32) :=
  if h3 : n % 4 = 3 then
    outC V c ⟨n, hn⟩ (fun h => absurd ((hcond0_0 ⟨n, hn⟩).mp h) (by show ¬ n % 4 = 0; omega)) ((hcond0_1 ⟨n, hn⟩).mpr h3)
      (stAt V c (n - 1) (Nat.lt_of_le_of_lt (Nat.sub_le _ _) hn))
  else (VO5.read (Elt F) (VO5.writes (Elt F) VO5.junk []), VO6.read (Elt F) (VO6.writes (Elt F) VO6.junk []), VO7.read (Elt F) (VO7.writes (Elt F) VO7.junk []))

theorem outAt_C (c : Dev nD) (t : Fin cfg0.N) (h0 : ¬t.val % 4 = 0) (h3 : t.val % 4 = 3) :
    outAt V c t.val t.isLt = outC V c t (fun h => h0 ((hcond0_0 t).mp h)) ((hcond0_1 t).mpr h3)
      (stAt V c (t.val - 1) (Nat.lt_of_le_of_lt (Nat.sub_le _ _) t.isLt)) :=
  (dif_pos h3).trans rfl

/-! ## The region's invariant -/

/-- Before position `n`: at the start the class's invariant (every scratch row at anything); afterwards the three
    scratch rows at what position `n - 1` left, the other region's buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((stAt V c n hn).1) ∗ owns (c : Thread nD τ) scM1 fullShare ((stAt V c n hn).2.1) ∗ owns (c : Thread nD τ) scM2 fullShare ((stAt V c n hn).2.2) ∗ otherRest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((stAt V c n hn).1) ∗ owns (c : Thread nD τ) scM1 fullShare ((stAt V c n hn).2.1) ∗ owns (c : Thread nD τ) scM2 fullShare ((stAt V c n hn).2.2) ∗ otherRest0 c) ∗ (∃ r, prngReg c r)) := rfl
theorem PhiS_pos (c : Dev nD) (n : ℕ) (h : n ≤ cfg0.N) (hz : n ≠ 0) :
    PhiS V c n h = iprop(iprop(owns (c : Thread nD τ) scM0 fullShare ((stAt V c (n - 1) (by omega)).1) ∗ owns (c : Thread nD τ) scM1 fullShare ((stAt V c (n - 1) (by omega)).2.1) ∗ owns (c : Thread nD τ) scM2 fullShare ((stAt V c (n - 1) (by omega)).2.2) ∗ otherRest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outAt V c t.val t.isLt).1
    | ⟨6, _⟩ => (outAt V c t.val t.isLt).2.1
    | ⟨7, _⟩ => (outAt V c t.val t.isLt).2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outAt V c t.val t.isLt).1 := by dsimp only [dat0]
theorem after0_6 (c : Dev nD) (t : Fin cfg0.N) : (dat0 V c).after 6 t = (outAt V c t.val t.isLt).2.1 := by dsimp only [dat0]
theorem after0_7 (c : Dev nD) (t : Fin cfg0.N) : (dat0 V c).after 7 t = (outAt V c t.val t.isLt).2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
theorem sound_body0_A (c : Dev nD) (t : Fin cfg0.N) (h0 : t.val % 4 = 0) (h3 : ¬t.val % 4 = 3) :
    bodyPre0 V c t ⊢ wp frame (wpE (defs₀ (F := F)) Variants.none c none) Set.univ (bodyAt0 t) (fun _ => bodyPost0 V c t) := by
  have hc0 : cond0_0 (grid0.coords t) := (hcond0_0 t).mpr h0
  have hc1 : ¬cond0_1 (grid0.coords t) := fun h => h3 ((hcond0_1 t).mp h)
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [Dat.leavesExact_idle (dat0 V c) 5 t (idleAt0_5 t hc1) (noFlush0_5 t hc1)]
  rw [Dat.leavesExact_idle (dat0 V c) 6 t (idleAt0_6 t hc1) (noFlush0_6 t hc1)]
  rw [Dat.leavesExact_idle (dat0 V c) 7 t (idleAt0_7 t hc1) (noFlush0_7 t hc1)]
  rw [stAt_A V c t h0 h3]
  unfold stA sout0_A_0 sout0_A_1 sout0_A_2; (try dsimp only)
  by_cases hz : t.val = 0
  · rw [PhiS_castSucc V c t, PhiS_zero V c _ _ hz, PhiA0_eq]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, ⟨%es0, HS0⟩, ⟨%es1, HS1⟩, ⟨%es2, HS2⟩⟩
    isplitl [HS0 HS1 HS2 HR Hg]
    · isplitl [HS0 HS1 HS2 HR]
      swap; · iexact Hg
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7
  · rw [PhiS_castSucc V c t, PhiS_pos V c _ _ hz]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexists _; iexact HS1
    isplitl [HS2]; · iexists _; iexact HS2
    iintro ⟨H0, H1, H2, H3, H4, H5, H6, H7, ⟨%es0, HS0⟩, ⟨%es1, HS1⟩, ⟨%es2, HS2⟩⟩
    isplitl [HS0 HS1 HS2 HR Hg]
    · isplitl [HS0 HS1 HS2 HR]
      swap; · iexact Hg
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

set_option maxHeartbeats 4000000 in
theorem sound_body0_B (c : Dev nD) (t : Fin cfg0.N) (h0 : ¬t.val % 4 = 0) (h3 : ¬t.val % 4 = 3) :
    bodyPre0 V c t ⊢ wp frame (wpE (defs₀ (F := F)) Variants.none c none) Set.univ (bodyAt0 t) (fun _ => bodyPost0 V c t) := by
  have hc0 : ¬cond0_0 (grid0.coords t) := fun h => h0 ((hcond0_0 t).mp h)
  have hc1 : ¬cond0_1 (grid0.coords t) := fun h => h3 ((hcond0_1 t).mp h)
  have hz : t.val ≠ 0 := fun h => h0 (by rw [h])
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [Dat.leavesExact_idle (dat0 V c) 5 t (idleAt0_5 t hc1) (noFlush0_5 t hc1)]
  rw [Dat.leavesExact_idle (dat0 V c) 6 t (idleAt0_6 t hc1) (noFlush0_6 t hc1)]
  rw [Dat.leavesExact_idle (dat0 V c) 7 t (idleAt0_7 t hc1) (noFlush0_7 t hc1)]
  rw [stAt_B V c t h0 h3]
  unfold stB sout0_B_0 sout0_B_1 sout0_B_2; (try dsimp only)
  · rw [PhiS_castSucc V c t, PhiS_pos V c _ _ hz]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) _ _ _).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, ⟨%es0, HS0⟩, ⟨%es1, HS1⟩, ⟨%es2, HS2⟩⟩
    isplitl [HS0 HS1 HS2 HR Hg]
    · isplitl [HS0 HS1 HS2 HR]
      swap; · iexact Hg
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

set_option maxHeartbeats 4000000 in
theorem sound_body0_C (c : Dev nD) (t : Fin cfg0.N) (h0 : ¬t.val % 4 = 0) (h3 : t.val % 4 = 3) :
    bodyPre0 V c t ⊢ wp frame (wpE (defs₀ (F := F)) Variants.none c none) Set.univ (bodyAt0 t) (fun _ => bodyPost0 V c t) := by
  have hc0 : ¬cond0_0 (grid0.coords t) := fun h => h0 ((hcond0_0 t).mp h)
  have hc1 : cond0_1 (grid0.coords t) := (hcond0_1 t).mpr h3
  have hz : t.val ≠ 0 := fun h => h0 (by rw [h])
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t hc1], after0_5]
  rw [show (dat0 V c).leavesExact 6 t = owns (c : Thread nD τ) (ms0_6 t) fullShare ((dat0 V c).after 6 t) from by
    unfold Dat.leavesExact; rw [liveAt0_6 t hc1], after0_6]
  rw [show (dat0 V c).leavesExact 7 t = owns (c : Thread nD τ) (ms0_7 t) fullShare ((dat0 V c).after 7 t) from by
    unfold Dat.leavesExact; rw [liveAt0_7 t hc1], after0_7]
  rw [stAt_C V c t h0 h3, outAt_C V c t h0 h3]
  unfold stC outC sout0_C_0 sout0_C_1 sout0_C_2 out0_C_5 out0_C_6 out0_C_7; (try dsimp only)
  · rw [PhiS_castSucc V c t, PhiS_pos V c _ _ hz]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) _ _ _).2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, ⟨%e5, H5⟩, ⟨%e6, H6⟩, ⟨%e7, H7⟩, ⟨%es0, HS0⟩, ⟨%es1, HS1⟩, ⟨%es2, HS2⟩⟩
    isplitl [HS0 HS1 HS2 HR Hg]
    · isplitl [HS0 HS1 HS2 HR]
      swap; · iexact Hg
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_C_2 c _ _ _ _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_C_5 c _ _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _ _ _ _)
    unfold owns; iexists _; isplitr
    swap; · iexact H7
    ipureintro; exact View.read_writes_of_cover _ _ _ _ _ (cover0_C_7 c _ _ _ _ _ _ _ _ _ _ _ _ _ _ _ _ _ _ _ _ _ _ _ _ _ _ _ _ _ _ _ _ _)

/-- The body at any position: one of the three cases. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 4 = 0
  · exact sound_body0_A V c t h0 (by omega)
  · by_cases h3 : t.val % 4 = 3
    · exact sound_body0_C V c t h0 h3
    · exact sound_body0_B V c t h0 h3

theorem body_obligation0 (c : Dev nD) : BodyObligation (dat0 (F := F) V c) (defs₀ (F := F)) Variants.none () Set.univ := fun t => by
  rw [bigSep_W0, bigSep_W0]
  exact sound_body0 V c t

/-- What the launch hands the region is the invariant before the first position. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last position the invariant gives the class's back: what the scratch rows hold is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

end Region0

end Cert.Kernel.Fr

end
-- ==== Proof.FrKernel.Body1.lean ====
/-
  The output kernel (the second kernel region): at each of its 8 grid positions it reads a tile of 1024 rows of the
  activations, the transposed query weights, the query bias and the one-entry array holding the context scalar, and
  stores σ(tile·Wqᵀ + bq)·scalar over its whole result block. Every position writes its block back; nothing is kept
  between positions.
-/
import proofs.«181116_j87170656240173_2_alg».proof.Proof.Gen.Kernel.Launch
import proofs.«181116_j87170656240173_2_alg».proof.Proof.Gen.Kernel.Skeleton
import proofs.«181116_j87170656240173_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at position `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
abbrev VO1_4 : View sig .tc .vmem S1024x1024 .f32 := (Memref.whole cc1_stg4_0 : Memref sig .tc .vmem S1024x1024 .f32).view

set_option maxHeartbeats 4000000 in
/-- What the body's one store leaves in the result window's buffer, as pieces, with the proof that the body runs from
    the inputs at their contents and the result buffer at anything to the continuation holding it with those pieces. -/
noncomputable def kernelRun1 (c : Dev nD) (i : grid1.Coords) (arg1 : Memref sig .tc .vmem S1024x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (x0 : Vec F S1024x1024 .f32) (x1 : Vec F S1024x1024 .bf16) (x2 : Vec F S1x1024 .f32) (x3 : Vec F S1x1 .f32) :
    { L4 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc1__output_kernel i arg1 harg1 arg2 harg2 arg3 harg3 arg4 harg4 arg5 harg5) K } := by
  refine ⟨?_, fun E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The store covers the result buffer. -/
theorem cover1_4 (c : Dev nD) (i : grid1.Coords) (arg1 : Memref sig .tc .vmem S1024x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (x0 : Vec F S1024x1024 .f32) (x1 : Vec F S1024x1024 .bf16) (x2 : Vec F S1x1024 .f32) (x3 : Vec F S1x1 .f32) (y : S1024x1024.Idx) :
    ∃ pc ∈ (kernelRun1 c i arg1 harg1 arg2 harg2 arg3 harg3 arg4 harg4 arg5 harg5 x0 x1 x2 x3).1, y ∈ pc.1.set :=
  View.cover_of_tiledL (kernelRun1 c i arg1 harg1 arg2 harg2 arg3 harg3 arg4 harg4 arg5 harg5 x0 x1 x2 x3).1 S1024x1024.size (by sl_kernel_rfl) y

/-- What the body leaves in the result window's buffer: its pieces read back. -/
def out1_4 (c : Dev nD) (i : grid1.Coords) (arg1 : Memref sig .tc .vmem S1024x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (x0 : Vec F S1024x1024 .f32) (x1 : Vec F S1024x1024 .bf16) (x2 : Vec F S1x1024 .f32) (x3 : Vec F S1x1 .f32) : Vec F S1024x1024 .f32 :=
  VO1_4.read (Elt F) (VO1_4.writes (Elt F) VO1_4.junk (kernelRun1 c i arg1 harg1 arg2 harg2 arg3 harg3 arg4 harg4 arg5 harg5 x0 x1 x2 x3).1)

/-- The region's proof data at the entry contents `V`: inputs stay at their blocks, the result buffer at what the body
    stores, the class's invariant untouched, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold out1_4
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_4 c _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.FrKernel.Run.lean ====
/-
  The whole program as five segments — host operations, the streaming kernel region, host operations, the output
  kernel region, a final reshape — and what every buffer holds at each boundary between them: a fold from the launch
  memory (a stretch of host operations applies its operations in order; a kernel region leaves each of its windows'
  arrays at what its write-backs make of it and every other buffer as it found it). The program runs to the end
  without a fault and every buffer that outlives the kernels ends at the last boundary's contents; in particular each
  argument array ends as it was launched, because no host operation and no region writes one.
-/
import proofs.«181116_j87170656240173_2_alg».proof.Proof.Gen.Kernel.Launch
import proofs.«181116_j87170656240173_2_alg».proof.Proof.Gen.Kernel.Skeleton
import proofs.«181116_j87170656240173_2_alg».proof.Proof.Gen.Kernel.Points
import proofs.«181116_j87170656240173_2_alg».proof.Proof.Gen.Kernel.Regions
import proofs.«181116_j87170656240173_2_alg».proof.Proof.FrKernel.Body0
import proofs.«181116_j87170656240173_2_alg».proof.Proof.FrKernel.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Kernel region 0 over the thread state: entered from every unscoped buffer at the contents before it, left with
    its windows' arrays at what its write-backs leave and every other buffer as entered; the generator register goes
    into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at the contents before it, left with
    its windows' arrays at what its write-backs leave and every other buffer as entered; the generator register goes
    into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every buffer that is not a kernel's own ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m c)) ∗ R c) : sProp 𝕄)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c)⟩) (run_all m ρ)

end Cert.Kernel.Fr

end
-- ==== Proof.FrKernelIdeal.Base0.lean ====
/-
  The streaming kernel (the first of the two kernel regions) seen from its grid: which of its two branches a grid
  point takes, where its three result windows are written, and what the region's invariant holds.

  The grid is 2 × 4: the leading coordinate picks a half of the rows, the trailing one walks that half's four
  tiles. The body resets its three scratch rows when the trailing coordinate is 0 (grid positions ≡ 0 mod 4) and
  copies them to its three result windows when it is 3 (positions ≡ 3 mod 4); the result windows are touched at no
  other position and are written back exactly there. Each input window's staging buffer holds its block of the
  array the region was entered with, whether the pipeline fetched it at that position or kept it.
-/
import proofs.«181116_j87170656240173_2_alg».proof.Proof.Gen.KernelIdeal.Launch
import proofs.«181116_j87170656240173_2_alg».proof.Proof.Gen.KernelIdeal.Skeleton
import proofs.«181116_j87170656240173_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset branch is taken: the trailing grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The copy-out branch is taken: the trailing grid coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are touched -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1024 .f32 := win0_7.stage (cfg0.slots t 7)
abbrev hs0_7 (t : Fin cfg0.N) : (ms0_7 t).IsWhole := hstage0_7 ((cfg0.slots t 7).cast nbuf0_7)
/-- The three scratch rows: running maximum, running sum of exponentials, running weighted sum. -/
abbrev scM0 : Memref sig .tc .vmem S1x1024 .f32 := Memref.whole cc0_scratch0
abbrev scM1 : Memref sig .tc .vmem S1x1024 .f32 := Memref.whole cc0_scratch1
abbrev scM2 : Memref sig .tc .vmem S1x1024 .f32 := Memref.whole cc0_scratch2
abbrev VS0 : View sig .tc .vmem S1x1024 .f32 := scM0.view
abbrev VS1 : View sig .tc .vmem S1x1024 .f32 := scM1.view
abbrev VS2 : View sig .tc .vmem S1x1024 .f32 := scM2.view
/-- One staging buffer of each result window, through which its contents are stated. -/
abbrev VO5 : View sig .tc .vmem S1x1x1024 .f32 := (Memref.whole cc0_stg5_0 : Memref sig .tc .vmem S1x1x1024 .f32).view
abbrev VO6 : View sig .tc .vmem S1x1x1024 .f32 := (Memref.whole cc0_stg6_0 : Memref sig .tc .vmem S1x1x1024 .f32).view
abbrev VO7 : View sig .tc .vmem S1x1x1024 .f32 := (Memref.whole cc0_stg7_0 : Memref sig .tc .vmem S1x1x1024 .f32).view

/-! ## The region's invariant, opened -/

/-- The scoped buffers of the OTHER kernel region, each whole at some contents: this region never looks at them. -/
def otherRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- Before the first position the invariant is: the three scratch rows at anything, the other region's buffers at
    anything, the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ otherRest0 c) ∗ (∃ r, prngReg c r)) := by
  unfold Pipeline.ΦA; rw [scopedRest0_eq]; simp only [scM0, scM1, scM2, owns_whole, otherRest0]; try rfl

/-! ## The input windows' blocks, at the contents `V` the region is entered with -/

section Blocks
variable (V : (c : Dev nD) → (b : Ref sig .tc) → Buf (Elt F) ((c : Thread nD τ).loc b))

/-- Window `w`'s block at position `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.KernelIdeal.Fr

end
-- ==== Proof.FrKernelIdeal.Run0A.lean ====
/-
  The streaming kernel's body at a grid position that starts a half of the rows (trailing coordinate 0): it first
  resets the three scratch rows (maximum to -∞, both sums to 0), then folds the tile in and stores the three rows
  back; what the scratch rows held before does not matter, and the result windows' buffers are not touched.
-/
import proofs.«181116_j87170656240173_2_alg».proof.Proof.Gen.KernelIdeal.Launch
import proofs.«181116_j87170656240173_2_alg».proof.Proof.Gen.KernelIdeal.Skeleton
import proofs.«181116_j87170656240173_2_alg».proof.Proof.Gen.KernelIdeal.Points
import proofs.«181116_j87170656240173_2_alg».proof.Proof.FrKernelIdeal.Base0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch rows, as pieces, with the proof that the body runs from
    the inputs at their contents, the result windows' buffers at any contents (handed back untouched) and the scratch
    rows at anything to the continuation holding the scratch rows with those pieces written. -/
noncomputable def kernelRun0_A (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec F S1024x1024 .f32) (x1 : Vec F S1024x1024 .bf16) (x2 : Vec F S1x1024 .f32) (x3 : Vec F S1024x1024 .bf16) (x4 : Vec F S1x1024 .f32) :
    Σ' (LS0 : List (View.Piece (Elt F) S1x1024 .f32)) (LS1 : List (View.Piece (Elt F) S1x1024 .f32)), { LS2 : List (View.Piece (Elt F) S1x1024 .f32) //
      ∀ (xi5 xi6 xi7 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12) K } := by
  refine ⟨?_, ?_, ?_, fun xi5 xi6 xi7 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.KernelIdeal.Fr

end
-- ==== Proof.FrKernelIdeal.Run0B.lean ====
/-
  The streaming kernel's body at a grid position that neither resets nor copies out (trailing coordinate 1 or 2):
  it reads the three scratch rows as the position before left them, folds the tile in, and stores the three rows
  back; the result windows' buffers are not touched.
-/
import proofs.«181116_j87170656240173_2_alg».proof.Proof.Gen.KernelIdeal.Launch
import proofs.«181116_j87170656240173_2_alg».proof.Proof.Gen.KernelIdeal.Skeleton
import proofs.«181116_j87170656240173_2_alg».proof.Proof.Gen.KernelIdeal.Points
import proofs.«181116_j87170656240173_2_alg».proof.Proof.FrKernelIdeal.Base0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three scratch rows, as pieces, with the proof that the body runs from
    the inputs at their contents, the result windows' buffers at any contents (handed back untouched) and the scratch
    rows at `xs·` to the continuation holding the scratch rows with those pieces written. -/
noncomputable def kernelRun0_B (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i)
    (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) :
    Σ' (LS0 : List (View.Piece (Elt F) S1x1024 .f32)) (LS1 : List (View.Piece (Elt F) S1x1024 .f32)), { LS2 : List (View.Piece (Elt F) S1x1024 .f32) //
      ∀ (xi5 xi6 xi7 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12) K } := by
  refine ⟨?_, ?_, ?_, fun xi5 xi6 xi7 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.KernelIdeal.Fr

end
-- ==== Proof.FrKernelIdeal.Run0C.lean ====
/-
  The streaming kernel's body at a grid position that ends a half of the rows (trailing coordinate 3): it reads the
  three scratch rows as the position before left them, folds the tile in, stores the three rows back, and then copies
  each scratch row into its result window's buffer.
-/
import proofs.«181116_j87170656240173_2_alg».proof.Proof.Gen.KernelIdeal.Launch
import proofs.«181116_j87170656240173_2_alg».proof.Proof.Gen.KernelIdeal.Skeleton
import proofs.«181116_j87170656240173_2_alg».proof.Proof.Gen.KernelIdeal.Points
import proofs.«181116_j87170656240173_2_alg».proof.Proof.FrKernelIdeal.Base0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the three result windows' buffers and in the three scratch rows, as pieces, with
    the proof that the body runs from the inputs at their contents, the result windows' buffers at anything and the
    scratch rows at `xs·` to the continuation holding each of the six with its pieces written. -/
noncomputable def kernelRun0_C (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) :
    Σ' (L5 : List (View.Piece (Elt F) S1x1x1024 .f32)) (L6 : List (View.Piece (Elt F) S1x1x1024 .f32)) (L7 : List (View.Piece (Elt F) S1x1x1024 .f32)) (LS0 : List (View.Piece (Elt F) S1x1024 .f32)) (LS1 : List (View.Piece (Elt F) S1x1024 .f32)), { LS2 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    iexists _; iexact HS2

end Cert.KernelIdeal.Fr

end
-- ==== Proof.FrKernelIdeal.Body0.lean ====
/-
  The streaming kernel region as a whole: what its three scratch rows hold after each grid position (a recurrence over
  the positions: positions ≡ 0 mod 4 start afresh, the others continue from the position before), what its three
  result buffers hold after the positions ≡ 3 mod 4 (the scratch rows copied out), the invariant that carries the
  scratch rows from one position to the next, and the proof that the body meets that description at every position.
-/
import proofs.«181116_j87170656240173_2_alg».proof.Proof.Gen.KernelIdeal.Launch
import proofs.«181116_j87170656240173_2_alg».proof.Proof.Gen.KernelIdeal.Skeleton
import proofs.«181116_j87170656240173_2_alg».proof.Proof.Gen.KernelIdeal.Points
import proofs.«181116_j87170656240173_2_alg».proof.Proof.FrKernelIdeal.Run0A
import proofs.«181116_j87170656240173_2_alg».proof.Proof.FrKernelIdeal.Run0B
import proofs.«181116_j87170656240173_2_alg».proof.Proof.FrKernelIdeal.Run0C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave -/

theorem scover0_A_0 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).1 S1x1024.size (by sl_kernel_rfl) y
def sout0_A_0 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) : Vec F S1x1024 .f32 :=
  VS0.read (Elt F) (VS0.writes (Elt F) VS0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).1)

theorem scover0_A_1 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1 S1x1024.size (by sl_kernel_rfl) y
def sout0_A_1 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) : Vec F S1x1024 .f32 :=
  VS1.read (Elt F) (VS1.writes (Elt F) VS1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.1)

theorem scover0_A_2 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1 S1x1024.size (by sl_kernel_rfl) y
def sout0_A_2 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) : Vec F S1x1024 .f32 :=
  VS2.read (Elt F) (VS2.writes (Elt F) VS2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4).2.2.1)

theorem scover0_B_0 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S1x1024.size (by sl_kernel_rfl) y
def sout0_B_0 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1024 .f32 :=
  VS0.read (Elt F) (VS0.writes (Elt F) VS0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1)

theorem scover0_B_1 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S1x1024.size (by sl_kernel_rfl) y
def sout0_B_1 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1024 .f32 :=
  VS1.read (Elt F) (VS1.writes (Elt F) VS1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1)

theorem scover0_B_2 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S1x1024.size (by sl_kernel_rfl) y
def sout0_B_2 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1024 .f32 :=
  VS2.read (Elt F) (VS2.writes (Elt F) VS2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1)

theorem scover0_C_0 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1 S1x1024.size (by sl_kernel_rfl) y
def sout0_C_0 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1024 .f32 :=
  VS0.read (Elt F) (VS0.writes (Elt F) VS0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1)

theorem scover0_C_1 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1 S1x1024.size (by sl_kernel_rfl) y
def sout0_C_1 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1024 .f32 :=
  VS1.read (Elt F) (VS1.writes (Elt F) VS1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1)

theorem scover0_C_2 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1 S1x1024.size (by sl_kernel_rfl) y
def sout0_C_2 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1024 .f32 :=
  VS2.read (Elt F) (VS2.writes (Elt F) VS2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1)

theorem cover0_C_5 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S1x1x1024.size (by sl_kernel_rfl) y
def out0_C_5 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1x1024 .f32 :=
  VO5.read (Elt F) (VO5.writes (Elt F) VO5.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1)

theorem cover0_C_6 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S1x1x1024.size (by sl_kernel_rfl) y
def out0_C_6 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1x1024 .f32 :=
  VO6.read (Elt F) (VO6.writes (Elt F) VO6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1)

theorem cover0_C_7 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) (y : S1x1x1024.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S1x1x1024.size (by sl_kernel_rfl) y
def out0_C_7 (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) : Vec F S1x1x1024 .f32 :=
  VO7.read (Elt F) (VO7.writes (Elt F) VO7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1)

section Region0
variable (V : (c : Dev nD) → (b : Ref sig .tc) → Buf (Elt F) ((c : Thread nD τ).loc b))

/-! ## The scratch rows and the result buffers, position by position -/

/-- The three scratch rows after a position that resets them first. -/
def stA (c : Dev nD) (t : Fin cfg0.N) (hc0 : cond0_0 (grid0.coords t)) (hc1 : ¬cond0_1 (grid0.coords t)) : (Vec F S1x1024 .f32 × Vec F S1x1024 .f32 × Vec F S1x1024 .f32) :=
  (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t))
/-- The three scratch rows after a middle position, from what the position before left (`p`). -/
def stB (c : Dev nD) (t : Fin cfg0.N) (hc0 : ¬cond0_0 (grid0.coords t)) (hc1 : ¬cond0_1 (grid0.coords t)) (p : (Vec F S1x1024 .f32 × Vec F S1x1024 .f32 × Vec F S1x1024 .f32)) : (Vec F S1x1024 .f32 × Vec F S1x1024 .f32 × Vec F S1x1024 .f32) :=
  (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2,
   sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2)
/-- The three scratch rows after a position that copies them out, from what the position before left. -/
def stC (c : Dev nD) (t : Fin cfg0.N) (hc0 : ¬cond0_0 (grid0.coords t)) (hc1 : cond0_1 (grid0.coords t)) (p : (Vec F S1x1024 .f32 × Vec F S1x1024 .f32 × Vec F S1x1024 .f32)) : (Vec F S1x1024 .f32 × Vec F S1x1024 .f32 × Vec F S1x1024 .f32) :=
  (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2,
   sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2)
/-- The three result buffers after a position that copies the scratch rows out. -/
def outC (c : Dev nD) (t : Fin cfg0.N) (hc0 : ¬cond0_0 (grid0.coords t)) (hc1 : cond0_1 (grid0.coords t)) (p : (Vec F S1x1024 .f32 × Vec F S1x1024 .f32 × Vec F S1x1024 .f32)) : (Vec F S1x1x1024 .f32 × Vec F S1x1x1024 .f32 × Vec F S1x1x1024 .f32) :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2,
   out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2,
   out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc0 hc1 (iblk0 V c 0 t) (iblk0 V c 1 t) (iblk0 V c 2 t) (iblk0 V c 3 t) (iblk0 V c 4 t) p.1 p.2.1 p.2.2)

/-- THE RECURRENCE. The three scratch rows after the body at position `n`: positions ≡ 0 (mod 4) start afresh, the
    others continue from the position before. -/
def stAt (c : Dev nD) : (n : ℕ) → n < cfg0.N → (Vec F S1x1024 .f32 × Vec F S1x1024 .f32 × Vec F S1x1024 .f32)
  | 0, hn => stA V c ⟨0, hn⟩ ((hcond0_0 ⟨0, hn⟩).mpr (Nat.zero_mod _)) (fun h => absurd ((hcond0_1 ⟨0, hn⟩).mp h) (by show ¬ 0 % 4 = 3; decide))
  | n + 1, hn =>
    if h0 : (n + 1) % 4 = 0 then
      stA V c ⟨n + 1, hn⟩ ((hcond0_0 ⟨n + 1, hn⟩).mpr h0) (fun h => absurd ((hcond0_1 ⟨n + 1, hn⟩).mp h) (by show ¬ (n + 1) % 4 = 3; omega))
    else if h3 : (n + 1) % 4 = 3 then
      stC V c ⟨n + 1, hn⟩ (fun h => h0 ((hcond0_0 ⟨n + 1, hn⟩).mp h)) ((hcond0_1 ⟨n + 1, hn⟩).mpr h3) (stAt c n (Nat.lt_of_succ_lt hn))
    else
      stB V c ⟨n + 1, hn⟩ (fun h => h0 ((hcond0_0 ⟨n + 1, hn⟩).mp h)) (fun h => h3 ((hcond0_1 ⟨n + 1, hn⟩).mp h)) (stAt c n (Nat.lt_of_succ_lt hn))

theorem stAt_A (c : Dev nD) (t : Fin cfg0.N) (h0 : t.val % 4 = 0) (h3 : ¬t.val % 4 = 3) :
    stAt V c t.val t.isLt = stA V c t ((hcond0_0 t).mpr h0) (fun h => h3 ((hcond0_1 t).mp h)) := by
  obtain ⟨n, hn⟩ := t
  cases n with
  | zero => exact rfl
  | succ n => exact (dif_pos h0).trans rfl

theorem stAt_B (c : Dev nD) (t : Fin cfg0.N) (h0 : ¬t.val % 4 = 0) (h3 : ¬t.val % 4 = 3) :
    stAt V c t.val t.isLt = stB V c t (fun h => h0 ((hcond0_0 t).mp h)) (fun h => h3 ((hcond0_1 t).mp h))
      (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem stAt_C (c : Dev nD) (t : Fin cfg0.N) (h0 : ¬t.val % 4 = 0) (h3 : t.val % 4 = 3) :
    stAt V c t.val t.isLt = stC V c t (fun h => h0 ((hcond0_0 t).mp h)) ((hcond0_1 t).mpr h3)
      (stAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans rfl)

/-- The three result buffers after the body at position `n`: at a position ≡ 3 (mod 4) the scratch rows copied out; at the
    others a placeholder nothing consults (the windows are neither written back there nor read at the next position). -/
def outAt (c : Dev nD) (n : ℕ) (hn : n < cfg0.N) : (Vec F S1x1x1024 .f32 × Vec F S1x1x1024 .f32 × Vec F S1x1x1024 .f32) :=
  if h3 : n % 4 = 3 then
    outC V c ⟨n, hn⟩ (fun h => absurd ((hcond0_0 ⟨n, hn⟩).mp h) (by show ¬ n % 4 = 0; omega)) ((hcond0_1 ⟨n, hn⟩).mpr h3)
      (stAt V c (n - 1) (Nat.lt_of_le_of_lt (Nat.sub_le _ _) hn))
  else (VO5.read (Elt F) (VO5.writes (Elt F) VO5.junk []), VO6.read (Elt F) (VO6.writes (Elt F) VO6.junk []), VO7.read (Elt F) (VO7.writes (Elt F) VO7.junk []))

theorem outAt_C (c : Dev nD) (t : Fin cfg0.N) (h0 : ¬t.val % 4 = 0) (h3 : t.val % 4 = 3) :
    outAt V c t.val t.isLt = outC V c t (fun h => h0 ((hcond0_0 t).mp h)) ((hcond0_1 t).mpr h3)
      (stAt V c (t.val - 1) (Nat.lt_of_le_of_lt (Nat.sub_le _ _) t.isLt)) :=
  (dif_pos h3).trans rfl

/-! ## The region's invariant -/

/-- Before position `n`: at the start the class's invariant (every scratch row at anything); afterwards the three
    scratch rows at what position `n - 1` left, the other region's buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((stAt V c n hn).1) ∗ owns (c : Thread nD τ) scM1 fullShare ((stAt V c n hn).2.1) ∗ owns (c : Thread nD τ) scM2 fullShare ((stAt V c n hn).2.2) ∗ otherRest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((stAt V c n hn).1) ∗ owns (c : Thread nD τ) scM1 fullShare ((stAt V c n hn).2.1) ∗ owns (c : Thread nD τ) scM2 fullShare ((stAt V c n hn).2.2) ∗ otherRest0 c) ∗ (∃ r, prngReg c r)) := rfl
theorem PhiS_pos (c : Dev nD) (n : ℕ) (h : n ≤ cfg0.N) (hz : n ≠ 0) :
    PhiS V c n h = iprop(iprop(owns (c : Thread nD τ) scM0 fullShare ((stAt V c (n - 1) (by omega)).1) ∗ owns (c : Thread nD τ) scM1 fullShare ((stAt V c (n - 1) (by omega)).2.1) ∗ owns (c : Thread nD τ) scM2 fullShare ((stAt V c (n - 1) (by omega)).2.2) ∗ otherRest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outAt V c t.val t.isLt).1
    | ⟨6, _⟩ => (outAt V c t.val t.isLt).2.1
    | ⟨7, _⟩ => (outAt V c t.val t.isLt).2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outAt V c t.val t.isLt).1 := by dsimp only [dat0]
theorem after0_6 (c : Dev nD) (t : Fin cfg0.N) : (dat0 V c).after 6 t = (outAt V c t.val t.isLt).2.1 := by dsimp only [dat0]
theorem after0_7 (c : Dev nD) (t : Fin cfg0.N) : (dat0 V c).after 7 t = (outAt V c t.val t.isLt).2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
theorem sound_body0_A (c : Dev nD) (t : Fin cfg0.N) (h0 : t.val % 4 = 0) (h3 : ¬t.val % 4 = 3) :
    bodyPre0 V c t ⊢ wp frame (wpE (defs₀ (F := F)) Variants.none c none) Set.univ (bodyAt0 t) (fun _ => bodyPost0 V c t) := by
  have hc0 : cond0_0 (grid0.coords t) := (hcond0_0 t).mpr h0
  have hc1 : ¬cond0_1 (grid0.coords t) := fun h => h3 ((hcond0_1 t).mp h)
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [Dat.leavesExact_idle (dat0 V c) 5 t (idleAt0_5 t hc1) (noFlush0_5 t hc1)]
  rw [Dat.leavesExact_idle (dat0 V c) 6 t (idleAt0_6 t hc1) (noFlush0_6 t hc1)]
  rw [Dat.leavesExact_idle (dat0 V c) 7 t (idleAt0_7 t hc1) (noFlush0_7 t hc1)]
  rw [stAt_A V c t h0 h3]
  unfold stA sout0_A_0 sout0_A_1 sout0_A_2; (try dsimp only)
  by_cases hz : t.val = 0
  · rw [PhiS_castSucc V c t, PhiS_zero V c _ _ hz, PhiA0_eq]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, ⟨%es0, HS0⟩, ⟨%es1, HS1⟩, ⟨%es2, HS2⟩⟩
    isplitl [HS0 HS1 HS2 HR Hg]
    · isplitl [HS0 HS1 HS2 HR]
      swap; · iexact Hg
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7
  · rw [PhiS_castSucc V c t, PhiS_pos V c _ _ hz]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t)).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexists _; iexact HS1
    isplitl [HS2]; · iexists _; iexact HS2
    iintro ⟨H0, H1, H2, H3, H4, H5, H6, H7, ⟨%es0, HS0⟩, ⟨%es1, HS1⟩, ⟨%es2, HS2⟩⟩
    isplitl [HS0 HS1 HS2 HR Hg]
    · isplitl [HS0 HS1 HS2 HR]
      swap; · iexact Hg
      isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_A_2 c _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

set_option maxHeartbeats 4000000 in
theorem sound_body0_B (c : Dev nD) (t : Fin cfg0.N) (h0 : ¬t.val % 4 = 0) (h3 : ¬t.val % 4 = 3) :
    bodyPre0 V c t ⊢ wp frame (wpE (defs₀ (F := F)) Variants.none c none) Set.univ (bodyAt0 t) (fun _ => bodyPost0 V c t) := by
  have hc0 : ¬cond0_0 (grid0.coords t) := fun h => h0 ((hcond0_0 t).mp h)
  have hc1 : ¬cond0_1 (grid0.coords t) := fun h => h3 ((hcond0_1 t).mp h)
  have hz : t.val ≠ 0 := fun h => h0 (by rw [h])
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [Dat.leavesExact_idle (dat0 V c) 5 t (idleAt0_5 t hc1) (noFlush0_5 t hc1)]
  rw [Dat.leavesExact_idle (dat0 V c) 6 t (idleAt0_6 t hc1) (noFlush0_6 t hc1)]
  rw [Dat.leavesExact_idle (dat0 V c) 7 t (idleAt0_7 t hc1) (noFlush0_7 t hc1)]
  rw [stAt_B V c t h0 h3]
  unfold stB sout0_B_0 sout0_B_1 sout0_B_2; (try dsimp only)
  · rw [PhiS_castSucc V c t, PhiS_pos V c _ _ hz]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) _ _ _).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, ⟨%es0, HS0⟩, ⟨%es1, HS1⟩, ⟨%es2, HS2⟩⟩
    isplitl [HS0 HS1 HS2 HR Hg]
    · isplitl [HS0 HS1 HS2 HR]
      swap; · iexact Hg
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_B_1 c _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_B_2 c _ _ _ _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

set_option maxHeartbeats 4000000 in
theorem sound_body0_C (c : Dev nD) (t : Fin cfg0.N) (h0 : ¬t.val % 4 = 0) (h3 : t.val % 4 = 3) :
    bodyPre0 V c t ⊢ wp frame (wpE (defs₀ (F := F)) Variants.none c none) Set.univ (bodyAt0 t) (fun _ => bodyPost0 V c t) := by
  have hc0 : ¬cond0_0 (grid0.coords t) := fun h => h0 ((hcond0_0 t).mp h)
  have hc1 : cond0_1 (grid0.coords t) := (hcond0_1 t).mpr h3
  have hz : t.val ≠ 0 := fun h => h0 (by rw [h])
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t hc1], after0_5]
  rw [show (dat0 V c).leavesExact 6 t = owns (c : Thread nD τ) (ms0_6 t) fullShare ((dat0 V c).after 6 t) from by
    unfold Dat.leavesExact; rw [liveAt0_6 t hc1], after0_6]
  rw [show (dat0 V c).leavesExact 7 t = owns (c : Thread nD τ) (ms0_7 t) fullShare ((dat0 V c).after 7 t) from by
    unfold Dat.leavesExact; rw [liveAt0_7 t hc1], after0_7]
  rw [stAt_C V c t h0 h3, outAt_C V c t h0 h3]
  unfold stC outC sout0_C_0 sout0_C_1 sout0_C_2 out0_C_5 out0_C_6 out0_C_7; (try dsimp only)
  · rw [PhiS_castSucc V c t, PhiS_pos V c _ _ hz]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C c (grid0.coords t) _ _ _ _ _ _ _ _ _ _ _ _ _ _ _ _ _ _ _ _ _ _ hc0 hc1 (iblk0 V c 0 t) (iblk0 V c 1 t) (iblk0 V c 2 t) (iblk0 V c 3 t) (iblk0 V c 4 t) _ _ _).2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, ⟨%e5, H5⟩, ⟨%e6, H6⟩, ⟨%e7, H7⟩, ⟨%es0, HS0⟩, ⟨%es1, HS1⟩, ⟨%es2, HS2⟩⟩
    isplitl [HS0 HS1 HS2 HR Hg]
    · isplitl [HS0 HS1 HS2 HR]
      swap; · iexact Hg
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_C_1 c _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover0_C_2 c _ _ _ _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_C_5 c _ _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _ _ _ _)
    unfold owns; iexists _; isplitr
    swap; · iexact H7
    ipureintro; exact View.read_writes_of_cover _ _ _ _ _ (cover0_C_7 c _ _ _ _ _ _ _ _ _ _ _ _ _ _ _ _ _ _ _ _ _ _ _ _ _ _ _ _ _ _ _ _ _)

/-- The body at any position: one of the three cases. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val % 4 = 0
  · exact sound_body0_A V c t h0 (by omega)
  · by_cases h3 : t.val % 4 = 3
    · exact sound_body0_C V c t h0 h3
    · exact sound_body0_B V c t h0 h3

theorem body_obligation0 (c : Dev nD) : BodyObligation (dat0 (F := F) V c) (defs₀ (F := F)) Variants.none () Set.univ := fun t => by
  rw [bigSep_W0, bigSep_W0]
  exact sound_body0 V c t

/-- What the launch hands the region is the invariant before the first position. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last position the invariant gives the class's back: what the scratch rows hold is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨⟨HS0, HS1, HS2, HR⟩, Hg⟩
  isplitl [HS0 HS1 HS2 HR]
  · isplitl [HS0]; · iexists _; iexact HS0
    isplitl [HS1]; · iexists _; iexact HS1
    isplitl [HS2]; · iexists _; iexact HS2
    iexact HR
  iexact Hg

end Region0

end Cert.KernelIdeal.Fr

end
-- ==== Proof.FrKernelIdeal.Body1.lean ====
/-
  The output kernel (the second kernel region): at each of its 8 grid positions it reads a tile of 1024 rows of the
  activations, the transposed query weights, the query bias and the one-entry array holding the context scalar, and
  stores σ(tile·Wqᵀ + bq)·scalar over its whole result block. Every position writes its block back; nothing is kept
  between positions.
-/
import proofs.«181116_j87170656240173_2_alg».proof.Proof.Gen.KernelIdeal.Launch
import proofs.«181116_j87170656240173_2_alg».proof.Proof.Gen.KernelIdeal.Skeleton
import proofs.«181116_j87170656240173_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at position `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
abbrev VO1_4 : View sig .tc .vmem S1024x1024 .f32 := (Memref.whole cc1_stg4_0 : Memref sig .tc .vmem S1024x1024 .f32).view

set_option maxHeartbeats 4000000 in
/-- What the body's one store leaves in the result window's buffer, as pieces, with the proof that the body runs from
    the inputs at their contents and the result buffer at anything to the continuation holding it with those pieces. -/
noncomputable def kernelRun1 (c : Dev nD) (i : grid1.Coords) (arg1 : Memref sig .tc .vmem S1024x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (x0 : Vec F S1024x1024 .f32) (x1 : Vec F S1024x1024 .bf16) (x2 : Vec F S1x1024 .f32) (x3 : Vec F S1x1 .f32) :
    { L4 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc1__output_kernel i arg1 harg1 arg2 harg2 arg3 harg3 arg4 harg4 arg5 harg5) K } := by
  refine ⟨?_, fun E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The store covers the result buffer. -/
theorem cover1_4 (c : Dev nD) (i : grid1.Coords) (arg1 : Memref sig .tc .vmem S1024x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (x0 : Vec F S1024x1024 .f32) (x1 : Vec F S1024x1024 .bf16) (x2 : Vec F S1x1024 .f32) (x3 : Vec F S1x1 .f32) (y : S1024x1024.Idx) :
    ∃ pc ∈ (kernelRun1 c i arg1 harg1 arg2 harg2 arg3 harg3 arg4 harg4 arg5 harg5 x0 x1 x2 x3).1, y ∈ pc.1.set :=
  View.cover_of_tiledL (kernelRun1 c i arg1 harg1 arg2 harg2 arg3 harg3 arg4 harg4 arg5 harg5 x0 x1 x2 x3).1 S1024x1024.size (by sl_kernel_rfl) y

/-- What the body leaves in the result window's buffer: its pieces read back. -/
def out1_4 (c : Dev nD) (i : grid1.Coords) (arg1 : Memref sig .tc .vmem S1024x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (x0 : Vec F S1024x1024 .f32) (x1 : Vec F S1024x1024 .bf16) (x2 : Vec F S1x1024 .f32) (x3 : Vec F S1x1 .f32) : Vec F S1024x1024 .f32 :=
  VO1_4.read (Elt F) (VO1_4.writes (Elt F) VO1_4.junk (kernelRun1 c i arg1 harg1 arg2 harg2 arg3 harg3 arg4 harg4 arg5 harg5 x0 x1 x2 x3).1)

/-- The region's proof data at the entry contents `V`: inputs stay at their blocks, the result buffer at what the body
    stores, the class's invariant untouched, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold out1_4
  iintro ⟨HΦ, Ho, ⟨%d0, H0⟩, ⟨%d1, H1⟩, ⟨%d2, H2⟩, ⟨%d3, H3⟩, ⟨%d4, H4⟩⟩
  iapply ((kernelRun1 c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_4 c _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.FrKernelIdeal.Run.lean ====
/-
  The whole program as five segments — host operations, the streaming kernel region, host operations, the output
  kernel region, a final reshape — and what every buffer holds at each boundary between them: a fold from the launch
  memory (a stretch of host operations applies its operations in order; a kernel region leaves each of its windows'
  arrays at what its write-backs make of it and every other buffer as it found it). The program runs to the end
  without a fault and every buffer that outlives the kernels ends at the last boundary's contents; in particular each
  argument array ends as it was launched, because no host operation and no region writes one.
-/
import proofs.«181116_j87170656240173_2_alg».proof.Proof.Gen.KernelIdeal.Launch
import proofs.«181116_j87170656240173_2_alg».proof.Proof.Gen.KernelIdeal.Skeleton
import proofs.«181116_j87170656240173_2_alg».proof.Proof.Gen.KernelIdeal.Points
import proofs.«181116_j87170656240173_2_alg».proof.Proof.Gen.KernelIdeal.Regions
import proofs.«181116_j87170656240173_2_alg».proof.Proof.FrKernelIdeal.Body0
import proofs.«181116_j87170656240173_2_alg».proof.Proof.FrKernelIdeal.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Kernel region 0 over the thread state: entered from every unscoped buffer at the contents before it, left with
    its windows' arrays at what its write-backs leave and every other buffer as entered; the generator register goes
    into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at the contents before it, left with
    its windows' arrays at what its write-backs leave and every other buffer as entered; the generator register goes
    into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every buffer that is not a kernel's own ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m c)) ∗ R c) : sProp 𝕄)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c)⟩) (run_all m ρ)

end Cert.KernelIdeal.Fr

end
-- ==== Proof.Spec.lean ====
/-
  The mathematics both programs compute, over plain `Fin`-indexed families of extended reals.

  With K = q·Wkᵀ + bk, V = q·Wvᵀ + bv and Q = q·Wqᵀ + bq (rows s < 8192, columns f < 1024) the result at
  (s, f) is  σ(Q s f) · Σ_f Σ_s softmax(K · f) s · V s f,  the softmax taken DOWN each column (over the 8192
  rows) and σ x = 1 / (1 + e^(-x)).

  Two ways of computing the column sums are stated here. The direct one (`colCtx`): the column's maximum, the
  exponentials against it, their sum, each weight normalised before it meets V. The streamed one (`Acc.step`,
  `coreAcc`, `combine`): the 8192 rows are cut in 8 tiles of 1024; a running triple (maximum so far, Σ e^(k - max),
  Σ e^(k - max)·v) absorbs one tile at a time, rescaling what it holds by e^(old max - new max); rows 0–4095 and
  rows 4096–8191 are streamed separately and the two triples are merged by the same rescaling, the quotient taken
  once at the end. That the two agree on finite columns is `Proof/Streamed.lean`.
-/
import Idealize.ShloMosaic.PureOps.Ideal

noncomputable section

namespace Cert.Aft

open Idealize.ShloMosaic

/-- A row of the activations against a row of a weight matrix, plus the bias: (q·Wᵀ + b) at (s, f). -/
def proj (q : Fin 8192 → Fin 1024 → EReal) (W : Fin 1024 → Fin 1024 → EReal) (b : Fin 1024 → EReal)
    (s : Fin 8192) (f : Fin 1024) : EReal :=
  (∑ e : Fin 1024, q s e * W f e) + b f

/-- The maximum of a column. -/
def colMax (k : Fin 8192 → EReal) : EReal := Finset.univ.sup k

/-- The softmax denominator of a column: Σ_s e^(k s - max). -/
def colDen (k : Fin 8192 → EReal) : EReal := ∑ s, Ideal.exp (k s - colMax k)

/-- Σ_s softmax(k) s · v s, each weight normalised before the product. -/
def colCtx (k v : Fin 8192 → EReal) : EReal :=
  ∑ s, Ideal.div (Ideal.exp (k s - colMax k)) (colDen k) * v s

/-- The running state of a softmax streamed down one column: the maximum so far, Σ e^(k - max) and
    Σ e^(k - max)·v over the rows absorbed so far. -/
structure Acc where
  m : EReal
  l : EReal
  a : EReal

/-- Nothing absorbed yet: the maximum of no rows is -∞, both sums are empty. -/
def Acc.init : Acc := ⟨⊥, 0, 0⟩

/-- Absorb a tile of 1024 rows: the maximum grows, what is held is rescaled by e^(old max - new max), the
    tile's own terms are added against the new maximum. -/
def Acc.step (k v : Fin 1024 → EReal) (s : Acc) : Acc :=
  ⟨max s.m (Finset.univ.sup k),
   s.l * Ideal.exp (s.m - max s.m (Finset.univ.sup k)) + ∑ r, Ideal.exp (k r - max s.m (Finset.univ.sup k)),
   s.a * Ideal.exp (s.m - max s.m (Finset.univ.sup k)) + ∑ r, Ideal.exp (k r - max s.m (Finset.univ.sup k)) * v r⟩

/-- Row `r` of tile `n` among the 8192 rows. -/
def trow (n : Fin 8) (r : Fin 1024) : Fin 8192 := ⟨n.val * 1024 + r.val, by omega⟩

/-- Absorb tile `n` of a column. -/
def tileAcc (k v : Fin 8192 → EReal) (n : Fin 8) (s : Acc) : Acc :=
  Acc.step (fun r => k (trow n r)) (fun r => v (trow n r)) s

/-- Half `c` of a column (rows 4096·c … 4096·c + 4095) streamed from nothing through its four tiles. -/
def coreAcc (k v : Fin 8192 → EReal) (c : Fin 2) : Acc :=
  tileAcc k v ⟨4 * c.val + 3, by omega⟩ (tileAcc k v ⟨4 * c.val + 2, by omega⟩
    (tileAcc k v ⟨4 * c.val + 1, by omega⟩ (tileAcc k v ⟨4 * c.val, by omega⟩ Acc.init)))

/-- Merge the two halves' states and take the quotient: Σ e^(k - max)·v over Σ e^(k - max), both over all rows. -/
def combine (s0 s1 : Acc) : EReal :=
  Ideal.div (s0.a * Ideal.exp (s0.m - max s0.m s1.m) + s1.a * Ideal.exp (s1.m - max s0.m s1.m))
    (s0.l * Ideal.exp (s0.m - max s0.m s1.m) + s1.l * Ideal.exp (s1.m - max s0.m s1.m))

/-- The context scalar, computed directly: Σ_f Σ_s softmax(K · f) s · V s f. -/
def ctx (K V : Fin 8192 → Fin 1024 → EReal) : EReal :=
  ∑ f, colCtx (fun s => K s f) (fun s => V s f)

/-- The context scalar, streamed: per column the two halves merged. -/
def ctxStreamed (K V : Fin 8192 → Fin 1024 → EReal) : EReal :=
  ∑ f, combine (coreAcc (fun s => K s f) (fun s => V s f) 0) (coreAcc (fun s => K s f) (fun s => V s f) 1)

/-- The result at (s, f): σ(Q s f) times the context scalar. -/
def out (q : Fin 8192 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (s : Fin 8192) (f : Fin 1024) : EReal :=
  Ideal.div 1 (1 + Ideal.exp (-(proj q Wq bq s f))) * ctx (proj q Wk bk) (proj q Wv bv)

end Cert.Aft

end
-- ==== Proof.SpecArr.lean ====
/-
  The specification read over arrays: the seven argument arrays as `Fin`-indexed families, and the result array
  whose entry (0, s, f) is `Cert.Aft.out` at (s, f).
-/
import Idealize.ShloMosaic.Lib.ValueIdx
import proofs.«181116_j87170656240173_2_alg».proof.Proof.Spec

noncomputable section

namespace Cert.Aft

open Idealize.ShloMosaic Idealize.ShloMosaic.ValueIdx

/-- The activations [1, 8192, 1024] as rows × features (the leading axis has one entry). -/
def qOf (a : (⟨3, ![1, 8192, 1024]⟩ : Shape).Idx → EReal) : Fin 8192 → Fin 1024 → EReal :=
  fun s e => a (ix3 (0 : Fin 1) s e)

/-- A weight matrix [1024, 1024] as output feature × input feature. -/
def wOf (a : (⟨2, ![1024, 1024]⟩ : Shape).Idx → EReal) : Fin 1024 → Fin 1024 → EReal :=
  fun f e => a (ix2 f e)

/-- A bias [1024]. -/
def bOf (a : (⟨1, ![1024]⟩ : Shape).Idx → EReal) : Fin 1024 → EReal :=
  fun f => a (ix1 f)

/-- The result array: entry (0, s, f) is σ(Q s f) times the context scalar. -/
def outArr (a0 : (⟨3, ![1, 8192, 1024]⟩ : Shape).Idx → EReal) (a1 : (⟨2, ![1024, 1024]⟩ : Shape).Idx → EReal)
    (a2 : (⟨1, ![1024]⟩ : Shape).Idx → EReal) (a3 : (⟨2, ![1024, 1024]⟩ : Shape).Idx → EReal)
    (a4 : (⟨1, ![1024]⟩ : Shape).Idx → EReal) (a5 : (⟨2, ![1024, 1024]⟩ : Shape).Idx → EReal)
    (a6 : (⟨1, ![1024]⟩ : Shape).Idx → EReal) : (⟨3, ![1, 8192, 1024]⟩ : Shape).Idx → EReal :=
  fun i => out (qOf a0) (wOf a1) (bOf a2) (wOf a3) (bOf a4) (wOf a5) (bOf a6) (i 1) (i 2)

end Cert.Aft

end
-- ==== Proof.RefValue.lean ====
/-
  The reference's result, read operation by operation, is the specification's result array.

  At the extended reals the reference computes, on a [1, 8192, 1024] array of activations q, three projections
  Q = q·Wqᵀ + bq, K = q·Wkᵀ + bk, V = q·Wvᵀ + bv (entry (0, s, f) is Σ_e q(0, s, e)·W(f, e) plus b(f)); the maximum
  M f of column f of K, taken from −∞ and then once more against −∞; E = e^(K − M); the column sums L f = 0 + Σ_s E s f;
  the weights E / L; their products with V; the column sums A f = 0 + Σ_s (E s f / L f)·V s f; the scalar
  c = 0 + Σ_f A f; and the result (0, s, f) ↦ (1 / (1 + e^(−Q s f)))·c.

  The specification (`Cert.Aft.out`) says the same with the sums not started from a zero and the maximum not started
  from −∞. Those are the only differences: 0 + x = x and max ⊥ x = x hold for every extended real, a maximum folded
  from ⊥ over all rows is the supremum over the rows, and the f32 patterns of the three constants denote 0, −∞ and 1.
  So no finiteness is needed: stage by stage, each of the reference's arrays read at an index is the corresponding
  quantity of the specification (`v3_at` … `v34_at`), and the last stage is the result array (`result_eq`).
  `run_spec` restates the generated run of the reference with that array in place of the composed term.
-/
import proofs.«181116_j87170656240173_2_alg».proof.Proof.Gen.ReferenceIdeal.Read
import proofs.«181116_j87170656240173_2_alg».proof.Proof.SpecArr

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo Cert.Aft

/-- The f32 pattern of −∞ is the bottom extended real. -/
theorem ofBits_ninf : Ideal.ofBits .f32 0xFF800000#32 = (⊥ : EReal) := by simp [Ideal.ofBits, Ideal.ieee]

/-- The f32 pattern of 1.0 is the extended real one. -/
theorem ofBits_one : Ideal.ofBits .f32 0x3F800000#32 = (1 : EReal) := by
  simp [Ideal.ofBits, Ideal.ieee, -EReal.coe_mul]; norm_num

/-- Q at (0, s, f): row s of the activations against row f of the weights, plus the bias. -/
theorem v3_at (x0 : (⟨S1x8192x1024, .f32⟩ : BufTy).Contents (Elt Ideal)) (x1 : (⟨S1024x1024, .f32⟩ : BufTy).Contents (Elt Ideal))
    (x2 : (⟨S1024, .f32⟩ : BufTy).Contents (Elt Ideal)) (a : Fin 1) (s : Fin 8192) (f : Fin 1024) :
    val_main_v3 (F := Ideal) x0 x1 x2 (ix3 a s f) = proj (qOf x0) (wOf x1) (bOf x2) s f := by
  obtain rfl : a = 0 := Subsingleton.elim _ _
  rw [val_main_v3_apply, val_main_v0_apply, val_main_v2_apply, val_main_v1_apply]
  have hl : ∀ k : Fin 1024, lidx_main_v0 (ix3 (0 : Fin 1) s f) k = ix3 (0 : Fin 1) s k := fun k =>
    funext fun c => by match c with | ⟨0, _⟩ => rfl | ⟨1, _⟩ => rfl | ⟨2, _⟩ => rfl
  have hr : ∀ k : Fin 1024, ridx_main_v0 (ix3 (0 : Fin 1) s f) k = ix2 f k := fun k =>
    funext fun c => by match c with | ⟨0, _⟩ => rfl | ⟨1, _⟩ => rfl
  have hb : idx_main_v1 (idx_main_v2 (ix3 (0 : Fin 1) s f)) = ix1 f :=
    funext fun c => by match c with | ⟨0, _⟩ => rfl
  rw [hb]
  simp only [hl, hr]
  rfl

/-- K and V are the same three operations as Q on other weights and biases. -/
theorem v7_eq_v3 (x0 : (⟨S1x8192x1024, .f32⟩ : BufTy).Contents (Elt Ideal)) (x3 : (⟨S1024x1024, .f32⟩ : BufTy).Contents (Elt Ideal)) (x4 : (⟨S1024, .f32⟩ : BufTy).Contents (Elt Ideal)) :
    val_main_v7 (F := Ideal) x0 x3 x4 = val_main_v3 (F := Ideal) x0 x3 x4 := rfl

theorem v11_eq_v3 (x0 : (⟨S1x8192x1024, .f32⟩ : BufTy).Contents (Elt Ideal)) (x5 : (⟨S1024x1024, .f32⟩ : BufTy).Contents (Elt Ideal)) (x6 : (⟨S1024, .f32⟩ : BufTy).Contents (Elt Ideal)) :
    val_main_v11 (F := Ideal) x0 x5 x6 = val_main_v3 (F := Ideal) x0 x5 x6 := rfl

/-- K at (0, s, f). -/
theorem v7_at (x0 : (⟨S1x8192x1024, .f32⟩ : BufTy).Contents (Elt Ideal)) (x3 : (⟨S1024x1024, .f32⟩ : BufTy).Contents (Elt Ideal)) (x4 : (⟨S1024, .f32⟩ : BufTy).Contents (Elt Ideal)) (a : Fin 1) (s : Fin 8192) (f : Fin 1024) :
    val_main_v7 (F := Ideal) x0 x3 x4 (ix3 a s f) = proj (qOf x0) (wOf x3) (bOf x4) s f := by
  rw [v7_eq_v3]; exact v3_at x0 x3 x4 a s f

/-- V at (0, s, f). -/
theorem v11_at (x0 : (⟨S1x8192x1024, .f32⟩ : BufTy).Contents (Elt Ideal)) (x5 : (⟨S1024x1024, .f32⟩ : BufTy).Contents (Elt Ideal)) (x6 : (⟨S1024, .f32⟩ : BufTy).Contents (Elt Ideal)) (a : Fin 1) (s : Fin 8192) (f : Fin 1024) :
    val_main_v11 (F := Ideal) x0 x5 x6 (ix3 a s f) = proj (qOf x0) (wOf x5) (bOf x6) s f := by
  rw [v11_eq_v3]; exact v3_at x0 x5 x6 a s f

/-- The reduced index (a, f) with row k put back is (a, k, f). -/
theorem lift_at (h : S1x8192x1024.Reduces [1] S1x1024) (a : Fin 1) (f : Fin 1024) (k : Fin (S1x8192x1024.size 1)) :
    h.lift (ix2 a f) k = ix3 a (⟨k.val, k.isLt⟩ : Fin 8192) f := by
  funext c; apply Fin.ext
  match c with | ⟨0, _⟩ => rfl | ⟨1, _⟩ => rfl | ⟨2, _⟩ => rfl

/-- The column maximum: the reduce with a maximum body from −∞ down the 8192 rows, then a maximum against −∞. -/
theorem v14_at (x0 : (⟨S1x8192x1024, .f32⟩ : BufTy).Contents (Elt Ideal)) (x3 : (⟨S1024x1024, .f32⟩ : BufTy).Contents (Elt Ideal)) (x4 : (⟨S1024, .f32⟩ : BufTy).Contents (Elt Ideal)) (a : Fin 1) (f : Fin 1024) :
    val_main_v14 (F := Ideal) x0 x3 x4 (ix2 a f) = colMax (fun s => proj (qOf x0) (wOf x3) (bOf x4) s f) := by
  have h : S1x8192x1024.Reduces [1] S1x1024 := by decide
  rw [val_main_v14_apply, val_main_v13_apply, val_main_cst_0_apply]
  unfold val_main_v12
  rw [Host.reduce_eq_fold_single FloatOps.maximumf _ _ reducesTo_S1x8192x1024_S1x1024_d1 h h_S_]
  rw [val_main_cst_apply]
  simp only [Ideal.ofBits_def, ofBits_ninf, Ideal.maximumf_def]
  rw [max_bot_left]
  have hf : (val_main_v7 (F := Ideal) x0 x3 x4 ∘ h.lift (ix2 a f)) = fun k : Fin 8192 => proj (qOf x0) (wOf x3) (bOf x4) k f :=
    funext fun k => (congrArg (val_main_v7 (F := Ideal) x0 x3 x4) (lift_at h a f k)).trans (v7_at x0 x3 x4 a _ f)
  show Finset.fold (max : EReal → EReal → EReal) ⊥ (val_main_v7 (F := Ideal) x0 x3 x4 ∘ h.lift (ix2 a f)) (Finset.univ : Finset (Fin 8192)) = _
  rw [hf]
  rfl

/-- The column maximum broadcast back down the rows: entry (0, s, f) of the broadcast is the maximum of column f. -/
theorem v16_at (x0 : (⟨S1x8192x1024, .f32⟩ : BufTy).Contents (Elt Ideal)) (x3 : (⟨S1024x1024, .f32⟩ : BufTy).Contents (Elt Ideal)) (x4 : (⟨S1024, .f32⟩ : BufTy).Contents (Elt Ideal)) (a : Fin 1) (s : Fin 8192) (f : Fin 1024) :
    val_main_v16 (F := Ideal) x0 x3 x4 (ix3 a s f) = colMax (fun r => proj (qOf x0) (wOf x3) (bOf x4) r f) := by
  rw [val_main_v16_apply, val_main_v15_apply]
  have hi : idx_main_v15 (idx_main_v16 (ix3 a s f)) = ix2 (0 : Fin 1) f :=
    funext fun c => by match c with | ⟨0, _⟩ => rfl | ⟨1, _⟩ => rfl
  rw [hi]
  exact v14_at x0 x3 x4 0 f

/-- E at (0, s, f): e^(K s f − the maximum of column f). -/
theorem v18_at (x0 : (⟨S1x8192x1024, .f32⟩ : BufTy).Contents (Elt Ideal)) (x3 : (⟨S1024x1024, .f32⟩ : BufTy).Contents (Elt Ideal)) (x4 : (⟨S1024, .f32⟩ : BufTy).Contents (Elt Ideal)) (a : Fin 1) (s : Fin 8192) (f : Fin 1024) :
    val_main_v18 (F := Ideal) x0 x3 x4 (ix3 a s f)
      = Ideal.exp (proj (qOf x0) (wOf x3) (bOf x4) s f - colMax (fun r => proj (qOf x0) (wOf x3) (bOf x4) r f)) := by
  rw [val_main_v18_apply, val_main_v17_apply, v7_at, v16_at]
  rfl

/-- The softmax denominator of column f: the sum from zero of the exponentials down the rows. -/
theorem v19_at (x0 : (⟨S1x8192x1024, .f32⟩ : BufTy).Contents (Elt Ideal)) (x3 : (⟨S1024x1024, .f32⟩ : BufTy).Contents (Elt Ideal)) (x4 : (⟨S1024, .f32⟩ : BufTy).Contents (Elt Ideal)) (a : Fin 1) (f : Fin 1024) :
    val_main_v19 (F := Ideal) x0 x3 x4 (ix2 a f) = colDen (fun r => proj (qOf x0) (wOf x3) (bOf x4) r f) := by
  rw [val_main_v19_apply, val_main_cst_1_apply]
  simp only [Ideal.ofBits_def, Ideal.ofBits_zero_f32]
  rw [zero_add]
  unfold colDen
  refine Finset.sum_congr rfl fun k _ => ?_
  have hi : idx_main_v19 (ix2 a f) k = ix3 a k f :=
    funext fun c => by match c with | ⟨0, _⟩ => rfl | ⟨1, _⟩ => rfl | ⟨2, _⟩ => rfl
  rw [hi]
  exact v18_at x0 x3 x4 a k f

/-- The denominator broadcast back down the rows. -/
theorem v21_at (x0 : (⟨S1x8192x1024, .f32⟩ : BufTy).Contents (Elt Ideal)) (x3 : (⟨S1024x1024, .f32⟩ : BufTy).Contents (Elt Ideal)) (x4 : (⟨S1024, .f32⟩ : BufTy).Contents (Elt Ideal)) (a : Fin 1) (s : Fin 8192) (f : Fin 1024) :
    val_main_v21 (F := Ideal) x0 x3 x4 (ix3 a s f) = colDen (fun r => proj (qOf x0) (wOf x3) (bOf x4) r f) := by
  rw [val_main_v21_apply, val_main_v20_apply]
  have hi : idx_main_v20 (idx_main_v21 (ix3 a s f)) = ix2 (0 : Fin 1) f :=
    funext fun c => by match c with | ⟨0, _⟩ => rfl | ⟨1, _⟩ => rfl
  rw [hi]
  exact v19_at x0 x3 x4 0 f

/-- The normalised weight times V at (0, s, f). -/
theorem v23_at (x0 : (⟨S1x8192x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (a : Fin 1) (s : Fin 8192) (f : Fin 1024) :
    val_main_v23 (F := Ideal) x0 x3 x4 x5 x6 (ix3 a s f)
      = Ideal.div (Ideal.exp (proj (qOf x0) (wOf x3) (bOf x4) s f - colMax (fun r => proj (qOf x0) (wOf x3) (bOf x4) r f))) (colDen (fun r => proj (qOf x0) (wOf x3) (bOf x4) r f)) * proj (qOf x0) (wOf x5) (bOf x6) s f := by
  rw [val_main_v23_apply, val_main_v22_apply, v18_at, v21_at, v11_at]
  rfl

/-- The weighted sum of column f: the sum from zero of weight times V down the rows. -/
theorem v24_at (x0 : (⟨S1x8192x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (a : Fin 1) (f : Fin 1024) :
    val_main_v24 (F := Ideal) x0 x3 x4 x5 x6 (ix2 a f) = colCtx (fun r => proj (qOf x0) (wOf x3) (bOf x4) r f) (fun r => proj (qOf x0) (wOf x5) (bOf x6) r f) := by
  rw [val_main_v24_apply, val_main_cst_2_apply]
  simp only [Ideal.ofBits_def, Ideal.ofBits_zero_f32]
  rw [zero_add]
  unfold colCtx
  refine Finset.sum_congr rfl fun k _ => ?_
  have hi : idx_main_v24 (ix2 a f) k = ix3 a k f :=
    funext fun c => by match c with | ⟨0, _⟩ => rfl | ⟨1, _⟩ => rfl | ⟨2, _⟩ => rfl
  rw [hi]
  exact v23_at x0 x3 x4 x5 x6 a k f

/-- The context scalar: the sum from zero of the 1024 column sums. -/
theorem v25_at (x0 : (⟨S1x8192x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (a : Fin 1) :
    val_main_v25 (F := Ideal) x0 x3 x4 x5 x6 (ix1 a) = ctx (proj (qOf x0) (wOf x3) (bOf x4)) (proj (qOf x0) (wOf x5) (bOf x6)) := by
  rw [val_main_v25_apply, val_main_cst_3_apply]
  simp only [Ideal.ofBits_def, Ideal.ofBits_zero_f32]
  rw [zero_add]
  unfold ctx
  refine Finset.sum_congr rfl fun k _ => ?_
  have hi : idx_main_v25 (ix1 a) k = ix2 a k :=
    funext fun c => by match c with | ⟨0, _⟩ => rfl | ⟨1, _⟩ => rfl
  rw [hi]
  exact v24_at x0 x3 x4 x5 x6 a k

/-- The context scalar broadcast to every entry of the result's shape. -/
theorem v34_at (x0 : (⟨S1x8192x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (i : S1x8192x1024.Idx) :
    val_main_v34 (F := Ideal) x0 x3 x4 x5 x6 i = ctx (proj (qOf x0) (wOf x3) (bOf x4)) (proj (qOf x0) (wOf x5) (bOf x6)) := by
  rw [val_main_v34_apply, val_main_v33_apply, val_main_v26_apply]
  have hi : idx_main_v26 (idx_main_v33 (idx_main_v34 i)) = ix1 (0 : Fin 1) :=
    funext fun c => by match c with | ⟨0, _⟩ => rfl
  rw [hi]
  exact v25_at x0 x3 x4 x5 x6 0

/-- The logistic factor at (0, s, f): 1 / (1 + e^(−Q s f)). -/
theorem v32_at (x0 : (⟨S1x8192x1024, .f32⟩ : BufTy).Contents (Elt Ideal)) (x1 : (⟨S1024x1024, .f32⟩ : BufTy).Contents (Elt Ideal)) (x2 : (⟨S1024, .f32⟩ : BufTy).Contents (Elt Ideal)) (a : Fin 1) (s : Fin 8192) (f : Fin 1024) :
    val_main_v32 (F := Ideal) x0 x1 x2 (ix3 a s f) = Ideal.div 1 (1 + Ideal.exp (-(proj (qOf x0) (wOf x1) (bOf x2) s f))) := by
  rw [val_main_v32_apply, val_main_v31_apply, val_main_cst_5_apply, val_main_v30_apply, val_main_v29_apply,
    val_main_cst_4_apply, val_main_v28_apply, val_main_v27_apply, v3_at]
  simp only [Ideal.ofBits_def, ofBits_one, Ideal.hostDivf_def, Ideal.addf_def, Ideal.hostUnary_exp_def, Ideal.hostNegf_def,
    Ideal.negf_def]

/-- The reference's result, read operation by operation at the extended reals, is the specification's result array:
    both are the same operations in the same order, the reference's sums starting from a zero and its maximum from
    −∞, neither of which changes the value. -/
theorem result_eq (x0 : (⟨S1x8192x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) :
    val_main_v35 (F := Ideal) x0 x1 x2 x3 x4 x5 x6 = outArr x0 x1 x2 x3 x4 x5 x6 := by
  funext i
  obtain ⟨a, s, f, rfl⟩ : ∃ (a : Fin 1) (s : Fin 8192) (f : Fin 1024), i = ix3 a s f := ⟨i 0, i 1, i 2, eq_ix3 i⟩
  rw [val_main_v35_apply, v32_at, v34_at]
  rfl

/-- Every weakly fair execution of the reference terminates with its result buffer holding the specification's result
    array of the argument arrays, the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans ((val_main_v35_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).trans
        (result_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))), (h c).2⟩)
    (Cert.ReferenceIdeal.Value.run (F := Ideal) m ρ)

end Cert.ReferenceIdeal.RefValue

end
-- ==== Proof.FrKernelIdeal.Pieces.lean ====
/-
  What the kernel bodies' stores leave, named: each buffer a body stores into ends at ONE pure function of what the
  body loaded — the tile, the weights and biases, and (for the streaming kernel) the three scratch rows it found, or
  the reset values at a position that resets them first.
-/
import proofs.«181116_j87170656240173_2_alg».proof.Proof.Gen.KernelIdeal.Launch
import proofs.«181116_j87170656240173_2_alg».proof.Proof.Gen.KernelIdeal.Skeleton
import proofs.«181116_j87170656240173_2_alg».proof.Proof.Gen.KernelIdeal.Points
import proofs.«181116_j87170656240173_2_alg».proof.Proof.FrKernelIdeal.Body0
import proofs.«181116_j87170656240173_2_alg».proof.Proof.FrKernelIdeal.Body1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- Case A, scratch row 0: the one store that matters leaves the row's new value as a function of the tile and the reset values. -/
theorem soutA_0_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 = k0_pay1 (k0_pay13 x0 x1 x2 k0_pay7) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  try sl_unfold_words
  rw [View.canon_cons_unit_zero hz2]
  simp only [View.readCov_unit_zero (S := S1x1024) _ hz2]
  simp only [View.readAt_eq_ld, harg2.read_unread, harg3.read_unread, harg4.read_unread, harg5.read_unread, harg6.read_unread, harg10.read_unread, harg11.read_unread, harg12.read_unread, View.ld_unit_zero (S := S1024x1024) hz2, View.ld_unit_zero (S := S1x1024) hz2]

/-- Case A, scratch row 1: the one store that matters leaves the row's new value as a function of the tile and the reset values. -/
theorem soutA_1_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 = k0_pay2 (k0_pay16 x0 x1 x2 k0_pay7 k0_pay7 k0_pay8) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  try sl_unfold_words
  rw [View.canon_cons_unit_zero hz2]
  simp only [View.readCov_unit_zero (S := S1x1024) _ hz2]
  simp only [View.readAt_eq_ld, harg2.read_unread, harg3.read_unread, harg4.read_unread, harg5.read_unread, harg6.read_unread, harg10.read_unread, harg11.read_unread, harg12.read_unread, View.ld_unit_zero (S := S1024x1024) hz2, View.ld_unit_zero (S := S1x1024) hz2]

/-- Case A, scratch row 2: the one store that matters leaves the row's new value as a function of the tile and the reset values. -/
theorem soutA_2_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 = k0_pay3 (k0_pay12 x0 x3 x4) (k0_pay14 x0 x1 x2 k0_pay7 k0_pay7) (k0_pay15 x0 x1 x2 k0_pay7) k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  try sl_unfold_words
  rw [View.canon_cons_unit_zero hz2]
  simp only [View.readCov_unit_zero (S := S1x1024) _ hz2]
  simp only [View.readAt_eq_ld, harg2.read_unread, harg3.read_unread, harg4.read_unread, harg5.read_unread, harg6.read_unread, harg10.read_unread, harg11.read_unread, harg12.read_unread, View.ld_unit_zero (S := S1024x1024) hz2, View.ld_unit_zero (S := S1x1024) hz2]

/-- Case B, scratch row 0: the one store that matters leaves the row's new value as a function of the tile and what the row held. -/
theorem soutB_0_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay1 (k0_pay13 x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_B
  dsimp only
  try sl_unfold_words
  rw [View.canon_unit_zero hz2]
  simp only [View.readAt_eq_ld, harg2.read_unread, harg3.read_unread, harg4.read_unread, harg5.read_unread, harg6.read_unread, harg10.read_unread, harg11.read_unread, harg12.read_unread, View.ld_unit_zero (S := S1024x1024) hz2, View.ld_unit_zero (S := S1x1024) hz2]

/-- Case B, scratch row 1: the one store that matters leaves the row's new value as a function of the tile and what the row held. -/
theorem soutB_1_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay2 (k0_pay16 x0 x1 x2 xs0 xs0 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_B
  dsimp only
  try sl_unfold_words
  rw [View.canon_unit_zero hz2]
  simp only [View.readAt_eq_ld, harg2.read_unread, harg3.read_unread, harg4.read_unread, harg5.read_unread, harg6.read_unread, harg10.read_unread, harg11.read_unread, harg12.read_unread, View.ld_unit_zero (S := S1024x1024) hz2, View.ld_unit_zero (S := S1x1024) hz2]

/-- Case B, scratch row 2: the one store that matters leaves the row's new value as a function of the tile and what the row held. -/
theorem soutB_2_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : ¬cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay3 (k0_pay12 x0 x3 x4) (k0_pay14 x0 x1 x2 xs0 xs0) (k0_pay15 x0 x1 x2 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_B
  dsimp only
  try sl_unfold_words
  rw [View.canon_unit_zero hz2]
  simp only [View.readAt_eq_ld, harg2.read_unread, harg3.read_unread, harg4.read_unread, harg5.read_unread, harg6.read_unread, harg10.read_unread, harg11.read_unread, harg12.read_unread, View.ld_unit_zero (S := S1024x1024) hz2, View.ld_unit_zero (S := S1x1024) hz2]

/-- Case C, scratch row 0: the one store that matters leaves the row's new value as a function of the tile and what the row held. -/
theorem soutC_0_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay1 (k0_pay13 x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  try sl_unfold_words
  rw [View.canon_unit_zero hz2]
  simp only [View.readAt_eq_ld, harg2.read_unread, harg3.read_unread, harg4.read_unread, harg5.read_unread, harg6.read_unread, harg10.read_unread, harg11.read_unread, harg12.read_unread, View.ld_unit_zero (S := S1024x1024) hz2, View.ld_unit_zero (S := S1x1024) hz2]

/-- Case C, scratch row 1: the one store that matters leaves the row's new value as a function of the tile and what the row held. -/
theorem soutC_1_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay2 (k0_pay16 x0 x1 x2 xs0 xs0 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  try sl_unfold_words
  rw [View.canon_unit_zero hz2]
  simp only [View.readAt_eq_ld, harg2.read_unread, harg3.read_unread, harg4.read_unread, harg5.read_unread, harg6.read_unread, harg10.read_unread, harg11.read_unread, harg12.read_unread, View.ld_unit_zero (S := S1024x1024) hz2, View.ld_unit_zero (S := S1x1024) hz2]

/-- Case C, scratch row 2: the one store that matters leaves the row's new value as a function of the tile and what the row held. -/
theorem soutC_2_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay3 (k0_pay12 x0 x3 x4) (k0_pay14 x0 x1 x2 xs0 xs0) (k0_pay15 x0 x1 x2 xs0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  try sl_unfold_words
  rw [View.canon_unit_zero hz2]
  simp only [View.readAt_eq_ld, harg2.read_unread, harg3.read_unread, harg4.read_unread, harg5.read_unread, harg6.read_unread, harg10.read_unread, harg11.read_unread, harg12.read_unread, View.ld_unit_zero (S := S1024x1024) hz2, View.ld_unit_zero (S := S1x1024) hz2]

/-- Case C, result window 5: the scratch row just stored, copied out with a leading unit axis. -/
theorem outC_5_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) :
    out0_C_5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay4 (k0_pay1 (k0_pay13 x0 x1 x2 xs0)) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  try sl_unfold_words
  rw [View.canon_unit_zero hz3, View.readCov_unit_zero (S := S1x1024) _ hz2]
  simp only [View.readAt_eq_ld, harg2.read_unread, harg3.read_unread, harg4.read_unread, harg5.read_unread, harg6.read_unread, harg10.read_unread, harg11.read_unread, harg12.read_unread, View.ld_unit_zero (S := S1024x1024) hz2, View.ld_unit_zero (S := S1x1024) hz2]

/-- Case C, result window 6: the scratch row just stored, copied out with a leading unit axis. -/
theorem outC_6_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay5 (k0_pay2 (k0_pay16 x0 x1 x2 xs0 xs0 xs1)) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  try sl_unfold_words
  rw [View.canon_unit_zero hz3, View.readCov_unit_zero (S := S1x1024) _ hz2]
  simp only [View.readAt_eq_ld, harg2.read_unread, harg3.read_unread, harg4.read_unread, harg5.read_unread, harg6.read_unread, harg10.read_unread, harg11.read_unread, harg12.read_unread, View.ld_unit_zero (S := S1024x1024) hz2, View.ld_unit_zero (S := S1x1024) hz2]

/-- Case C, result window 7: the scratch row just stored, copied out with a leading unit axis. -/
theorem outC_7_eq (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i) (x0 : Vec F S1024x1024 .f32) (x1 : Vec F S1024x1024 .bf16) (x2 : Vec F S1x1024 .f32) (x3 : Vec F S1024x1024 .bf16) (x4 : Vec F S1x1024 .f32) (xs0 xs1 xs2 : Vec F S1x1024 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay6 (k0_pay3 (k0_pay12 x0 x3 x4) (k0_pay14 x0 x1 x2 xs0 xs0) (k0_pay15 x0 x1 x2 xs0) xs2) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  try sl_unfold_words
  rw [View.canon_unit_zero hz3, View.readCov_unit_zero (S := S1x1024) _ hz2]
  simp only [View.readAt_eq_ld, harg2.read_unread, harg3.read_unread, harg4.read_unread, harg5.read_unread, harg6.read_unread, harg10.read_unread, harg11.read_unread, harg12.read_unread, View.ld_unit_zero (S := S1024x1024) hz2, View.ld_unit_zero (S := S1x1024) hz2]

/-- The output kernel's one store leaves σ(tile·Wqᵀ + bq)·scalar. -/
theorem out1_4_eq (c : Dev nD) (i : grid1.Coords) (arg1 : Memref sig .tc .vmem S1024x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1 .f32) (harg4 : arg4.IsWhole) (arg5 : Memref sig .tc .vmem S1024x1024 .f32) (harg5 : arg5.IsWhole) (x0 : Vec F S1024x1024 .f32) (x1 : Vec F S1024x1024 .bf16) (x2 : Vec F S1x1024 .f32) (x3 : Vec F S1x1 .f32) :
    out1_4 c i arg1 harg1 arg2 harg2 arg3 harg3 arg4 harg4 arg5 harg5 x0 x1 x2 x3 = k1_pay1 x0 x1 x2 x3 := by
  unfold out1_4
  rw [View.read_writes_eq_canon _ _ _ (cover1_4 c i arg1 harg1 arg2 harg2 arg3 harg3 arg4 harg4 arg5 harg5 x0 x1 x2 x3)]
  unfold kernelRun1
  dsimp only
  try sl_unfold_words
  rw [View.canon_unit_zero hz2]
  simp only [View.readAt_eq_ld, harg1.read_unread, harg2.read_unread, harg3.read_unread, harg4.read_unread, View.ld_unit_zero (S := S1024x1024) hz2, View.ld_unit_zero (S := S1x1024) hz2, View.ld_unit_zero (S := S1x1) hz2]

end Cert.KernelIdeal.Fr

end
-- ==== Proof.PayIdx.lean ====
/-
  The two kernels' arithmetic read entry by entry, over the extended reals.

  At one grid point the first kernel holds a tile x of 1024 rows of the activations, the transposed weight tiles
  wk, wv (entry (e, f)), the bias rows bk, bv and, per column f, the running softmax state (m, l, a). It forms
  K_t = x·wk + bk and V_t = x·wv + bv — entry (r, f) is Σ_e x(r,e)·w(e,f) + b(0,f), `tileProj` —, the column maxima
  of K_t, m' = max(m, column maximum), corr = e^(m - m'), p = e^(K_t - m'), l' = l·corr + Σ_r p and
  a' = a·corr + Σ_r p·V_t: column by column this is one step of the streamed softmax (`Cert.Aft.Acc.step`), which
  `step_m`, `step_l`, `step_a` say. Before the first tile the state is (-∞, 0, 0) (`init_m`, `init_l`, `init_a`);
  after the last it is handed out unchanged under one more unit axis (`pay4_apply` … `pay6_apply`). The second kernel
  forms Q_t = x·wq + bq and stores σ(Q_t)·c, c the one entry of a one-by-one array (`pay1_out`).

  Each statement reads a payload at an index built from literal coordinates. The non-pointwise operations are read
  once each: the matrix product into the zero accumulator as the sum over the contraction coordinate (`matmul_ix`),
  the bias row broadcast down the rows, the maximum and the sum down the rows kept as a row (`colmax_ix`,
  `colsum_ix`; the maximum from -∞ over the rows is the supremum over them), and the casts between a row and a
  one-row block.
-/
import proofs.«181116_j87170656240173_2_alg».proof.Proof.Gen.KernelIdeal.Skeleton
import proofs.«181116_j87170656240173_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx

variable [Facts]
open Facts₀ Facts

/-- One row of a tile against one column of a weight tile, plus the bias of that column. -/
def tileProj (x : Vec Ideal S1024x1024 .f32) (w : Vec Ideal S1024x1024 .bf16) (b : Vec Ideal S1x1024 .f32)
    (r f : Fin 1024) : EReal :=
  (∑ e : Fin 1024, x (ix2 r e) * w (ix2 e f)) + b (ix2 (0 : Fin 1) f)

/-- The running softmax state of column f. -/
def accOf (m l a : Vec Ideal S1x1024 .f32) (f : Fin 1024) : Cert.Aft.Acc :=
  ⟨m (ix2 (0 : Fin 1) f), l (ix2 (0 : Fin 1) f), a (ix2 (0 : Fin 1) f)⟩

/-! ## The matrix product at an index -/

/-- The left operand is read on the output's row … -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
/-- … at the contraction's coordinate; -/
theorem lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the right operand at the contraction's coordinate … -/
theorem rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- … on the output's column. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- A matrix product into the zero accumulator, at (r, f): Σ_e x(r,e)·w(e,f). -/
theorem matmul_ix (x w : FVec Ideal S1024x1024 .bf16) (r f : Fin 1024) :
    matmul (F := Ideal) dot_S1024x1024_S1024x1024_S1024x1024_1_0_0_1_n_n none x w
        (constant S1024x1024 .f32 0x00000000#32) (ix2 r f)
      = ∑ e : Fin 1024, x (ix2 r e) * w (ix2 e f) := by
  refine (Ideal.matmul_constant_zero_apply dot_S1024x1024_S1024x1024_S1024x1024_1_0_0_1_n_n none x w (ix2 r f)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r f) ((contrEquiv1 dot_S1024x1024_S1024x1024_S1024x1024_1_0_0_1_n_n 1024 rfl rfl).symm k) = ix2 r k :=
    funext fun a => Fin.ext (by
      match a with
      | ⟨0, _⟩ => exact lhs_row _ _
      | ⟨1, _⟩ => exact (lhs_col _ _).trans hk)
  have er : dot_S1024x1024_S1024x1024_S1024x1024_1_0_0_1_n_n.rhsIdx (ix2 r f) ((contrEquiv1 dot_S1024x1024_S1024x1024_S1024x1024_1_0_0_1_n_n 1024 rfl rfl).symm k) = ix2 k f :=
    funext fun a => Fin.ext (by
      match a with
      | ⟨0, _⟩ => exact (rhs_row _ _).trans hk
      | ⟨1, _⟩ => exact rhs_col _ _)
  rw [el, er]

/-! ## A projected tile at an index -/

/-- The kernels' projection of a tile — the activations narrowed, multiplied into the zero accumulator with a weight
    tile, the bias row broadcast down the rows and added — at (r, f) is Σ_e x(r,e)·w(e,f) + b(0,f). -/
theorem proj_ix (x : FVec Ideal S1024x1024 .f32) (w : FVec Ideal S1024x1024 .bf16) (b : FVec Ideal S1x1024 .f32)
    (hx hw : S1024x1024.ShapeCasts S1024x1024) (hb : S1x1024.ShapeCasts S1x1024)
    (ht : FTy.bits .bf16 < FTy.bits .f32) (hbc : S1x1024.Broadcasts S1024x1024) (r f : Fin 1024) :
    addf (matmul (F := Ideal) dot_S1024x1024_S1024x1024_S1024x1024_1_0_0_1_n_n none
          (truncf .bf16 (shapeCast S1024x1024 x hx) ht) (shapeCast S1024x1024 w hw)
          (constant S1024x1024 .f32 0x00000000#32))
        (broadcastTo S1024x1024 (shapeCast S1x1024 b hb) hbc) (ix2 r f)
      = tileProj x w b r f := by
  rw [shapeCast_self x, shapeCast_self w, shapeCast_self b]
  refine (addf_apply _ _ _).trans ?_
  unfold tileProj
  refine congrArg₂ (· + ·) ((matmul_ix _ _ r f).trans ?_) (broadcastTo_1b_ab_apply b _ r f)
  rfl

/-- K_t at (r, f). -/
theorem pay11_apply (x : Vec Ideal S1024x1024 .f32) (wk : Vec Ideal S1024x1024 .bf16) (bk : Vec Ideal S1x1024 .f32)
    (r f : Fin 1024) : k0_pay11 (F := Ideal) x wk bk (ix2 r f) = tileProj x wk bk r f :=
  proj_ix x wk bk _ _ _ _ _ r f

/-- V_t at (r, f). -/
theorem pay12_apply (x : Vec Ideal S1024x1024 .f32) (wv : Vec Ideal S1024x1024 .bf16) (bv : Vec Ideal S1x1024 .f32)
    (r f : Fin 1024) : k0_pay12 (F := Ideal) x wv bv (ix2 r f) = tileProj x wv bv r f :=
  proj_ix x wv bv _ _ _ _ _ r f

/-! ## The column reductions at an index -/

/-- The float word of -∞ is the bottom of the extended reals. -/
theorem ofBits_neg_inf : FloatOps.ofBits (F := Ideal) .f32 0xFF800000#32 = (⊥ : EReal) := by
  show Ideal.ofBits .f32 0xFF800000#32 = ⊥
  simp [Ideal.ofBits, Ideal.ieee]

/-- The index a reduction down the rows inserts: row r of column f. -/
theorem lift_ix (h : S1024x1024.Reduces [0] S1024) (f : Fin 1024) (r : Fin 1024) :
    h.lift (ix1 f) r = ix2 r f :=
  funext fun a => Fin.ext (by
    match a with
    | ⟨0, _⟩ => rfl
    | ⟨1, _⟩ => rfl)

/-- The maximum down the rows, kept as a row: at (0, f) the supremum over r of the source at (r, f). -/
theorem colmax_ix (src : FVec Ideal S1024x1024 .f32) (h : S1024x1024.Reduces [0] S1024) (hφ : FKind.Formats .f32)
    (hacc : (0xFF800000#32 : BitVec 32) = FKind.maximumf.neutral .f32 hφ) (hc : S1024.ShapeCasts S1x1024)
    (f : Fin 1024) :
    shapeCast S1x1024 (multiReduction .maximumf [0] S1024 src 0xFF800000#32 h hφ hacc) hc (ix2 (0 : Fin 1) f)
      = Finset.univ.sup fun r : Fin 1024 => src (ix2 r f) := by
  refine (shapeCast_a_1a_apply _ hc 0 f).trans ?_
  refine (Ideal.multiReduction_maximumf_single src _ h hφ hacc (ix1 f)).trans ?_
  have hsrc : (src ∘ h.lift (ix1 f)) = fun r : Fin 1024 => src (ix2 r f) :=
    funext fun r => congrArg src (lift_ix h f r)
  show (Finset.univ : Finset (Fin 1024)).fold max (FloatOps.ofBits (F := Ideal) .f32 0xFF800000#32) (src ∘ h.lift (ix1 f)) = _
  rw [ofBits_neg_inf, hsrc]
  rfl

/-- The sum down the rows, kept as a row: at (0, f) the sum over r of the source at (r, f). -/
theorem colsum_ix (src : FVec Ideal S1024x1024 .f32) (h : S1024x1024.Reduces [0] S1024) (hφ : FKind.Formats .f32)
    (hacc : (0x00000000#32 : BitVec 32) = FKind.add.neutral .f32 hφ) (hc : S1024.ShapeCasts S1x1024)
    (f : Fin 1024) :
    shapeCast S1x1024 (multiReduction .add [0] S1024 src 0x00000000#32 h hφ hacc) hc (ix2 (0 : Fin 1) f)
      = ∑ r : Fin 1024, src (ix2 r f) := by
  refine (shapeCast_a_1a_apply _ hc 0 f).trans ?_
  refine (Ideal.multiReduction_add_single src _ h hφ hacc (ix1 f)).trans ?_
  exact Finset.sum_congr rfl fun r _ => congrArg src (lift_ix h f r)

/-! ## The streamed softmax step, column by column -/

/-- m' at (0, f): the running maximum against the tile's column maximum. -/
theorem pay13_apply (x : Vec Ideal S1024x1024 .f32) (wk : Vec Ideal S1024x1024 .bf16) (bk m : Vec Ideal S1x1024 .f32)
    (f : Fin 1024) :
    k0_pay13 (F := Ideal) x wk bk m (ix2 (0 : Fin 1) f)
      = max (m (ix2 (0 : Fin 1) f) : EReal) (Finset.univ.sup fun r : Fin 1024 => tileProj x wk bk r f) := by
  refine (maximumf_apply _ _ _).trans ?_
  refine congrArg (max (m (ix2 (0 : Fin 1) f) : EReal)) ((colmax_ix (k0_pay11 (F := Ideal) x wk bk) _ _ _ _ f).trans ?_)
  exact congrArg (Finset.univ.sup) (funext fun r => pay11_apply x wk bk r f)

/-- corr at (0, f): e^(m - m'). -/
theorem pay14_apply (x : Vec Ideal S1024x1024 .f32) (wk : Vec Ideal S1024x1024 .bf16) (bk m m₀ : Vec Ideal S1x1024 .f32)
    (f : Fin 1024) :
    k0_pay14 (F := Ideal) x wk bk m m₀ (ix2 (0 : Fin 1) f)
      = Ideal.exp ((m₀ (ix2 (0 : Fin 1) f) : EReal) - k0_pay13 (F := Ideal) x wk bk m (ix2 (0 : Fin 1) f)) := rfl

/-- p at (r, f): e^(K_t - m'), m' read on the row's column. -/
theorem pay15_apply (x : Vec Ideal S1024x1024 .f32) (wk : Vec Ideal S1024x1024 .bf16) (bk m : Vec Ideal S1x1024 .f32)
    (r f : Fin 1024) :
    k0_pay15 (F := Ideal) x wk bk m (ix2 r f)
      = Ideal.exp (tileProj x wk bk r f - k0_pay13 (F := Ideal) x wk bk m (ix2 (0 : Fin 1) f)) := by
  show Ideal.exp (k0_pay11 (F := Ideal) x wk bk (ix2 r f)
      - broadcastTo S1024x1024 (k0_pay13 (F := Ideal) x wk bk m) _ (ix2 r f)) = _
  rw [pay11_apply, broadcastTo_1b_ab_apply]

/-- The new running maximum of column f. -/
theorem step_m (x : Vec Ideal S1024x1024 .f32) (wk : Vec Ideal S1024x1024 .bf16) (bk : Vec Ideal S1x1024 .f32)
    (wv : Vec Ideal S1024x1024 .bf16) (bv m l a : Vec Ideal S1x1024 .f32) (f : Fin 1024) :
    k0_pay1 (F := Ideal) (k0_pay13 x wk bk m) (ix2 (0 : Fin 1) f)
      = (Cert.Aft.Acc.step (fun r => tileProj x wk bk r f) (fun r => tileProj x wv bv r f) (accOf m l a f)).m := by
  refine (congrFun (shapeCast_self (k0_pay13 (F := Ideal) x wk bk m) _) _).trans ?_
  exact pay13_apply x wk bk m f

/-- The new running denominator of column f: l·corr + Σ_r p. -/
theorem step_l (x : Vec Ideal S1024x1024 .f32) (wk : Vec Ideal S1024x1024 .bf16) (bk : Vec Ideal S1x1024 .f32)
    (wv : Vec Ideal S1024x1024 .bf16) (bv m l a : Vec Ideal S1x1024 .f32) (f : Fin 1024) :
    k0_pay2 (F := Ideal) (k0_pay16 x wk bk m m l) (ix2 (0 : Fin 1) f)
      = (Cert.Aft.Acc.step (fun r => tileProj x wk bk r f) (fun r => tileProj x wv bv r f) (accOf m l a f)).l := by
  refine (congrFun (shapeCast_self (k0_pay16 (F := Ideal) x wk bk m m l) _) _).trans ?_
  refine (addf_apply _ _ _).trans ?_
  refine congrArg₂ (· + ·) ((mulf_apply _ _ _).trans ?_)
    ((colsum_ix (k0_pay15 (F := Ideal) x wk bk m) _ _ _ _ f).trans ?_)
  · rw [pay14_apply, pay13_apply]; rfl
  · refine Finset.sum_congr rfl fun r _ => ?_
    rw [pay15_apply, pay13_apply]; rfl

/-- The numerator's update on any operands: at (0, f), a·c + Σ_r p(r,f)·v(r,f). -/
theorem pay3_apply (v p : FVec Ideal S1024x1024 .f32) (c : FVec Ideal S1x1024 .f32) (a : Vec Ideal S1x1024 .f32)
    (f : Fin 1024) :
    k0_pay3 (F := Ideal) v c p a (ix2 (0 : Fin 1) f)
      = (a (ix2 (0 : Fin 1) f) : EReal) * c (ix2 (0 : Fin 1) f) + ∑ r : Fin 1024, p (ix2 r f) * v (ix2 r f) := by
  show shapeCast S1x1024 (addf (mulf a c) (shapeCast S1x1024
      (multiReduction .add [0] S1024 (mulf p v) 0x00000000#32 _ _ _) _)) _ (ix2 (0 : Fin 1) f) = _
  refine (congrFun (shapeCast_self _ _) _).trans ?_
  refine (addf_apply _ _ _).trans ?_
  refine congrArg₂ (· + ·) (mulf_apply _ _ _) ((colsum_ix (mulf p v) _ _ _ _ f).trans ?_)
  exact Finset.sum_congr rfl fun r _ => mulf_apply _ _ _

/-- The new running numerator of column f: a·corr + Σ_r p·V_t. -/
theorem step_a (x : Vec Ideal S1024x1024 .f32) (wk : Vec Ideal S1024x1024 .bf16) (bk : Vec Ideal S1x1024 .f32)
    (wv : Vec Ideal S1024x1024 .bf16) (bv m l a : Vec Ideal S1x1024 .f32) (f : Fin 1024) :
    k0_pay3 (F := Ideal) (k0_pay12 x wv bv) (k0_pay14 x wk bk m m) (k0_pay15 x wk bk m) a (ix2 (0 : Fin 1) f)
      = (Cert.Aft.Acc.step (fun r => tileProj x wk bk r f) (fun r => tileProj x wv bv r f) (accOf m l a f)).a := by
  refine (pay3_apply _ _ _ a f).trans ?_
  refine congrArg₂ (· + ·) ?_ (Finset.sum_congr rfl fun r _ => ?_)
  · rw [pay14_apply, pay13_apply]; rfl
  · rw [pay15_apply, pay13_apply, pay12_apply]; rfl

/-! ## The first tile's state, the state handed out, and the output tile -/

/-- Before the first tile the running maximum is -∞ … -/
theorem init_m (f : Fin 1024) : k0_pay7 (F := Ideal) (ix2 (0 : Fin 1) f) = (⊥ : EReal) := by
  refine (congrFun (shapeCast_self (broadcast S1x1024 (Scalar.ofBits (F := Ideal) .f32 0xFF800000#32)) _) _).trans ?_
  exact ofBits_neg_inf

/-- … the running denominator is the empty sum … -/
theorem init_l (f : Fin 1024) : k0_pay8 (F := Ideal) (ix2 (0 : Fin 1) f) = (0 : EReal) := by
  refine (congrFun (shapeCast_self (broadcast S1x1024 (Scalar.ofBits (F := Ideal) .f32 0x00000000#32)) _) _).trans ?_
  exact Ideal.ofBits_zero_f32

/-- … and so is the running numerator. -/
theorem init_a (f : Fin 1024) : k0_pay9 (F := Ideal) (ix2 (0 : Fin 1) f) = (0 : EReal) := by
  refine (congrFun (shapeCast_self (broadcast S1x1024 (Scalar.ofBits (F := Ideal) .f32 0x00000000#32)) _) _).trans ?_
  exact Ideal.ofBits_zero_f32

/-- A row viewed as a one-row, one-plane block keeps its entries: the maximum handed out … -/
theorem pay4_apply (v : Vec Ideal S1x1024 .f32) (f : Fin 1024) :
    k0_pay4 (F := Ideal) v (ix3 (0 : Fin 1) (0 : Fin 1) f) = v (ix2 (0 : Fin 1) f) :=
  shapeCast_ab_1ab_apply v _ (0 : Fin 1) (0 : Fin 1) f

/-- … the denominator handed out … -/
theorem pay5_apply (v : Vec Ideal S1x1024 .f32) (f : Fin 1024) :
    k0_pay5 (F := Ideal) v (ix3 (0 : Fin 1) (0 : Fin 1) f) = v (ix2 (0 : Fin 1) f) :=
  shapeCast_ab_1ab_apply v _ (0 : Fin 1) (0 : Fin 1) f

/-- … and the numerator handed out. -/
theorem pay6_apply (v : Vec Ideal S1x1024 .f32) (f : Fin 1024) :
    k0_pay6 (F := Ideal) v (ix3 (0 : Fin 1) (0 : Fin 1) f) = v (ix2 (0 : Fin 1) f) :=
  shapeCast_ab_1ab_apply v _ (0 : Fin 1) (0 : Fin 1) f

/-- The output tile at (r, f): σ(Q_t) times the one entry of the context array, σ y = 1 / (1 + e^(-y)). -/
theorem pay1_out (x : Vec Ideal S1024x1024 .f32) (wq : Vec Ideal S1024x1024 .bf16) (bq : Vec Ideal S1x1024 .f32)
    (cs : Vec Ideal S1x1 .f32) (r f : Fin 1024) :
    k1_pay1 (F := Ideal) x wq bq cs (ix2 r f)
      = Ideal.div 1 (1 + Ideal.exp (-(tileProj x wq bq r f))) * cs (ix2 (0 : Fin 1) (0 : Fin 1)) := by
  refine (mulf_apply _ _ _).trans ?_
  refine congrArg₂ (· * ·) ?_ ?_
  · exact congrArg Ideal.logistic (proj_ix x wq bq _ _ _ _ _ r f)
  · exact congrArg cs (funext fun a => Fin.ext (by
      match a with
      | ⟨0, _⟩ => rfl
      | ⟨1, _⟩ => rfl))

end Cert.KernelIdeal.PayIdx

end
-- ==== Proof.StateAcc.lean ====
/-
  The streaming kernel's three scratch rows, read one column at a time, ARE the running triple of a softmax streamed
  down that column: absorbing the position's tile is `Cert.Aft.Acc.step` on the column's entries of the tile's keys
  and values; a position that resets first starts from `Acc.init`. Unrolled over a half's four positions this is
  `Cert.Aft.coreAcc`.
-/
import proofs.«181116_j87170656240173_2_alg».proof.Proof.FrKernelIdeal.Pieces
import proofs.«181116_j87170656240173_2_alg».proof.Proof.PayIdx
import proofs.«181116_j87170656240173_2_alg».proof.Proof.Spec

set_option maxRecDepth 16384

noncomputable section

namespace Cert.KernelIdeal.Val

open Cert.KernelIdeal Cert.KernelIdeal.Gen Cert.KernelIdeal.Fr Cert.KernelIdeal.PayIdx
open Idealize.ShloMosaic Idealize.ShloMosaic.ValueIdx Idealize.ShloMosaic.TcCoe Idealize.SL.Sem
open Cert.Aft

/-- Column `f` of the three scratch rows. -/
def accSt (p : (Vec Ideal S1x1024 .f32 × Vec Ideal S1x1024 .f32 × Vec Ideal S1x1024 .f32)) (f : Fin 1024) : Acc := accOf p.1 p.2.1 p.2.2 f

/-- One position's update of the three rows, at column `f`, is one step of the streamed softmax on that column. -/
theorem acc_step (x : Vec Ideal S1024x1024 .f32) (wk : Vec Ideal S1024x1024 .bf16) (bk : Vec Ideal S1x1024 .f32)
    (wv : Vec Ideal S1024x1024 .bf16) (bv : Vec Ideal S1x1024 .f32) (m l a : Vec Ideal S1x1024 .f32) (f : Fin 1024) :
    accOf (k0_pay1 (F := Ideal) (k0_pay13 x wk bk m)) (k0_pay2 (F := Ideal) (k0_pay16 x wk bk m m l))
        (k0_pay3 (F := Ideal) (k0_pay12 x wv bv) (k0_pay14 x wk bk m m) (k0_pay15 x wk bk m) a) f
      = Acc.step (fun r => tileProj x wk bk r f) (fun r => tileProj x wv bv r f) (accOf m l a f) := by
  show (⟨k0_pay1 (F := Ideal) (k0_pay13 x wk bk m) (ix2 (0 : Fin 1) f), k0_pay2 (F := Ideal) (k0_pay16 x wk bk m m l) (ix2 (0 : Fin 1) f),
      k0_pay3 (F := Ideal) (k0_pay12 x wv bv) (k0_pay14 x wk bk m m) (k0_pay15 x wk bk m) a (ix2 (0 : Fin 1) f)⟩ : Acc) = _
  rw [step_m x wk bk wv bv m l a f, step_l x wk bk wv bv m l a f, step_a x wk bk wv bv m l a f]

/-- The reset values, at any column, are the empty state. -/
theorem acc_init (f : Fin 1024) : accOf (k0_pay7 (F := Ideal)) (k0_pay8 (F := Ideal)) (k0_pay9 (F := Ideal)) f = Acc.init := by
  show (⟨k0_pay7 (F := Ideal) (ix2 (0 : Fin 1) f), k0_pay8 (F := Ideal) (ix2 (0 : Fin 1) f), k0_pay9 (F := Ideal) (ix2 (0 : Fin 1) f)⟩ : Acc) = _
  rw [init_m, init_l, init_a]; rfl

section
variable (V : (c : Dev nD) → (b : Ref sig .tc) → Buf (Elt Ideal) ((c : Thread nD τ).loc b)) (c : Dev nD)

/-- Column `f` of position `t`'s tile of keys, and of values. -/
def kT (t : Fin cfg0.N) (f : Fin 1024) (r : Fin 1024) : EReal := tileProj (iblk0 V c 0 t) (iblk0 V c 1 t) (iblk0 V c 2 t) r f
def vT (t : Fin cfg0.N) (f : Fin 1024) (r : Fin 1024) : EReal := tileProj (iblk0 V c 0 t) (iblk0 V c 3 t) (iblk0 V c 4 t) r f

theorem acc_stA (t : Fin cfg0.N) (hc0 : cond0_0 (grid0.coords t)) (hc1 : ¬cond0_1 (grid0.coords t)) (f : Fin 1024) :
    accSt (stA V c t hc0 hc1) f = Acc.step (kT V c t f) (vT V c t f) Acc.init := by
  unfold stA accSt
  dsimp only
  rw [soutA_0_eq, soutA_1_eq, soutA_2_eq]
  exact (acc_step _ _ _ _ _ _ _ _ f).trans (by rw [acc_init]; rfl)

theorem acc_stB (t : Fin cfg0.N) (hc0 : ¬cond0_0 (grid0.coords t)) (hc1 : ¬cond0_1 (grid0.coords t)) (p : (Vec Ideal S1x1024 .f32 × Vec Ideal S1x1024 .f32 × Vec Ideal S1x1024 .f32)) (f : Fin 1024) :
    accSt (stB V c t hc0 hc1 p) f = Acc.step (kT V c t f) (vT V c t f) (accSt p f) := by
  unfold stB accSt
  dsimp only
  rw [soutB_0_eq, soutB_1_eq, soutB_2_eq]
  exact acc_step _ _ _ _ _ _ _ _ f

theorem acc_stC (t : Fin cfg0.N) (hc0 : ¬cond0_0 (grid0.coords t)) (hc1 : cond0_1 (grid0.coords t)) (p : (Vec Ideal S1x1024 .f32 × Vec Ideal S1x1024 .f32 × Vec Ideal S1x1024 .f32)) (f : Fin 1024) :
    accSt (stC V c t hc0 hc1 p) f = Acc.step (kT V c t f) (vT V c t f) (accSt p f) := by
  unfold stC accSt
  dsimp only
  rw [soutC_0_eq, soutC_1_eq, soutC_2_eq]
  exact acc_step _ _ _ _ _ _ _ _ f

/-- What a copy-out position leaves in the three result buffers is the three scratch rows it has just stored. -/
theorem outC_at (t : Fin cfg0.N) (hc0 : ¬cond0_0 (grid0.coords t)) (hc1 : cond0_1 (grid0.coords t)) (p : (Vec Ideal S1x1024 .f32 × Vec Ideal S1x1024 .f32 × Vec Ideal S1x1024 .f32)) (f : Fin 1024) :
    (outC V c t hc0 hc1 p).1 (ix3 (0 : Fin 1) (0 : Fin 1) f) = (stC V c t hc0 hc1 p).1 (ix2 (0 : Fin 1) f)
    ∧ (outC V c t hc0 hc1 p).2.1 (ix3 (0 : Fin 1) (0 : Fin 1) f) = (stC V c t hc0 hc1 p).2.1 (ix2 (0 : Fin 1) f)
    ∧ (outC V c t hc0 hc1 p).2.2 (ix3 (0 : Fin 1) (0 : Fin 1) f) = (stC V c t hc0 hc1 p).2.2 (ix2 (0 : Fin 1) f) := by
  unfold outC stC
  dsimp only
  rw [outC_5_eq, outC_6_eq, outC_7_eq, soutC_0_eq, soutC_1_eq, soutC_2_eq]
  exact ⟨pay4_apply _ f, pay5_apply _ f, pay6_apply _ f⟩

/-- A bound on a position from its numeral. -/
theorem pos_lt (n : ℕ) (h : n < 8) : n < cfg0.N := lt_of_lt_of_eq h (show cfg0.N = 8 from N_0).symm

/-- A position that starts a half: one step from the empty state. -/
theorem acc_reset (n : ℕ) (hn : n < cfg0.N) (h : n % 4 = 0) (f : Fin 1024) :
    accSt (stAt V c n hn) f = Acc.step (kT V c ⟨n, hn⟩ f) (vT V c ⟨n, hn⟩ f) Acc.init := by
  rw [show stAt V c n hn = stAt V c (⟨n, hn⟩ : Fin cfg0.N).val (⟨n, hn⟩ : Fin cfg0.N).isLt from rfl,
    stAt_A V c ⟨n, hn⟩ h (by show ¬ n % 4 = 3; omega)]
  exact acc_stA V c _ _ _ f

/-- Any other position: one step from the position before. -/
theorem acc_succ (n : ℕ) (hn : n + 1 < cfg0.N) (h : ¬(n + 1) % 4 = 0) (f : Fin 1024) :
    accSt (stAt V c (n + 1) hn) f
      = Acc.step (kT V c ⟨n + 1, hn⟩ f) (vT V c ⟨n + 1, hn⟩ f) (accSt (stAt V c n (Nat.lt_of_succ_lt hn)) f) := by
  by_cases h3 : (n + 1) % 4 = 3
  · rw [show stAt V c (n + 1) hn = stAt V c (⟨n + 1, hn⟩ : Fin cfg0.N).val (⟨n + 1, hn⟩ : Fin cfg0.N).isLt from rfl,
      stAt_C V c ⟨n + 1, hn⟩ h h3]
    exact acc_stC V c _ _ _ _ f
  · rw [show stAt V c (n + 1) hn = stAt V c (⟨n + 1, hn⟩ : Fin cfg0.N).val (⟨n + 1, hn⟩ : Fin cfg0.N).isLt from rfl,
      stAt_B V c ⟨n + 1, hn⟩ h h3]
    exact acc_stB V c _ _ _ _ f

/-- A half's four positions, unrolled: after position `b + 3` (`b` = 0 or 4) the state is four steps from empty. -/
theorem acc_four (b : ℕ) (hb : b + 3 < cfg0.N) (h0 : b % 4 = 0) (f : Fin 1024) :
    accSt (stAt V c (b + 3) hb) f
      = Acc.step (kT V c ⟨b + 3, hb⟩ f) (vT V c ⟨b + 3, hb⟩ f)
          (Acc.step (kT V c ⟨b + 2, by omega⟩ f) (vT V c ⟨b + 2, by omega⟩ f)
            (Acc.step (kT V c ⟨b + 1, by omega⟩ f) (vT V c ⟨b + 1, by omega⟩ f)
              (Acc.step (kT V c ⟨b, by omega⟩ f) (vT V c ⟨b, by omega⟩ f) Acc.init))) :=
  (acc_succ V c (b + 2) hb (by omega) f).trans (congrArg _
    ((acc_succ V c (b + 1) (by omega) (by omega) f).trans (congrArg _
      ((acc_succ V c b (by omega) (by omega) f).trans (congrArg _ (acc_reset V c b (by omega) h0 f))))))

/-- What a half's last position copies out, at column `f`, is that state. -/
theorem out_four (b : ℕ) (hb : b + 3 < cfg0.N) (h0 : b % 4 = 0) (f : Fin 1024) :
    (⟨(outAt V c (b + 3) hb).1 (ix3 (0 : Fin 1) (0 : Fin 1) f), (outAt V c (b + 3) hb).2.1 (ix3 (0 : Fin 1) (0 : Fin 1) f),
      (outAt V c (b + 3) hb).2.2 (ix3 (0 : Fin 1) (0 : Fin 1) f)⟩ : Acc) = accSt (stAt V c (b + 3) hb) f := by
  have h4 : ¬(b + 3) % 4 = 0 := by omega
  have h3 : (b + 3) % 4 = 3 := by omega
  rw [show outAt V c (b + 3) hb = outAt V c (⟨b + 3, hb⟩ : Fin cfg0.N).val (⟨b + 3, hb⟩ : Fin cfg0.N).isLt from rfl,
    outAt_C V c ⟨b + 3, hb⟩ h4 h3,
    show stAt V c (b + 3) hb = stAt V c (⟨b + 3, hb⟩ : Fin cfg0.N).val (⟨b + 3, hb⟩ : Fin cfg0.N).isLt from rfl,
    stAt_C V c ⟨b + 3, hb⟩ h4 h3]
  obtain ⟨e1, e2, e3⟩ := outC_at V c ⟨b + 3, hb⟩ (fun h => h4 ((hcond0_0 _).mp h)) ((hcond0_1 _).mpr h3)
    (stAt V c ((⟨b + 3, hb⟩ : Fin cfg0.N).val - 1) (Nat.lt_of_le_of_lt (Nat.sub_le _ _) (⟨b + 3, hb⟩ : Fin cfg0.N).isLt)) f
  rw [e1, e2, e3]
  rfl

end

end Cert.KernelIdeal.Val

end
-- ==== Proof.BlockIdx.lean ====
/-
  Each pipeline window's block at a grid position, read at an index, is the window's array read at the
  corresponding global index: on every axis the array coordinate is the block index times the block size plus
  the coordinate inside the block.

  The streaming region's grid is 2 × 4, flattened to positions t = 0 … 7. Its window 0 cuts the [8192, 1024]
  activations in eight row tiles, position t holding rows 1024·t … 1024·t + 1023; windows 1 … 4 are whole arrays
  (transposed key weights, key bias row, transposed value weights, value bias row), the same block at every
  position. Its three result windows are the two planes of [2, 1, 1024] arrays: position t writes plane t / 4.
  The output region's grid is 8: window 0 the same row tiles, windows 1 … 3 whole arrays (transposed query
  weights, query bias row, the one-entry array), and the result window the row tiles of the [8192, 1024] result.

  The block indices are decided once over each grid; the rest is the arithmetic of one coordinate per axis. The
  contents the arrays hold are a parameter and are never opened.
-/
import proofs.«181116_j87170656240173_2_alg».proof.Proof.FrKernelIdeal.Base0
import proofs.«181116_j87170656240173_2_alg».proof.Proof.FrKernelIdeal.Body1
import Idealize.ShloMosaic.Lib.ValueIdx
import Idealize.ShloMosaic.Lib.Pipeline.Value

noncomputable section

namespace Cert.KernelIdeal.BlockIdx

open Cert.KernelIdeal Cert.KernelIdeal.Gen Cert.KernelIdeal.Fr Idealize.ShloMosaic Idealize.ShloMosaic.ValueIdx
  Idealize.ShloMosaic.TcCoe

variable [Facts]
open Facts₀ Facts

variable {F : FTy → Type} [FloatOps F]
variable (V : (c : Dev nD) → (b : Ref sig .tc) → Buf (Elt F) ((c : Thread nD τ).loc b))

/-! ## The streaming region's input windows (grid 2 × 4, positions 0 … 7) -/

/-- Window 0 walks the eight row tiles of the activations: at position t, row r of the block is row 1024·t + r of the array. -/
theorem iblk0_0_apply (c : Dev nD) (t : Fin cfg0.N) (r e : Fin 1024) :
    (iblk0 V c 0 t : Vec F S1024x1024 .f32) (ix2 r e)
      = (V c main_call0_v0 : S8192x1024.Idx → Elt F .f32)
          (ix2 (⟨t.val * 1024 + r.val, by have := t.isLt; have : cfg0.N = 8 := N_0; have := r.isLt; omega⟩ : Fin 8192) e) := by
  have hi := (by decide +kernel : ∀ t : Fin grid0.N, win0_0.index t 0 = t.val ∧ win0_0.index t 1 = 0) t
  unfold iblk0
  rw [View.read_apply]
  show V c main_call0_v0 _ = V c main_call0_v0 _
  congr 1
  funext a
  apply Fin.ext
  match a with
  | ⟨0, _⟩ => show win0_0.index t 0 * 1024 + 1 * r.val = t.val * 1024 + r.val; rw [hi.1]; omega
  | ⟨1, _⟩ => show win0_0.index t 1 * 1024 + 1 * e.val = e.val; rw [hi.2]; omega

/-- Window 1 is the whole array of transposed key weights at every position. -/
theorem iblk0_1_apply (c : Dev nD) (t : Fin cfg0.N) (e f : Fin 1024) :
    (iblk0 V c 1 t : Vec F S1024x1024 .bf16) (ix2 e f) = (V c main_call0_v4 : S1024x1024.Idx → Elt F .bf16) (ix2 e f) := by
  have hi := (by decide +kernel : ∀ t : Fin grid0.N, win0_1.index t 0 = 0 ∧ win0_1.index t 1 = 0) t
  unfold iblk0
  rw [View.read_apply]
  show V c main_call0_v4 _ = V c main_call0_v4 _
  congr 1
  funext a
  apply Fin.ext
  match a with
  | ⟨0, _⟩ => show win0_1.index t 0 * 1024 + 1 * e.val = e.val; rw [hi.1]; omega
  | ⟨1, _⟩ => show win0_1.index t 1 * 1024 + 1 * f.val = f.val; rw [hi.2]; omega

/-- Window 2 is the whole key bias row at every position. -/
theorem iblk0_2_apply (c : Dev nD) (t : Fin cfg0.N) (f : Fin 1024) :
    (iblk0 V c 2 t : Vec F S1x1024 .f32) (ix2 (0 : Fin 1) f)
      = (V c main_call0_v8 : S1x1024.Idx → Elt F .f32) (ix2 (0 : Fin 1) f) := by
  have hi := (by decide +kernel : ∀ t : Fin grid0.N, win0_2.index t 0 = 0 ∧ win0_2.index t 1 = 0) t
  unfold iblk0
  rw [View.read_apply]
  show V c main_call0_v8 _ = V c main_call0_v8 _
  congr 1
  funext a
  apply Fin.ext
  match a with
  | ⟨0, _⟩ => show win0_2.index t 0 * 1 + 1 * 0 = 0; rw [hi.1]
  | ⟨1, _⟩ => show win0_2.index t 1 * 1024 + 1 * f.val = f.val; rw [hi.2]; omega

/-- Window 3 is the whole array of transposed value weights at every position. -/
theorem iblk0_3_apply (c : Dev nD) (t : Fin cfg0.N) (e f : Fin 1024) :
    (iblk0 V c 3 t : Vec F S1024x1024 .bf16) (ix2 e f) = (V c main_call0_v6 : S1024x1024.Idx → Elt F .bf16) (ix2 e f) := by
  have hi := (by decide +kernel : ∀ t : Fin grid0.N, win0_3.index t 0 = 0 ∧ win0_3.index t 1 = 0) t
  unfold iblk0
  rw [View.read_apply]
  show V c main_call0_v6 _ = V c main_call0_v6 _
  congr 1
  funext a
  apply Fin.ext
  match a with
  | ⟨0, _⟩ => show win0_3.index t 0 * 1024 + 1 * e.val = e.val; rw [hi.1]; omega
  | ⟨1, _⟩ => show win0_3.index t 1 * 1024 + 1 * f.val = f.val; rw [hi.2]; omega

/-- Window 4 is the whole value bias row at every position. -/
theorem iblk0_4_apply (c : Dev nD) (t : Fin cfg0.N) (f : Fin 1024) :
    (iblk0 V c 4 t : Vec F S1x1024 .f32) (ix2 (0 : Fin 1) f)
      = (V c main_call0_v9 : S1x1024.Idx → Elt F .f32) (ix2 (0 : Fin 1) f) := by
  have hi := (by decide +kernel : ∀ t : Fin grid0.N, win0_4.index t 0 = 0 ∧ win0_4.index t 1 = 0) t
  unfold iblk0
  rw [View.read_apply]
  show V c main_call0_v9 _ = V c main_call0_v9 _
  congr 1
  funext a
  apply Fin.ext
  match a with
  | ⟨0, _⟩ => show win0_4.index t 0 * 1 + 1 * 0 = 0; rw [hi.1]
  | ⟨1, _⟩ => show win0_4.index t 1 * 1024 + 1 * f.val = f.val; rw [hi.2]; omega

/-! ## The output region's input windows (grid 8) -/

/-- Window 0 walks the same eight row tiles of the activations. -/
theorem iblk1_0_apply (c : Dev nD) (t : Fin cfg1.N) (r e : Fin 1024) :
    (iblk1 V c 0 t : Vec F S1024x1024 .f32) (ix2 r e)
      = (V c main_call0_v0 : S8192x1024.Idx → Elt F .f32)
          (ix2 (⟨t.val * 1024 + r.val, by have := t.isLt; have : cfg1.N = 8 := N_1; have := r.isLt; omega⟩ : Fin 8192) e) := by
  have hi := (by decide +kernel : ∀ t : Fin grid1.N, win1_0.index t 0 = t.val ∧ win1_0.index t 1 = 0) t
  unfold iblk1
  rw [View.read_apply]
  show V c main_call0_v0 _ = V c main_call0_v0 _
  congr 1
  funext a
  apply Fin.ext
  match a with
  | ⟨0, _⟩ => show win1_0.index t 0 * 1024 + 1 * r.val = t.val * 1024 + r.val; rw [hi.1]; omega
  | ⟨1, _⟩ => show win1_0.index t 1 * 1024 + 1 * e.val = e.val; rw [hi.2]; omega

/-- Window 1 is the whole array of transposed query weights at every position. -/
theorem iblk1_1_apply (c : Dev nD) (t : Fin cfg1.N) (e f : Fin 1024) :
    (iblk1 V c 1 t : Vec F S1024x1024 .bf16) (ix2 e f) = (V c main_call0_v2 : S1024x1024.Idx → Elt F .bf16) (ix2 e f) := by
  have hi := (by decide +kernel : ∀ t : Fin grid1.N, win1_1.index t 0 = 0 ∧ win1_1.index t 1 = 0) t
  unfold iblk1
  rw [View.read_apply]
  show V c main_call0_v2 _ = V c main_call0_v2 _
  congr 1
  funext a
  apply Fin.ext
  match a with
  | ⟨0, _⟩ => show win1_1.index t 0 * 1024 + 1 * e.val = e.val; rw [hi.1]; omega
  | ⟨1, _⟩ => show win1_1.index t 1 * 1024 + 1 * f.val = f.val; rw [hi.2]; omega

/-- Window 2 is the whole query bias row at every position. -/
theorem iblk1_2_apply (c : Dev nD) (t : Fin cfg1.N) (f : Fin 1024) :
    (iblk1 V c 2 t : Vec F S1x1024 .f32) (ix2 (0 : Fin 1) f)
      = (V c main_call0_v7 : S1x1024.Idx → Elt F .f32) (ix2 (0 : Fin 1) f) := by
  have hi := (by decide +kernel : ∀ t : Fin grid1.N, win1_2.index t 0 = 0 ∧ win1_2.index t 1 = 0) t
  unfold iblk1
  rw [View.read_apply]
  show V c main_call0_v7 _ = V c main_call0_v7 _
  congr 1
  funext a
  apply Fin.ext
  match a with
  | ⟨0, _⟩ => show win1_2.index t 0 * 1 + 1 * 0 = 0; rw [hi.1]
  | ⟨1, _⟩ => show win1_2.index t 1 * 1024 + 1 * f.val = f.val; rw [hi.2]; omega

/-- Window 3 is the one-entry array at every position. -/
theorem iblk1_3_apply (c : Dev nD) (t : Fin cfg1.N) :
    (iblk1 V c 3 t : Vec F S1x1 .f32) (ix2 (0 : Fin 1) (0 : Fin 1))
      = (V c main_call0_v36 : S1x1.Idx → Elt F .f32) (ix2 (0 : Fin 1) (0 : Fin 1)) := by
  have hi := (by decide +kernel : ∀ t : Fin grid1.N, win1_3.index t 0 = 0 ∧ win1_3.index t 1 = 0) t
  unfold iblk1
  rw [View.read_apply]
  show V c main_call0_v36 _ = V c main_call0_v36 _
  congr 1
  funext a
  apply Fin.ext
  match a with
  | ⟨0, _⟩ => show win1_3.index t 0 * 1 + 1 * 0 = 0; rw [hi.1]
  | ⟨1, _⟩ => show win1_3.index t 1 * 1 + 1 * 0 = 0; rw [hi.2]

/-! ## The result windows, read off any array of their type

The streaming region's three result windows are cut along the leading axis of a [2, 1, 1024] array: positions 0 … 3
write plane 0, positions 4 … 7 plane 1 (plane t / 4). The output region's result window walks the eight row tiles. -/

theorem oblk0_5_apply (G : S2x1x1024.Idx → Elt F .f32) (t : Fin cfg0.N) (f : Fin 1024) :
    (((cfg0.win 5).blk t).view.read (Elt F) G : Vec F S1x1x1024 .f32) (ix3 (0 : Fin 1) (0 : Fin 1) f)
      = G (ix3 (⟨t.val / 4, by have := t.isLt; have : cfg0.N = 8 := N_0; omega⟩ : Fin 2) (0 : Fin 1) f) := by
  have hi := (by decide +kernel : ∀ t : Fin grid0.N,
    win0_5.index t 0 = t.val / 4 ∧ win0_5.index t 1 = 0 ∧ win0_5.index t 2 = 0) t
  show G _ = G _
  congr 1
  funext a
  apply Fin.ext
  match a with
  | ⟨0, _⟩ => show win0_5.index t 0 * 1 + 1 * 0 = t.val / 4; rw [hi.1]; omega
  | ⟨1, _⟩ => show win0_5.index t 1 * 1 + 1 * 0 = 0; rw [hi.2.1]
  | ⟨2, _⟩ => show win0_5.index t 2 * 1024 + 1 * f.val = f.val; rw [hi.2.2]; omega

theorem oblk0_6_apply (G : S2x1x1024.Idx → Elt F .f32) (t : Fin cfg0.N) (f : Fin 1024) :
    (((cfg0.win 6).blk t).view.read (Elt F) G : Vec F S1x1x1024 .f32) (ix3 (0 : Fin 1) (0 : Fin 1) f)
      = G (ix3 (⟨t.val / 4, by have := t.isLt; have : cfg0.N = 8 := N_0; omega⟩ : Fin 2) (0 : Fin 1) f) := by
  have hi := (by decide +kernel : ∀ t : Fin grid0.N,
    win0_6.index t 0 = t.val / 4 ∧ win0_6.index t 1 = 0 ∧ win0_6.index t 2 = 0) t
  show G _ = G _
  congr 1
  funext a
  apply Fin.ext
  match a with
  | ⟨0, _⟩ => show win0_6.index t 0 * 1 + 1 * 0 = t.val / 4; rw [hi.1]; omega
  | ⟨1, _⟩ => show win0_6.index t 1 * 1 + 1 * 0 = 0; rw [hi.2.1]
  | ⟨2, _⟩ => show win0_6.index t 2 * 1024 + 1 * f.val = f.val; rw [hi.2.2]; omega

theorem oblk0_7_apply (G : S2x1x1024.Idx → Elt F .f32) (t : Fin cfg0.N) (f : Fin 1024) :
    (((cfg0.win 7).blk t).view.read (Elt F) G : Vec F S1x1x1024 .f32) (ix3 (0 : Fin 1) (0 : Fin 1) f)
      = G (ix3 (⟨t.val / 4, by have := t.isLt; have : cfg0.N = 8 := N_0; omega⟩ : Fin 2) (0 : Fin 1) f) := by
  have hi := (by decide +kernel : ∀ t : Fin grid0.N,
    win0_7.index t 0 = t.val / 4 ∧ win0_7.index t 1 = 0 ∧ win0_7.index t 2 = 0) t
  show G _ = G _
  congr 1
  funext a
  apply Fin.ext
  match a with
  | ⟨0, _⟩ => show win0_7.index t 0 * 1 + 1 * 0 = t.val / 4; rw [hi.1]; omega
  | ⟨1, _⟩ => show win0_7.index t 1 * 1 + 1 * 0 = 0; rw [hi.2.1]
  | ⟨2, _⟩ => show win0_7.index t 2 * 1024 + 1 * f.val = f.val; rw [hi.2.2]; omega

theorem oblk1_4_apply (G : S8192x1024.Idx → Elt F .f32) (t : Fin cfg1.N) (r f : Fin 1024) :
    (((cfg1.win 4).blk t).view.read (Elt F) G : Vec F S1024x1024 .f32) (ix2 r f)
      = G (ix2 (⟨t.val * 1024 + r.val, by have := t.isLt; have : cfg1.N = 8 := N_1; have := r.isLt; omega⟩ : Fin 8192) f) := by
  have hi := (by decide +kernel : ∀ t : Fin grid1.N, win1_4.index t 0 = t.val ∧ win1_4.index t 1 = 0) t
  show G _ = G _
  congr 1
  funext a
  apply Fin.ext
  match a with
  | ⟨0, _⟩ => show win1_4.index t 0 * 1024 + 1 * r.val = t.val * 1024 + r.val; rw [hi.1]; omega
  | ⟨1, _⟩ => show win1_4.index t 1 * 1024 + 1 * f.val = f.val; rw [hi.2]; omega

end Cert.KernelIdeal.BlockIdx

end
-- ==== Proof.ArrOut.lean ====
/-
  What each kernel region's output arrays hold after the region, element by element.

  A region's output window is written back block by block: at a grid position that writes back, the window's block of
  the array takes what the body left for it. When every such block is the matching block of ONE function G of the
  array's indices, an index some written-back block covers ends at G of that index.

  The output region: the array is [8192, 1024], position t writes rows 1024·t … 1024·t + 1023, every position writes
  back; G (s, f) is what position s / 1024 left at (s mod 1024, f).
  The streaming region: each of the three result arrays is [2, 1, 1024]; row h is written back at position 4·h + 3
  (the last tile of half h) and at no other; G (h, 0, f) is what position 4·h + 3 left at (0, 0, f).
-/
import proofs.«181116_j87170656240173_2_alg».proof.Proof.FrKernelIdeal.Body0
import proofs.«181116_j87170656240173_2_alg».proof.Proof.FrKernelIdeal.Body1
import Idealize.ShloMosaic.Lib.ValueIdx
import Idealize.ShloMosaic.Lib.Pipeline.Value

set_option maxRecDepth 16384

noncomputable section

namespace Cert.KernelIdeal.ArrOut

open Cert.KernelIdeal Cert.KernelIdeal.Gen Cert.KernelIdeal.Fr
open Idealize.ShloMosaic Idealize.ShloMosaic.ValueIdx Idealize.ShloMosaic.TcCoe
open Idealize.ShloMosaic.Pipeline (Dat)

variable {F : FTy → Type} [FloatOps F]
variable (V : (c : Dev nD) → (b : Ref sig .tc) → Buf (Elt F) ((c : Thread nD τ).loc b))

/-! ## The output region: window 4, rows 1024·t … 1024·t + 1023 at position t -/

/-- The window's block index at position t is (t, 0). -/
theorem idx1_4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

/-- Row s = 1024·t + r of the array lies in position t's block. -/
theorem row_bound (t : Fin cfg1.N) (r : Fin 1024) : t.val * 1024 + r.val < 8192 := by
  have ht : t.val < grid1.N := t.isLt
  have hN := N_1
  have hr := r.isLt
  omega

/-- The whole array as one function: entry (s, f) is what position s / 1024 left at (s mod 1024, f). -/
def G1_4 (c : Dev nD) : S8192x1024.Idx → Elt F .f32 := fun i =>
  ((dat1 V c).after 4 ⟨(i 0).val / 1024, by
      have h := idx2_lt0 i
      have hN := N_1
      show (i 0).val / 1024 < grid1.N
      omega⟩ : Vec F S1024x1024 .f32)
    (ix2 (⟨(i 0).val % 1024, Nat.mod_lt _ (by decide)⟩ : Fin 1024) (⟨(i 1).val, idx2_lt1 i⟩ : Fin 1024))

theorem G1_4_apply (c : Dev nD) (t : Fin cfg1.N) (r f : Fin 1024) :
    G1_4 V c (ix2 (⟨t.val * 1024 + r.val, row_bound t r⟩ : Fin 8192) f)
      = ((dat1 V c).after 4 t : Vec F S1024x1024 .f32) (ix2 r f) := by
  have hr := r.isLt
  have ht : (⟨(t.val * 1024 + r.val) / 1024, by
      have h1 : t.val < grid1.N := t.isLt
      have hN := N_1
      show (t.val * 1024 + r.val) / 1024 < grid1.N
      omega⟩ : Fin cfg1.N) = t := Fin.ext (by show (t.val * 1024 + r.val) / 1024 = t.val; omega)
  have hr' : (⟨(t.val * 1024 + r.val) % 1024, Nat.mod_lt _ (by decide)⟩ : Fin 1024) = r :=
    Fin.ext (by show (t.val * 1024 + r.val) % 1024 = r.val; omega)
  show ((dat1 V c).after 4 (⟨(t.val * 1024 + r.val) / 1024, _⟩ : Fin cfg1.N) : Vec F S1024x1024 .f32)
      (ix2 (⟨(t.val * 1024 + r.val) % 1024, _⟩ : Fin 1024) (⟨f.val, _⟩ : Fin 1024)) = _
  rw [ht, hr']

/-- An element of position t's block sits in the array at row 1024·t + its own row, in its own column. -/
theorem emb1_4 (t : Fin cfg1.N) (j : ((cfg1.win 4).xblock (cfg1.grid.coords t)).Idx)
    (hj0 : (j 0).val < 1024) (hj1 : (j 1).val < 1024) :
    (((cfg1.win 4).blk t).view.emb j : S8192x1024.Idx)
      = ix2 (⟨t.val * 1024 + (j 0).val, row_bound t ⟨(j 0).val, hj0⟩⟩ : Fin 8192) (⟨(j 1).val, hj1⟩ : Fin 1024) := by
  obtain ⟨e0, e1⟩ := idx1_4 t
  funext a
  apply Fin.ext
  match a with
  | ⟨0, _⟩ => show win1_4.index t (0 : Fin 2) * 1024 + 1 * (j 0).val = t.val * 1024 + (j 0).val; omega
  | ⟨1, _⟩ => show win1_4.index t (1 : Fin 2) * 1024 + 1 * (j 1).val = (j 1).val; omega

/-- What position t writes back is block t of G. -/
theorem flushed1_4_eq (c : Dev nD) (t : Fin cfg1.N) :
    (dat1 V c).flushed 4 t = ((cfg1.win 4).blk t).view.read (Elt F) (G1_4 V c) := by
  funext j
  rw [View.read_apply]
  show ((dat1 V c).after 4 t : Vec F S1024x1024 .f32) ((cfg1.win 4).xinj (cfg1.grid.coords t) j)
    = G1_4 V c (((cfg1.win 4).blk t).view.emb j)
  have hj0 : (j 0).val < 1024 := (j 0).isLt
  have hj1 : (j 1).val < 1024 := (j 1).isLt
  rw [emb1_4 t j hj0 hj1]
  refine Eq.trans ?_ (G1_4_apply V c t ⟨(j 0).val, hj0⟩ ⟨(j 1).val, hj1⟩).symm
  refine congrArg _ ?_
  funext a
  apply Fin.ext
  match a with
  | ⟨0, _⟩ => rfl
  | ⟨1, _⟩ => rfl

/-- An index of the array is in position t's block iff each coordinate is in the block's range on its axis. -/
theorem mem_blk1_4 (t : Fin cfg1.N) (i : S8192x1024.Idx) :
    i ∈ ((cfg1.win 4).blk t).view.set
      ↔ ∀ a : Fin 2, win1_4.index t a * S1024x1024.size a ≤ (i a).val ∧ (i a).val < win1_4.index t a * S1024x1024.size a + S1024x1024.size a := by
  show i ∈ ((View.whole main_call0_v37).slice (win1_4.rect t)).set ↔ _
  rw [View.set_slice_whole, Rect.mem_set_unit]
  exact Iff.rfl

/-- THE OUTPUT ARRAY after the region: row 1024·t + r, column f holds what position t left at (r, f). -/
theorem arr1_4 (c : Dev nD) (t : Fin cfg1.N) (r f : Fin 1024) :
    (dat1 V c).arrAt 4 cfg1.N (ix2 (⟨t.val * 1024 + r.val, row_bound t r⟩ : Fin 8192) f)
      = ((dat1 V c).after 4 t : Vec F S1024x1024 .f32) (ix2 r f) := by
  rw [← G1_4_apply]
  refine (dat1 V c).arrAt_apply_of_mem 4 (G1_4 V c) (fun t _ => flushed1_4_eq V c t) cfg1.N t _ t.isLt (flush1_4 t) ?_
  rw [mem_blk1_4]
  obtain ⟨e0, e1⟩ := idx1_4 t
  have hr := r.isLt
  have hf := f.isLt
  intro a
  match a with
  | ⟨0, _⟩ => show win1_4.index t (0 : Fin 2) * 1024 ≤ t.val * 1024 + r.val ∧ t.val * 1024 + r.val < win1_4.index t (0 : Fin 2) * 1024 + 1024; omega
  | ⟨1, _⟩ => show win1_4.index t (1 : Fin 2) * 1024 ≤ f.val ∧ f.val < win1_4.index t (1 : Fin 2) * 1024 + 1024; omega

/-! ## The streaming region: windows 5, 6, 7, row h written back at position 4·h + 3 -/

/-- A rank-3 index's first and last coordinates are below their extents, written as the extents themselves. -/
theorem lt3_0 {n0 n1 n2 : Nat} (j : (⟨3, ![n0, n1, n2]⟩ : Shape).Idx) : (j 0).val < n0 := (j 0).isLt
theorem lt3_2 {n0 n1 n2 : Nat} (j : (⟨3, ![n0, n1, n2]⟩ : Shape).Idx) : (j 2).val < n2 := (j 2).isLt

/-- The last position of half h is a position of the grid. -/
theorem pos_bound (h : Fin 2) : 4 * h.val + 3 < cfg0.N := by
  have hh := h.isLt
  have hN := N_0
  show 4 * h.val + 3 < grid0.N
  omega

/-- The half a position belongs to. -/
theorem half_bound (t : Fin cfg0.N) : t.val / 4 < 2 := by
  have ht : t.val < grid0.N := t.isLt
  have hN := N_0
  omega

/-- What a position left depends on the position only through its number. -/
theorem outAt_congr (c : Dev nD) {n n' : ℕ} (e : n = n') (hn : n < cfg0.N) (hn' : n' < cfg0.N) :
    outAt V c n hn = outAt V c n' hn' := by
  subst e
  rfl

/-! ### Window 5 -/

/-- The window's block index at position t is (t / 4, 0, 0). -/
theorem idx0_5 : ∀ t : Fin cfg0.N, win0_5.index t (0 : Fin 3) = t.val / 4 ∧ win0_5.index t (1 : Fin 3) = 0 ∧ win0_5.index t (2 : Fin 3) = 0 :=
  (by decide +kernel : ∀ t : Fin grid0.N, win0_5.index t (0 : Fin 3) = t.val / 4 ∧ win0_5.index t (1 : Fin 3) = 0 ∧ win0_5.index t (2 : Fin 3) = 0)

/-- The whole array as one function: entry (h, 0, f) is what position 4·h + 3 left at (0, 0, f). -/
def G0_5 (c : Dev nD) : S2x1x1024.Idx → Elt F .f32 := fun i =>
  ((outAt V c (4 * (i 0).val + 3) (pos_bound ⟨(i 0).val, lt3_0 i⟩)).1 : Vec F S1x1x1024 .f32)
    (ix3 (0 : Fin 1) (0 : Fin 1) (⟨(i 2).val, lt3_2 i⟩ : Fin 1024))

theorem G0_5_apply (c : Dev nD) (h : Fin 2) (f : Fin 1024) :
    G0_5 V c (ix3 h (0 : Fin 1) f)
      = ((outAt V c (4 * h.val + 3) (pos_bound h)).1 : Vec F S1x1x1024 .f32) (ix3 (0 : Fin 1) (0 : Fin 1) f) := rfl

/-- An element of position t's block sits in the array in row t / 4, in its own column. -/
theorem emb0_5 (t : Fin cfg0.N) (j : ((cfg0.win 5).xblock (cfg0.grid.coords t)).Idx)
    (hj0 : (j 0).val < 1) (hj1 : (j 1).val < 1) (hj2 : (j 2).val < 1024) :
    (((cfg0.win 5).blk t).view.emb j : S2x1x1024.Idx)
      = ix3 (⟨t.val / 4, half_bound t⟩ : Fin 2) (0 : Fin 1) (⟨(j 2).val, hj2⟩ : Fin 1024) := by
  obtain ⟨e0, e1, e2⟩ := idx0_5 t
  funext a
  apply Fin.ext
  match a with
  | ⟨0, _⟩ => show win0_5.index t (0 : Fin 3) * 1 + 1 * (j 0).val = t.val / 4; omega
  | ⟨1, _⟩ => show win0_5.index t (1 : Fin 3) * 1 + 1 * (j 1).val = 0; omega
  | ⟨2, _⟩ => show win0_5.index t (2 : Fin 3) * 1024 + 1 * (j 2).val = (j 2).val; omega

/-- What a position that writes back writes is its block of G. -/
theorem flushed0_5_eq (c : Dev nD) (t : Fin cfg0.N) (hf : (cfg0.win 5).flush t = true) :
    (dat0 V c).flushed 5 t = ((cfg0.win 5).blk t).view.read (Elt F) (G0_5 V c) := by
  have h3 : t.val % 4 = 3 := (flush0_5 t).mp hf
  funext j
  have hj0 : (j 0).val < 1 := (j 0).isLt
  have hj1 : (j 1).val < 1 := (j 1).isLt
  have hj2 : (j 2).val < 1024 := (j 2).isLt
  rw [View.read_apply]
  show ((dat0 V c).after 5 t : Vec F S1x1x1024 .f32) ((cfg0.win 5).xinj (cfg0.grid.coords t) j)
    = G0_5 V c (((cfg0.win 5).blk t).view.emb j)
  rw [after0_5, emb0_5 t j hj0 hj1 hj2]
  refine Eq.trans ?_ (G0_5_apply V c ⟨t.val / 4, half_bound t⟩ ⟨(j 2).val, hj2⟩).symm
  rw [outAt_congr V c (show t.val = 4 * (t.val / 4) + 3 by omega) t.isLt (pos_bound ⟨t.val / 4, half_bound t⟩)]
  refine congrArg _ ?_
  funext a
  apply Fin.ext
  match a with
  | ⟨0, _⟩ => show (j 0).val = 0; omega
  | ⟨1, _⟩ => show (j 1).val = 0; omega
  | ⟨2, _⟩ => rfl

/-- An index of the array is in position t's block iff each coordinate is in the block's range on its axis. -/
theorem mem_blk0_5 (t : Fin cfg0.N) (i : S2x1x1024.Idx) :
    i ∈ ((cfg0.win 5).blk t).view.set
      ↔ ∀ a : Fin 3, win0_5.index t a * S1x1x1024.size a ≤ (i a).val ∧ (i a).val < win0_5.index t a * S1x1x1024.size a + S1x1x1024.size a := by
  show i ∈ ((View.whole main_call0_v10_0).slice (win0_5.rect t)).set ↔ _
  rw [View.set_slice_whole, Rect.mem_set_unit]
  exact Iff.rfl

/-- THE RESULT ARRAY after the region: row h holds what position 4·h + 3 left. -/
theorem arr0_5 (c : Dev nD) (h : Fin 2) (f : Fin 1024) :
    (dat0 V c).arrAt 5 cfg0.N (ix3 h (0 : Fin 1) f)
      = ((outAt V c (4 * h.val + 3) (pos_bound h)).1 : Vec F S1x1x1024 .f32) (ix3 (0 : Fin 1) (0 : Fin 1) f) := by
  refine Eq.trans ?_ (G0_5_apply V c h f)
  obtain ⟨t, htv⟩ : ∃ t : Fin cfg0.N, t.val = 4 * h.val + 3 := ⟨⟨4 * h.val + 3, pos_bound h⟩, rfl⟩
  have hh := h.isLt
  have hf := f.isLt
  refine (dat0 V c).arrAt_apply_of_mem 5 (G0_5 V c) (fun t hf => flushed0_5_eq V c t hf) cfg0.N t _ t.isLt
    ((flush0_5 t).mpr (by omega)) ?_
  rw [mem_blk0_5]
  obtain ⟨e0, e1, e2⟩ := idx0_5 t
  intro a
  match a with
  | ⟨0, _⟩ => show win0_5.index t (0 : Fin 3) * 1 ≤ h.val ∧ h.val < win0_5.index t (0 : Fin 3) * 1 + 1; omega
  | ⟨1, _⟩ => show win0_5.index t (1 : Fin 3) * 1 ≤ 0 ∧ 0 < win0_5.index t (1 : Fin 3) * 1 + 1; omega
  | ⟨2, _⟩ => show win0_5.index t (2 : Fin 3) * 1024 ≤ f.val ∧ f.val < win0_5.index t (2 : Fin 3) * 1024 + 1024; omega

/-! ### Window 6 -/

/-- The window's block index at position t is (t / 4, 0, 0). -/
theorem idx0_6 : ∀ t : Fin cfg0.N, win0_6.index t (0 : Fin 3) = t.val / 4 ∧ win0_6.index t (1 : Fin 3) = 0 ∧ win0_6.index t (2 : Fin 3) = 0 :=
  (by decide +kernel : ∀ t : Fin grid0.N, win0_6.index t (0 : Fin 3) = t.val / 4 ∧ win0_6.index t (1 : Fin 3) = 0 ∧ win0_6.index t (2 : Fin 3) = 0)

/-- The whole array as one function: entry (h, 0, f) is what position 4·h + 3 left at (0, 0, f). -/
def G0_6 (c : Dev nD) : S2x1x1024.Idx → Elt F .f32 := fun i =>
  ((outAt V c (4 * (i 0).val + 3) (pos_bound ⟨(i 0).val, lt3_0 i⟩)).2.1 : Vec F S1x1x1024 .f32)
    (ix3 (0 : Fin 1) (0 : Fin 1) (⟨(i 2).val, lt3_2 i⟩ : Fin 1024))

theorem G0_6_apply (c : Dev nD) (h : Fin 2) (f : Fin 1024) :
    G0_6 V c (ix3 h (0 : Fin 1) f)
      = ((outAt V c (4 * h.val + 3) (pos_bound h)).2.1 : Vec F S1x1x1024 .f32) (ix3 (0 : Fin 1) (0 : Fin 1) f) := rfl

/-- An element of position t's block sits in the array in row t / 4, in its own column. -/
theorem emb0_6 (t : Fin cfg0.N) (j : ((cfg0.win 6).xblock (cfg0.grid.coords t)).Idx)
    (hj0 : (j 0).val < 1) (hj1 : (j 1).val < 1) (hj2 : (j 2).val < 1024) :
    (((cfg0.win 6).blk t).view.emb j : S2x1x1024.Idx)
      = ix3 (⟨t.val / 4, half_bound t⟩ : Fin 2) (0 : Fin 1) (⟨(j 2).val, hj2⟩ : Fin 1024) := by
  obtain ⟨e0, e1, e2⟩ := idx0_6 t
  funext a
  apply Fin.ext
  match a with
  | ⟨0, _⟩ => show win0_6.index t (0 : Fin 3) * 1 + 1 * (j 0).val = t.val / 4; omega
  | ⟨1, _⟩ => show win0_6.index t (1 : Fin 3) * 1 + 1 * (j 1).val = 0; omega
  | ⟨2, _⟩ => show win0_6.index t (2 : Fin 3) * 1024 + 1 * (j 2).val = (j 2).val; omega

/-- What a position that writes back writes is its block of G. -/
theorem flushed0_6_eq (c : Dev nD) (t : Fin cfg0.N) (hf : (cfg0.win 6).flush t = true) :
    (dat0 V c).flushed 6 t = ((cfg0.win 6).blk t).view.read (Elt F) (G0_6 V c) := by
  have h3 : t.val % 4 = 3 := (flush0_6 t).mp hf
  funext j
  have hj0 : (j 0).val < 1 := (j 0).isLt
  have hj1 : (j 1).val < 1 := (j 1).isLt
  have hj2 : (j 2).val < 1024 := (j 2).isLt
  rw [View.read_apply]
  show ((dat0 V c).after 6 t : Vec F S1x1x1024 .f32) ((cfg0.win 6).xinj (cfg0.grid.coords t) j)
    = G0_6 V c (((cfg0.win 6).blk t).view.emb j)
  rw [after0_6, emb0_6 t j hj0 hj1 hj2]
  refine Eq.trans ?_ (G0_6_apply V c ⟨t.val / 4, half_bound t⟩ ⟨(j 2).val, hj2⟩).symm
  rw [outAt_congr V c (show t.val = 4 * (t.val / 4) + 3 by omega) t.isLt (pos_bound ⟨t.val / 4, half_bound t⟩)]
  refine congrArg _ ?_
  funext a
  apply Fin.ext
  match a with
  | ⟨0, _⟩ => show (j 0).val = 0; omega
  | ⟨1, _⟩ => show (j 1).val = 0; omega
  | ⟨2, _⟩ => rfl

/-- An index of the array is in position t's block iff each coordinate is in the block's range on its axis. -/
theorem mem_blk0_6 (t : Fin cfg0.N) (i : S2x1x1024.Idx) :
    i ∈ ((cfg0.win 6).blk t).view.set
      ↔ ∀ a : Fin 3, win0_6.index t a * S1x1x1024.size a ≤ (i a).val ∧ (i a).val < win0_6.index t a * S1x1x1024.size a + S1x1x1024.size a := by
  show i ∈ ((View.whole main_call0_v10_1).slice (win0_6.rect t)).set ↔ _
  rw [View.set_slice_whole, Rect.mem_set_unit]
  exact Iff.rfl

/-- THE RESULT ARRAY after the region: row h holds what position 4·h + 3 left. -/
theorem arr0_6 (c : Dev nD) (h : Fin 2) (f : Fin 1024) :
    (dat0 V c).arrAt 6 cfg0.N (ix3 h (0 : Fin 1) f)
      = ((outAt V c (4 * h.val + 3) (pos_bound h)).2.1 : Vec F S1x1x1024 .f32) (ix3 (0 : Fin 1) (0 : Fin 1) f) := by
  refine Eq.trans ?_ (G0_6_apply V c h f)
  obtain ⟨t, htv⟩ : ∃ t : Fin cfg0.N, t.val = 4 * h.val + 3 := ⟨⟨4 * h.val + 3, pos_bound h⟩, rfl⟩
  have hh := h.isLt
  have hf := f.isLt
  refine (dat0 V c).arrAt_apply_of_mem 6 (G0_6 V c) (fun t hf => flushed0_6_eq V c t hf) cfg0.N t _ t.isLt
    ((flush0_6 t).mpr (by omega)) ?_
  rw [mem_blk0_6]
  obtain ⟨e0, e1, e2⟩ := idx0_6 t
  intro a
  match a with
  | ⟨0, _⟩ => show win0_6.index t (0 : Fin 3) * 1 ≤ h.val ∧ h.val < win0_6.index t (0 : Fin 3) * 1 + 1; omega
  | ⟨1, _⟩ => show win0_6.index t (1 : Fin 3) * 1 ≤ 0 ∧ 0 < win0_6.index t (1 : Fin 3) * 1 + 1; omega
  | ⟨2, _⟩ => show win0_6.index t (2 : Fin 3) * 1024 ≤ f.val ∧ f.val < win0_6.index t (2 : Fin 3) * 1024 + 1024; omega

/-! ### Window 7 -/

/-- The window's block index at position t is (t / 4, 0, 0). -/
theorem idx0_7 : ∀ t : Fin cfg0.N, win0_7.index t (0 : Fin 3) = t.val / 4 ∧ win0_7.index t (1 : Fin 3) = 0 ∧ win0_7.index t (2 : Fin 3) = 0 :=
  (by decide +kernel : ∀ t : Fin grid0.N, win0_7.index t (0 : Fin 3) = t.val / 4 ∧ win0_7.index t (1 : Fin 3) = 0 ∧ win0_7.index t (2 : Fin 3) = 0)

/-- The whole array as one function: entry (h, 0, f) is what position 4·h + 3 left at (0, 0, f). -/
def G0_7 (c : Dev nD) : S2x1x1024.Idx → Elt F .f32 := fun i =>
  ((outAt V c (4 * (i 0).val + 3) (pos_bound ⟨(i 0).val, lt3_0 i⟩)).2.2 : Vec F S1x1x1024 .f32)
    (ix3 (0 : Fin 1) (0 : Fin 1) (⟨(i 2).val, lt3_2 i⟩ : Fin 1024))

theorem G0_7_apply (c : Dev nD) (h : Fin 2) (f : Fin 1024) :
    G0_7 V c (ix3 h (0 : Fin 1) f)
      = ((outAt V c (4 * h.val + 3) (pos_bound h)).2.2 : Vec F S1x1x1024 .f32) (ix3 (0 : Fin 1) (0 : Fin 1) f) := rfl

/-- An element of position t's block sits in the array in row t / 4, in its own column. -/
theorem emb0_7 (t : Fin cfg0.N) (j : ((cfg0.win 7).xblock (cfg0.grid.coords t)).Idx)
    (hj0 : (j 0).val < 1) (hj1 : (j 1).val < 1) (hj2 : (j 2).val < 1024) :
    (((cfg0.win 7).blk t).view.emb j : S2x1x1024.Idx)
      = ix3 (⟨t.val / 4, half_bound t⟩ : Fin 2) (0 : Fin 1) (⟨(j 2).val, hj2⟩ : Fin 1024) := by
  obtain ⟨e0, e1, e2⟩ := idx0_7 t
  funext a
  apply Fin.ext
  match a with
  | ⟨0, _⟩ => show win0_7.index t (0 : Fin 3) * 1 + 1 * (j 0).val = t.val / 4; omega
  | ⟨1, _⟩ => show win0_7.index t (1 : Fin 3) * 1 + 1 * (j 1).val = 0; omega
  | ⟨2, _⟩ => show win0_7.index t (2 : Fin 3) * 1024 + 1 * (j 2).val = (j 2).val; omega

/-- What a position that writes back writes is its block of G. -/
theorem flushed0_7_eq (c : Dev nD) (t : Fin cfg0.N) (hf : (cfg0.win 7).flush t = true) :
    (dat0 V c).flushed 7 t = ((cfg0.win 7).blk t).view.read (Elt F) (G0_7 V c) := by
  have h3 : t.val % 4 = 3 := (flush0_7 t).mp hf
  funext j
  have hj0 : (j 0).val < 1 := (j 0).isLt
  have hj1 : (j 1).val < 1 := (j 1).isLt
  have hj2 : (j 2).val < 1024 := (j 2).isLt
  rw [View.read_apply]
  show ((dat0 V c).after 7 t : Vec F S1x1x1024 .f32) ((cfg0.win 7).xinj (cfg0.grid.coords t) j)
    = G0_7 V c (((cfg0.win 7).blk t).view.emb j)
  rw [after0_7, emb0_7 t j hj0 hj1 hj2]
  refine Eq.trans ?_ (G0_7_apply V c ⟨t.val / 4, half_bound t⟩ ⟨(j 2).val, hj2⟩).symm
  rw [outAt_congr V c (show t.val = 4 * (t.val / 4) + 3 by omega) t.isLt (pos_bound ⟨t.val / 4, half_bound t⟩)]
  refine congrArg _ ?_
  funext a
  apply Fin.ext
  match a with
  | ⟨0, _⟩ => show (j 0).val = 0; omega
  | ⟨1, _⟩ => show (j 1).val = 0; omega
  | ⟨2, _⟩ => rfl

/-- An index of the array is in position t's block iff each coordinate is in the block's range on its axis. -/
theorem mem_blk0_7 (t : Fin cfg0.N) (i : S2x1x1024.Idx) :
    i ∈ ((cfg0.win 7).blk t).view.set
      ↔ ∀ a : Fin 3, win0_7.index t a * S1x1x1024.size a ≤ (i a).val ∧ (i a).val < win0_7.index t a * S1x1x1024.size a + S1x1x1024.size a := by
  show i ∈ ((View.whole main_call0_v10_2).slice (win0_7.rect t)).set ↔ _
  rw [View.set_slice_whole, Rect.mem_set_unit]
  exact Iff.rfl

/-- THE RESULT ARRAY after the region: row h holds what position 4·h + 3 left. -/
theorem arr0_7 (c : Dev nD) (h : Fin 2) (f : Fin 1024) :
    (dat0 V c).arrAt 7 cfg0.N (ix3 h (0 : Fin 1) f)
      = ((outAt V c (4 * h.val + 3) (pos_bound h)).2.2 : Vec F S1x1x1024 .f32) (ix3 (0 : Fin 1) (0 : Fin 1) f) := by
  refine Eq.trans ?_ (G0_7_apply V c h f)
  obtain ⟨t, htv⟩ : ∃ t : Fin cfg0.N, t.val = 4 * h.val + 3 := ⟨⟨4 * h.val + 3, pos_bound h⟩, rfl⟩
  have hh := h.isLt
  have hf := f.isLt
  refine (dat0 V c).arrAt_apply_of_mem 7 (G0_7 V c) (fun t hf => flushed0_7_eq V c t hf) cfg0.N t _ t.isLt
    ((flush0_7 t).mpr (by omega)) ?_
  rw [mem_blk0_7]
  obtain ⟨e0, e1, e2⟩ := idx0_7 t
  intro a
  match a with
  | ⟨0, _⟩ => show win0_7.index t (0 : Fin 3) * 1 ≤ h.val ∧ h.val < win0_7.index t (0 : Fin 3) * 1 + 1; omega
  | ⟨1, _⟩ => show win0_7.index t (1 : Fin 3) * 1 ≤ 0 ∧ 0 < win0_7.index t (1 : Fin 3) * 1 + 1; omega
  | ⟨2, _⟩ => show win0_7.index t (2 : Fin 3) * 1024 ≤ f.val ∧ f.val < win0_7.index t (2 : Fin 3) * 1024 + 1024; omega

end Cert.KernelIdeal.ArrOut

end
-- ==== Proof.HostGlue.lean ====
/-
  The kernel program's host operations, read at an index over the extended reals.

  Around its two kernel regions the program runs three stretches of host operations, each a function of the arrays it
  finds. For ANY contents W of the arrays before a stretch:
  * stretch 0 prepares the first region's operands: the activations [1, 8192, 1024] with the leading unit axis dropped
    (entry (s, e) is entry (0, s, e)); each weight matrix transposed, then rounded to bf16, which is the identity on
    extended reals (entry (e, f) is entry (f, e)); each bias as one row (entry (0, f) is entry f);
  * stretch 1 merges what the first region left for the two halves of the rows. Each of three [2, 1, 1024] arrays
    holds, for half h and column f, the half's running maximum m_h, its sum l_h of e^(k − m_h) and its weighted sum
    a_h. With m = max m₀ m₁ and c_h = e^(m_h − m) the column's value is (a₀·c₀ + a₁·c₁) / (l₀·c₀ + l₁·c₁), which is
    `Cert.Aft.combine` of the two triples; the stretch then sums the 1024 columns from zero into a [1, 1] array;
  * stretch 2 puts the leading unit axis back on the second region's result (entry (0, s, f) is entry (s, f)).
  A sum over a rank-1 index set is re-indexed by its one coordinate (`sum_idx1`).
-/
import proofs.«181116_j87170656240173_2_alg».proof.Proof.Gen.KernelIdeal.Launch
import proofs.«181116_j87170656240173_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostGlue

open Cert.KernelIdeal Cert.KernelIdeal.Gen Idealize.ShloMosaic Idealize.ShloMosaic.ValueIdx Idealize.ShloMosaic.TcCoe

variable (W : Valuation τ sig (Elt Ideal))

/-! ## Stretch 0: the operands of the first region -/

/-- The activations with their leading unit axis dropped: entry (s, e) is the argument's entry (0, s, e). -/
theorem h0_q (s : Fin 8192) (e : Fin 1024) :
    (StableHlo.after (hostOps0 (F := Ideal)) W main_call0_v0 : S8192x1024.Idx → EReal) (ix2 s e)
      = (W main_arg0 : S1x8192x1024.Idx → EReal) (ix3 (0 : Fin 1) s e) := by
  have e0 : (StableHlo.after (hostOps0 (F := Ideal)) W main_call0_v0 : S8192x1024.Idx → EReal)
      = shapeCast S8192x1024 (W main_arg0 : S1x8192x1024.Idx → EReal) shapeCasts_S1x8192x1024_S8192x1024 := by
    after_results; rfl
  rw [e0]
  exact shapeCast_1ab_ab_apply _ _ s e

/-- A weight matrix transposed, then rounded to bf16 (the identity on extended reals): entry (e, f) is the
    argument's entry (f, e). -/
theorem h0_wq (e f : Fin 1024) :
    (StableHlo.after (hostOps0 (F := Ideal)) W main_call0_v2 : S1024x1024.Idx → EReal) (ix2 e f)
      = (W main_arg1 : S1024x1024.Idx → EReal) (ix2 f e) := by
  have e0 : (StableHlo.after (hostOps0 (F := Ideal)) W main_call0_v2 : S1024x1024.Idx → EReal)
      = truncf (F := Ideal) .bf16 (transpose S1024x1024 [1, 0] (W main_arg1 : S1024x1024.Idx → EReal) transposes_S1024x1024_S1024x1024_1_0) bitsLt_bf16_f32 := by
    after_results; rfl
  rw [e0, truncf_apply]
  exact transpose_ix2_apply _ _ e f

theorem h0_wk (e f : Fin 1024) :
    (StableHlo.after (hostOps0 (F := Ideal)) W main_call0_v4 : S1024x1024.Idx → EReal) (ix2 e f)
      = (W main_arg3 : S1024x1024.Idx → EReal) (ix2 f e) := by
  have e0 : (StableHlo.after (hostOps0 (F := Ideal)) W main_call0_v4 : S1024x1024.Idx → EReal)
      = truncf (F := Ideal) .bf16 (transpose S1024x1024 [1, 0] (W main_arg3 : S1024x1024.Idx → EReal) transposes_S1024x1024_S1024x1024_1_0) bitsLt_bf16_f32 := by
    after_results; rfl
  rw [e0, truncf_apply]
  exact transpose_ix2_apply _ _ e f

theorem h0_wv (e f : Fin 1024) :
    (StableHlo.after (hostOps0 (F := Ideal)) W main_call0_v6 : S1024x1024.Idx → EReal) (ix2 e f)
      = (W main_arg5 : S1024x1024.Idx → EReal) (ix2 f e) := by
  have e0 : (StableHlo.after (hostOps0 (F := Ideal)) W main_call0_v6 : S1024x1024.Idx → EReal)
      = truncf (F := Ideal) .bf16 (transpose S1024x1024 [1, 0] (W main_arg5 : S1024x1024.Idx → EReal) transposes_S1024x1024_S1024x1024_1_0) bitsLt_bf16_f32 := by
    after_results; rfl
  rw [e0, truncf_apply]
  exact transpose_ix2_apply _ _ e f

/-- A bias as one row: entry (0, f) is the argument's entry f. -/
theorem h0_bq (f : Fin 1024) :
    (StableHlo.after (hostOps0 (F := Ideal)) W main_call0_v7 : S1x1024.Idx → EReal) (ix2 (0 : Fin 1) f)
      = (W main_arg2 : S1024.Idx → EReal) (ix1 f) := by
  have e0 : (StableHlo.after (hostOps0 (F := Ideal)) W main_call0_v7 : S1x1024.Idx → EReal)
      = shapeCast S1x1024 (W main_arg2 : S1024.Idx → EReal) shapeCasts_S1024_S1x1024 := by
    after_results; rfl
  rw [e0]
  exact shapeCast_a_1a_apply _ _ 0 f

theorem h0_bk (f : Fin 1024) :
    (StableHlo.after (hostOps0 (F := Ideal)) W main_call0_v8 : S1x1024.Idx → EReal) (ix2 (0 : Fin 1) f)
      = (W main_arg4 : S1024.Idx → EReal) (ix1 f) := by
  have e0 : (StableHlo.after (hostOps0 (F := Ideal)) W main_call0_v8 : S1x1024.Idx → EReal)
      = shapeCast S1x1024 (W main_arg4 : S1024.Idx → EReal) shapeCasts_S1024_S1x1024 := by
    after_results; rfl
  rw [e0]
  exact shapeCast_a_1a_apply _ _ 0 f

theorem h0_bv (f : Fin 1024) :
    (StableHlo.after (hostOps0 (F := Ideal)) W main_call0_v9 : S1x1024.Idx → EReal) (ix2 (0 : Fin 1) f)
      = (W main_arg6 : S1024.Idx → EReal) (ix1 f) := by
  have e0 : (StableHlo.after (hostOps0 (F := Ideal)) W main_call0_v9 : S1x1024.Idx → EReal)
      = shapeCast S1x1024 (W main_arg6 : S1024.Idx → EReal) shapeCasts_S1024_S1x1024 := by
    after_results; rfl
  rw [e0]
  exact shapeCast_a_1a_apply _ _ 0 f

/-! ## Stretch 2: the result with its leading unit axis put back -/

theorem h2_out (s : Fin 8192) (f : Fin 1024) :
    (StableHlo.after (hostOps2 (F := Ideal)) W main_v0 : S1x8192x1024.Idx → EReal) (ix3 (0 : Fin 1) s f)
      = (W main_call0_v37 : S8192x1024.Idx → EReal) (ix2 s f) := by
  have e0 : (StableHlo.after (hostOps2 (F := Ideal)) W main_v0 : S1x8192x1024.Idx → EReal)
      = shapeCast S1x8192x1024 (W main_call0_v37 : S8192x1024.Idx → EReal) shapeCasts_S8192x1024_S1x8192x1024 := by
    after_results; rfl
  rw [e0]
  exact shapeCast_ab_1ab_apply _ _ 0 s f

/-! ## Stretch 1: the two halves' running triples merged, column by column, and the columns summed -/

/-- Half 0 of a [2, 1, 1024] array as a vector of 1024 entries. -/
abbrev lo (x : FVec Ideal S2x1x1024 .f32) : FVec Ideal S1024 .f32 :=
  shapeCast S1024 (extractStridedSlice S1x1x1024 ![0, 0, 0] x slices_S2x1x1024_S1x1x1024_0_0_0) shapeCasts_S1x1x1024_S1024

/-- Half 1 of a [2, 1, 1024] array as a vector of 1024 entries. -/
abbrev hi (x : FVec Ideal S2x1x1024 .f32) : FVec Ideal S1024 .f32 :=
  shapeCast S1024 (extractStridedSlice S1x1x1024 ![1, 0, 0] x slices_S2x1x1024_S1x1x1024_1_0_0) shapeCasts_S1x1x1024_S1024

theorem lo_apply (x : FVec Ideal S2x1x1024 .f32) (f : Fin 1024) : lo x (ix1 f) = x (ix3 (0 : Fin 2) (0 : Fin 1) f) := by
  show shapeCast S1024 _ shapeCasts_S1x1x1024_S1024 (ix1 f) = _
  rw [shapeCast_apply _ shapeCasts_S1x1x1024_S1024 (ix1 f) (ix3 (0 : Fin 1) (0 : Fin 1) f) (by
    rw [Shape.rowMajor_val_three, Shape.rowMajor_val_one]
    show (0 * 1 + 0) * 1024 + f.val = f.val
    omega)]
  exact extractStridedSlice_apply _ _ _ _ (ix3 (0 : Fin 2) (0 : Fin 1) f) (fun a => by
    match a with
    | ⟨0, _⟩ => rfl
    | ⟨1, _⟩ => rfl
    | ⟨2, _⟩ => exact (Nat.zero_add _).symm)

theorem hi_apply (x : FVec Ideal S2x1x1024 .f32) (f : Fin 1024) : hi x (ix1 f) = x (ix3 (1 : Fin 2) (0 : Fin 1) f) := by
  show shapeCast S1024 _ shapeCasts_S1x1x1024_S1024 (ix1 f) = _
  rw [shapeCast_apply _ shapeCasts_S1x1x1024_S1024 (ix1 f) (ix3 (0 : Fin 1) (0 : Fin 1) f) (by
    rw [Shape.rowMajor_val_three, Shape.rowMajor_val_one]
    show (0 * 1 + 0) * 1024 + f.val = f.val
    omega)]
  exact extractStridedSlice_apply _ _ _ _ (ix3 (1 : Fin 2) (0 : Fin 1) f) (fun a => by
    match a with
    | ⟨0, _⟩ => rfl
    | ⟨1, _⟩ => rfl
    | ⟨2, _⟩ => exact (Nat.zero_add _).symm)

/-- The merge of the two halves, column by column: with m the larger of the two maxima, each half's sums rescaled by
    e^(its maximum − m) and added, the weighted sum over the plain one. -/
abbrev perF (M L A : FVec Ideal S2x1x1024 .f32) : FVec Ideal S1024 .f32 :=
  Host.divf
    (addf (mulf (lo A) (Host.exp (subf (lo M) (maximumf (lo M) (hi M)))))
      (mulf (hi A) (Host.exp (subf (hi M) (maximumf (lo M) (hi M))))))
    (addf (mulf (lo L) (Host.exp (subf (lo M) (maximumf (lo M) (hi M)))))
      (mulf (hi L) (Host.exp (subf (hi M) (maximumf (lo M) (hi M))))))

theorem perF_apply (M L A : FVec Ideal S2x1x1024 .f32) (f : Fin 1024) :
    perF M L A (ix1 f)
      = Cert.Aft.combine ⟨M (ix3 (0 : Fin 2) (0 : Fin 1) f), L (ix3 (0 : Fin 2) (0 : Fin 1) f), A (ix3 (0 : Fin 2) (0 : Fin 1) f)⟩
          ⟨M (ix3 (1 : Fin 2) (0 : Fin 1) f), L (ix3 (1 : Fin 2) (0 : Fin 1) f), A (ix3 (1 : Fin 2) (0 : Fin 1) f)⟩ := by
  show Ideal.div
      (lo A (ix1 f) * Ideal.exp (lo M (ix1 f) - max (lo M (ix1 f)) (hi M (ix1 f)))
        + hi A (ix1 f) * Ideal.exp (hi M (ix1 f) - max (lo M (ix1 f)) (hi M (ix1 f))))
      (lo L (ix1 f) * Ideal.exp (lo M (ix1 f) - max (lo M (ix1 f)) (hi M (ix1 f)))
        + hi L (ix1 f) * Ideal.exp (hi M (ix1 f) - max (lo M (ix1 f)) (hi M (ix1 f)))) = _
  rw [lo_apply M, hi_apply M, lo_apply L, hi_apply L, lo_apply A, hi_apply A]
  rfl

/-- What stretch 1 leaves in its last result, as one term of the three arrays the first region wrote. -/
theorem h1_term :
    (StableHlo.after (hostOps1 (F := Ideal)) W main_call0_v36 : S1x1.Idx → EReal)
      = shapeCast S1x1 (Host.reduceAdd (F := Ideal)
          (perF (W main_call0_v10_0 : S2x1x1024.Idx → EReal) (W main_call0_v10_1 : S2x1x1024.Idx → EReal) (W main_call0_v10_2 : S2x1x1024.Idx → EReal))
          (constant (F := Ideal) S_ .f32 0x00000000#32) reducesTo_S1024_S_d0 h_S_) shapeCasts_S_S1x1 := by
  after_results_simp
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (g : (⟨1, ![n]⟩ : Shape).Idx → M) :
    ∑ i, g i = ∑ a : Fin n, g (ix1 a) := by
  rw [← Equiv.sum_comp (idxEquiv1 (n := n)).symm g]
  rfl

/-- The context scalar as stretch 1 computes it: the sum from zero, over the 1024 columns, of the two halves' triples merged. -/
theorem h1_c :
    (StableHlo.after (hostOps1 (F := Ideal)) W main_call0_v36 : S1x1.Idx → EReal) (ix2 (0 : Fin 1) (0 : Fin 1))
      = 0 + ∑ f : Fin 1024, Cert.Aft.combine
          ⟨(W main_call0_v10_0 : S2x1x1024.Idx → EReal) (ix3 (0 : Fin 2) (0 : Fin 1) f),
           (W main_call0_v10_1 : S2x1x1024.Idx → EReal) (ix3 (0 : Fin 2) (0 : Fin 1) f),
           (W main_call0_v10_2 : S2x1x1024.Idx → EReal) (ix3 (0 : Fin 2) (0 : Fin 1) f)⟩
          ⟨(W main_call0_v10_0 : S2x1x1024.Idx → EReal) (ix3 (1 : Fin 2) (0 : Fin 1) f),
           (W main_call0_v10_1 : S2x1x1024.Idx → EReal) (ix3 (1 : Fin 2) (0 : Fin 1) f),
           (W main_call0_v10_2 : S2x1x1024.Idx → EReal) (ix3 (1 : Fin 2) (0 : Fin 1) f)⟩ := by
  rw [h1_term]
  rw [shapeCast_apply _ shapeCasts_S_S1x1 (ix2 (0 : Fin 1) (0 : Fin 1)) ix0 (by
    rw [Shape.rowMajor_val_two]
    exact Shape.rowMajorPi_zero _ _)]
  simp only [Host.reduceAdd, Ideal.hostReduceAdd_def]
  rw [Ideal.hostReduceAdd_total reducesTo_S1024_S_d0 (fun b => b.elim0)]
  refine congrArg₂ (· + ·) Ideal.ofBits_zero_f32 ?_
  rw [sum_idx1]
  exact Finset.sum_congr rfl fun f _ => perF_apply _ _ _ f

end Cert.KernelIdeal.HostGlue

end
-- ==== Proof.ValChain.lean ====
/-
  What the buffers hold at the boundaries between the program's five segments, read at an index.

  The program is host operations, a kernel region, host operations, a second kernel region, a final reshape. A stretch
  of host operations changes only the arrays it writes; a region changes only its output windows' arrays (an input
  window's array is never written back) and leaves every array that is no window of it alone. So:
  * the first region reads the launch memory after stretch 0: the activations with the leading unit axis dropped, the key
    and value weights transposed, the key and value biases as rows;
  * the second region reads the activations, the transposed query weights and the query bias exactly as stretch 0 left
    them (the first region only reads the activations; the other two are no window of it; stretch 1 writes none of the
    three), and the scalar stretch 1 computes from the three result arrays the first region's write-backs left: the sum
    from zero, over the 1024 columns, of the two halves' triples merged;
  * the program's result is the second region's result array with the leading unit axis put back.
-/
import proofs.«181116_j87170656240173_2_alg».proof.Proof.FrKernelIdeal.Run
import proofs.«181116_j87170656240173_2_alg».proof.Proof.HostGlue

noncomputable section

namespace Cert.KernelIdeal.ValChain

open Cert.KernelIdeal Cert.KernelIdeal.Gen Cert.KernelIdeal.Fr Cert.KernelIdeal.HostGlue Idealize.ShloMosaic
  Idealize.ShloMosaic.ValueIdx Idealize.ShloMosaic.TcCoe Idealize.SL.Sem

variable (m : (ℓ : Loc nD τ sig) → Buf (Elt Ideal) ℓ) (c : Dev nD)

/-! ## What the first region reads: the launch memory after stretch 0 -/

/-- The activations as the first region sees them: entry (s, e) is the argument's entry (0, s, e). -/
theorem in0_q (s : Fin 8192) (e : Fin 1024) :
    (Fr.V1 m c main_call0_v0 : S8192x1024.Idx → EReal) (ix2 s e) = (m ((c : Thread nD τ).loc main_arg0) : S1x8192x1024.Idx → EReal) (ix3 (0 : Fin 1) s e) :=
  h0_q (W0 m c) s e

/-- The key weights, transposed: entry (e, f) is the argument's entry (f, e). -/
theorem in0_wk (e f : Fin 1024) :
    (Fr.V1 m c main_call0_v4 : S1024x1024.Idx → EReal) (ix2 e f) = (m ((c : Thread nD τ).loc main_arg3) : S1024x1024.Idx → EReal) (ix2 f e) :=
  h0_wk (W0 m c) e f

/-- The key bias as one row. -/
theorem in0_bk (f : Fin 1024) :
    (Fr.V1 m c main_call0_v8 : S1x1024.Idx → EReal) (ix2 (0 : Fin 1) f) = (m ((c : Thread nD τ).loc main_arg4) : S1024.Idx → EReal) (ix1 f) :=
  h0_bk (W0 m c) f

/-- The value weights, transposed. -/
theorem in0_wv (e f : Fin 1024) :
    (Fr.V1 m c main_call0_v6 : S1024x1024.Idx → EReal) (ix2 e f) = (m ((c : Thread nD τ).loc main_arg5) : S1024x1024.Idx → EReal) (ix2 f e) :=
  h0_wv (W0 m c) e f

/-- The value bias as one row. -/
theorem in0_bv (f : Fin 1024) :
    (Fr.V1 m c main_call0_v9 : S1x1024.Idx → EReal) (ix2 (0 : Fin 1) f) = (m ((c : Thread nD τ).loc main_arg6) : S1024.Idx → EReal) (ix1 f) :=
  h0_bv (W0 m c) f

/-! ## What the second region reads: three arrays neither the first region nor stretch 1 changes, and the scalar -/

/-- The activations reach the second region as stretch 0 left them: the first region only reads them, stretch 1 does
    not write them. -/
theorem V3_v0 : Fr.V3 m c main_call0_v0 = Fr.V1 m c main_call0_v0 :=
  calc W3 m c (Proc.devRef .tc main_call0_v0)
    _ = W2 m c (Proc.devRef .tc main_call0_v0) :=
        StableHlo.after_of_writes_sub hostOps1 _ hostOps1_writes (r := main_call0_v0) (by decide)
    _ = W1 m c (Proc.devRef .tc main_call0_v0) :=
        (W2_arr m c 0).trans (((dat0 (Fr.V1 m) c).arrAt_in 0 rfl _).trans (A_eq0 (Fr.V1 m) c 0))

/-- The query weights are no window of the first region and no result of stretch 1. -/
theorem V3_v2 : Fr.V3 m c main_call0_v2 = Fr.V1 m c main_call0_v2 :=
  calc W3 m c (Proc.devRef .tc main_call0_v2)
    _ = W2 m c (Proc.devRef .tc main_call0_v2) :=
        StableHlo.after_of_writes_sub hostOps1 _ hostOps1_writes (r := main_call0_v2) (by decide)
    _ = W1 m c (Proc.devRef .tc main_call0_v2) := W2_of_ne m c main_call0_v2 (by decide)

/-- Nor is the query bias. -/
theorem V3_v7 : Fr.V3 m c main_call0_v7 = Fr.V1 m c main_call0_v7 :=
  calc W3 m c (Proc.devRef .tc main_call0_v7)
    _ = W2 m c (Proc.devRef .tc main_call0_v7) :=
        StableHlo.after_of_writes_sub hostOps1 _ hostOps1_writes (r := main_call0_v7) (by decide)
    _ = W1 m c (Proc.devRef .tc main_call0_v7) := W2_of_ne m c main_call0_v7 (by decide)

theorem in1_q (s : Fin 8192) (e : Fin 1024) :
    (Fr.V3 m c main_call0_v0 : S8192x1024.Idx → EReal) (ix2 s e) = (m ((c : Thread nD τ).loc main_arg0) : S1x8192x1024.Idx → EReal) (ix3 (0 : Fin 1) s e) := by
  rw [V3_v0]; exact h0_q (W0 m c) s e

theorem in1_wq (e f : Fin 1024) :
    (Fr.V3 m c main_call0_v2 : S1024x1024.Idx → EReal) (ix2 e f) = (m ((c : Thread nD τ).loc main_arg1) : S1024x1024.Idx → EReal) (ix2 f e) := by
  rw [V3_v2]; exact h0_wq (W0 m c) e f

theorem in1_bq (f : Fin 1024) :
    (Fr.V3 m c main_call0_v7 : S1x1024.Idx → EReal) (ix2 (0 : Fin 1) f) = (m ((c : Thread nD τ).loc main_arg2) : S1024.Idx → EReal) (ix1 f) := by
  rw [V3_v7]; exact h0_bq (W0 m c) f

/-- The context scalar the second region reads: the sum from zero, over the columns, of the two halves' triples merged,
    the triples being what the first region's write-backs left in its three result arrays. -/
theorem in1_c :
    (Fr.V3 m c main_call0_v36 : S1x1.Idx → EReal) (ix2 (0 : Fin 1) (0 : Fin 1))
      = 0 + ∑ f : Fin 1024, Cert.Aft.combine
          ⟨((dat0 (Fr.V1 m) c).arrAt 5 cfg0.N : S2x1x1024.Idx → EReal) (ix3 (0 : Fin 2) (0 : Fin 1) f),
           ((dat0 (Fr.V1 m) c).arrAt 6 cfg0.N : S2x1x1024.Idx → EReal) (ix3 (0 : Fin 2) (0 : Fin 1) f),
           ((dat0 (Fr.V1 m) c).arrAt 7 cfg0.N : S2x1x1024.Idx → EReal) (ix3 (0 : Fin 2) (0 : Fin 1) f)⟩
          ⟨((dat0 (Fr.V1 m) c).arrAt 5 cfg0.N : S2x1x1024.Idx → EReal) (ix3 (1 : Fin 2) (0 : Fin 1) f),
           ((dat0 (Fr.V1 m) c).arrAt 6 cfg0.N : S2x1x1024.Idx → EReal) (ix3 (1 : Fin 2) (0 : Fin 1) f),
           ((dat0 (Fr.V1 m) c).arrAt 7 cfg0.N : S2x1x1024.Idx → EReal) (ix3 (1 : Fin 2) (0 : Fin 1) f)⟩ := by
  have e5 : W2 m c (Proc.devRef .tc main_call0_v10_0) = (dat0 (Fr.V1 m) c).arrAt 5 cfg0.N := W2_arr m c 5
  have e6 : W2 m c (Proc.devRef .tc main_call0_v10_1) = (dat0 (Fr.V1 m) c).arrAt 6 cfg0.N := W2_arr m c 6
  have e7 : W2 m c (Proc.devRef .tc main_call0_v10_2) = (dat0 (Fr.V1 m) c).arrAt 7 cfg0.N := W2_arr m c 7
  have h := h1_c (W2 m c)
  rw [e5, e6, e7] at h
  exact h

/-! ## The result -/

/-- The program's result is the second region's result array with the leading unit axis put back. -/
theorem out_eq (s : Fin 8192) (f : Fin 1024) :
    (W5 m c main_v0 : S1x8192x1024.Idx → EReal) (ix3 (0 : Fin 1) s f)
      = ((dat1 (Fr.V3 m) c).arrAt 4 cfg1.N : S8192x1024.Idx → EReal) (ix2 s f) := by
  have e4 : W4 m c (Proc.devRef .tc main_call0_v37) = (dat1 (Fr.V3 m) c).arrAt 4 cfg1.N := W4_arr m c 4
  have h := h2_out (W4 m c) s f
  rw [e4] at h
  exact h

end Cert.KernelIdeal.ValChain

end
-- ==== Proof.Streamed.lean ====
/-
  The streamed softmax-weighted column sum agrees with the direct one on real-valued columns.

  Direct: M = max_s k s, L = Σ_s e^(k s - M), result Σ_s (e^(k s - M) / L) · v s.
  Streamed: a running triple (m, l, a) absorbs the rows a tile at a time, rescaling what it holds by
  e^(old max - new max); two halves are streamed separately and merged by the same rescaling, the quotient
  taken once at the end.

  The invariant: after absorbing exactly the rows of a nonempty set R the triple is
  (max_R k, Σ_R e^(k - max_R k), Σ_R e^(k - max_R k) · v), all three real numbers. It is kept by a step because
  e^(a - b) · e^(b - c) = e^(a - c) and a real factor distributes over a finite sum of reals. At the end
  L ≥ e^0 > 0, so the quotient is a real quotient and (Σ e · v) / L = Σ (e / L) · v.
-/
import proofs.«181116_j87170656240173_2_alg».proof.Proof.Spec

noncomputable section

namespace Cert.Aft

open Idealize.ShloMosaic Finset

namespace Streamed

/-! ## 0. Real numbers among the extended reals -/

/-- The embedding of the reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [sum_insert ha, sum_insert ha, EReal.coe_add, ih]

/-- The embedding of the reals commutes with the maximum of two. -/
theorem coe_max (a b : ℝ) : max (a : EReal) (b : EReal) = ((max a b : ℝ) : EReal) :=
  (EReal.coe_strictMono.monotone.map_max).symm

/-- e^(x - y) for real x, y, read in the extended reals. -/
theorem exp_coe_sub (x y : ℝ) : Ideal.exp ((x : EReal) - (y : EReal)) = ((Real.exp (x - y) : ℝ) : EReal) := by
  rw [← EReal.coe_sub, Ideal.exp_coe]

/-! ## 1. The maximum and the two sums over a set of rows -/

section Sums
variable {ι : Type*} (k v : ι → ℝ)

/-- M is the maximum of k over the rows R: an upper bound that is attained. -/
def IsMaxOn (R : Finset ι) (M : ℝ) : Prop := (∀ i ∈ R, k i ≤ M) ∧ ∃ i ∈ R, k i = M

/-- Σ_{i ∈ R} e^(k i - M). -/
def lsum (R : Finset ι) (M : ℝ) : ℝ := ∑ i ∈ R, Real.exp (k i - M)

/-- Σ_{i ∈ R} e^(k i - M) · v i. -/
def asum (R : Finset ι) (M : ℝ) : ℝ := ∑ i ∈ R, Real.exp (k i - M) * v i

/-- A nonempty finite set of rows has a maximum. -/
theorem exists_isMaxOn {R : Finset ι} (hR : R.Nonempty) : ∃ M, IsMaxOn k R M := by
  obtain ⟨i, hi, hmax⟩ := Finset.exists_max_image R k hR
  exact ⟨k i, hmax, i, hi, rfl⟩

/-- The maximum over a union is the larger of the two maxima. -/
theorem IsMaxOn.union [DecidableEq ι] {R T : Finset ι} {M N : ℝ} (hR : IsMaxOn k R M) (hT : IsMaxOn k T N) :
    IsMaxOn k (R ∪ T) (max M N) := by
  refine ⟨fun i hi => ?_, ?_⟩
  · rcases mem_union.1 hi with h | h
    · exact (hR.1 i h).trans (le_max_left _ _)
    · exact (hT.1 i h).trans (le_max_right _ _)
  · rcases le_total M N with h | h
    · obtain ⟨i, hi, e⟩ := hT.2
      exact ⟨i, mem_union_right _ hi, by rw [e, max_eq_right h]⟩
    · obtain ⟨i, hi, e⟩ := hR.2
      exact ⟨i, mem_union_left _ hi, by rw [e, max_eq_left h]⟩

/-- The supremum in the extended reals of a real family with a maximum is that maximum. -/
theorem sup_coe_eq {R : Finset ι} {M : ℝ} (h : IsMaxOn k R M) : R.sup (fun i => (k i : EReal)) = (M : EReal) := by
  refine le_antisymm (Finset.sup_le fun i hi => EReal.coe_le_coe_iff.2 (h.1 i hi)) ?_
  obtain ⟨i, hi, e⟩ := h.2
  rw [← e]
  exact Finset.le_sup (f := fun i => (k i : EReal)) hi

/-- Moving the reference point: Σ e^(k - M) · e^(M - M') = Σ e^(k - M'). -/
theorem lsum_rescale (R : Finset ι) (M M' : ℝ) : lsum k R M * Real.exp (M - M') = lsum k R M' := by
  unfold lsum
  rw [Finset.sum_mul]
  refine sum_congr rfl fun i _ => ?_
  rw [← Real.exp_add]
  exact congrArg Real.exp (by ring)

/-- The same for the weighted sum. -/
theorem asum_rescale (R : Finset ι) (M M' : ℝ) : asum k v R M * Real.exp (M - M') = asum k v R M' := by
  unfold asum
  rw [Finset.sum_mul]
  refine sum_congr rfl fun i _ => ?_
  rw [mul_right_comm, ← Real.exp_add]
  exact congrArg (fun x => Real.exp x * v i) (by ring)

theorem lsum_union [DecidableEq ι] {R T : Finset ι} (hd : Disjoint R T) (M : ℝ) :
    lsum k (R ∪ T) M = lsum k R M + lsum k T M := sum_union hd

theorem asum_union [DecidableEq ι] {R T : Finset ι} (hd : Disjoint R T) (M : ℝ) :
    asum k v (R ∪ T) M = asum k v R M + asum k v T M := sum_union hd

/-- The state after absorbing exactly the rows R, whose maximum is M. -/
def stateOf (R : Finset ι) (M : ℝ) : Acc := ⟨(M : EReal), (lsum k R M : EReal), (asum k v R M : EReal)⟩

/-- The state s is the one reached after absorbing exactly the (nonempty) set of rows R. -/
def Good (R : Finset ι) (s : Acc) : Prop := ∃ M, IsMaxOn k R M ∧ s = stateOf k v R M

end Sums

/-! ## 2. Absorbing a tile -/

section Step
variable {ι : Type*} [DecidableEq ι] (k v : ι → ℝ) (t : Fin 1024 → ι) (ht : Function.Injective t)

include ht in
/-- A tile's sum of exponentials, the tile being the rows t 0, …, t 1023. -/
theorem tile_lsum (M : ℝ) :
    ∑ r, Ideal.exp ((k (t r) : EReal) - (M : EReal)) = ((lsum k (univ.image t) M : ℝ) : EReal) := by
  unfold lsum
  rw [sum_image (fun a _ b _ h => ht h), coe_sum]
  exact sum_congr rfl fun r _ => exp_coe_sub _ _

include ht in
/-- A tile's weighted sum. -/
theorem tile_asum (M : ℝ) :
    ∑ r, Ideal.exp ((k (t r) : EReal) - (M : EReal)) * (v (t r) : EReal)
      = ((asum k v (univ.image t) M : ℝ) : EReal) := by
  unfold asum
  rw [sum_image (fun a _ b _ h => ht h), coe_sum]
  refine sum_congr rfl fun r _ => ?_
  rw [exp_coe_sub, EReal.coe_mul]

theorem tile_nonempty : (univ.image t).Nonempty := ⟨t 0, mem_image_of_mem t (mem_univ _)⟩

/-- The tile's supremum is its maximum. -/
theorem tile_sup {N : ℝ} (hN : IsMaxOn k (univ.image t) N) :
    Finset.univ.sup (fun r => (k (t r) : EReal)) = (N : EReal) := by
  have h := sup_coe_eq k hN
  rwa [Finset.sup_image] at h

include ht in
/-- The first tile: from nothing the state is the tile's own maximum and sums (0 · x = 0 for every extended real x). -/
theorem step_init :
    Good k v (univ.image t) (Acc.step (fun r => (k (t r) : EReal)) (fun r => (v (t r) : EReal)) Acc.init) := by
  obtain ⟨N, hN⟩ := exists_isMaxOn k (tile_nonempty t)
  refine ⟨N, hN, ?_⟩
  have hm : max (⊥ : EReal) (N : EReal) = (N : EReal) := max_eq_right bot_le
  unfold Acc.step Acc.init stateOf
  simp only []
  rw [tile_sup k t hN, hm, zero_mul, zero_add, zero_add, tile_lsum k t ht, tile_asum k v t ht]

include ht in
/-- A later tile: the state of R becomes the state of R ∪ tile. -/
theorem step_good {R : Finset ι} {s : Acc} (hs : Good k v R s) (hd : Disjoint R (univ.image t)) :
    Good k v (R ∪ univ.image t) (Acc.step (fun r => (k (t r) : EReal)) (fun r => (v (t r) : EReal)) s) := by
  obtain ⟨M, hM, rfl⟩ := hs
  obtain ⟨N, hN⟩ := exists_isMaxOn k (tile_nonempty t)
  refine ⟨max M N, hM.union k hN, ?_⟩
  unfold Acc.step stateOf
  simp only []
  rw [tile_sup k t hN, coe_max, tile_lsum k t ht, tile_asum k v t ht, exp_coe_sub, ← EReal.coe_mul, ← EReal.coe_mul,
    ← EReal.coe_add, ← EReal.coe_add, lsum_rescale, asum_rescale, lsum_union k hd, asum_union k v hd]

end Step

/-! ## 3. The eight tiles of the 8192 rows -/

section Tiles

/-- Within a tile distinct positions are distinct rows. -/
theorem trow_injective (n : Fin 8) : Function.Injective (trow n) := by
  intro r r' h
  have h' := congrArg Fin.val h
  simp only [trow] at h'
  exact Fin.ext (by omega)

/-- The rows a·1024, …, b·1024 - 1. -/
def rows (a b : ℕ) : Finset (Fin 8192) := univ.filter fun s => a * 1024 ≤ s.val ∧ s.val < b * 1024

theorem mem_rows {a b : ℕ} {s : Fin 8192} : s ∈ rows a b ↔ a * 1024 ≤ s.val ∧ s.val < b * 1024 := by
  simp [rows]

/-- Tile n is the rows n·1024, …, n·1024 + 1023. -/
theorem image_trow (n : Fin 8) : univ.image (trow n) = rows n.val (n.val + 1) := by
  ext s
  rw [mem_rows, mem_image]
  constructor
  · rintro ⟨r, _, rfl⟩
    have hr := r.isLt
    simp only [trow]
    omega
  · rintro ⟨h1, h2⟩
    refine ⟨⟨s.val - n.val * 1024, by omega⟩, mem_univ _, Fin.ext ?_⟩
    simp only [trow]
    omega

/-- One more tile: the rows up to tile b are the rows before it together with tile b. -/
theorem rows_succ {a b : ℕ} (hab : a ≤ b) : rows a (b + 1) = rows a b ∪ rows b (b + 1) := by
  ext s
  simp only [mem_union, mem_rows]
  omega

theorem rows_disjoint (a b c : ℕ) : Disjoint (rows a b) (rows b c) := by
  rw [Finset.disjoint_left]
  intro s h1 h2
  rw [mem_rows] at h1 h2
  omega

variable (k v : Fin 8192 → ℝ)

/-- The first tile absorbed from nothing. -/
theorem tileAcc_init (n : Fin 8) {a a' : ℕ} (hn : n.val = a) (ha' : a' = a + 1) :
    Good k v (rows a a') (tileAcc (fun s => (k s : EReal)) (fun s => (v s : EReal)) n Acc.init) := by
  subst hn ha'
  rw [← image_trow]
  exact step_init k v (trow n) (trow_injective n)

/-- A later tile absorbed by the state of the rows before it. -/
theorem tileAcc_good (n : Fin 8) {a b b' : ℕ} (hn : n.val = b) (hb' : b' = b + 1) (hab : a ≤ b) {s : Acc}
    (hs : Good k v (rows a b) s) :
    Good k v (rows a b') (tileAcc (fun s => (k s : EReal)) (fun s => (v s : EReal)) n s) := by
  subst hn hb'
  rw [rows_succ hab, ← image_trow]
  exact step_good k v (trow n) (trow_injective n) hs (by rw [image_trow]; exact rows_disjoint _ _ _)

/-- Half c streamed through its four tiles holds the state of the rows 4096·c, …, 4096·c + 4095. -/
theorem coreAcc_good (c : Fin 2) :
    Good k v (rows (4 * c.val) (4 * c.val + 4))
      (coreAcc (fun s => (k s : EReal)) (fun s => (v s : EReal)) c) := by
  have hc := c.isLt
  have h0 := tileAcc_init k v (⟨4 * c.val, by omega⟩ : Fin 8) (a := 4 * c.val) (a' := 4 * c.val + 1) rfl rfl
  have h1 := tileAcc_good k v (⟨4 * c.val + 1, by omega⟩ : Fin 8) (b := 4 * c.val + 1) (b' := 4 * c.val + 2)
    rfl rfl (by omega) h0
  have h2 := tileAcc_good k v (⟨4 * c.val + 2, by omega⟩ : Fin 8) (b := 4 * c.val + 2) (b' := 4 * c.val + 3)
    rfl rfl (by omega) h1
  have h3 := tileAcc_good k v (⟨4 * c.val + 3, by omega⟩ : Fin 8) (b := 4 * c.val + 3) (b' := 4 * c.val + 4)
    rfl rfl (by omega) h2
  exact h3

end Tiles

/-! ## 4. Merging two halves and taking the quotient -/

section Combine
variable (k v : Fin 8192 → ℝ)

/-- Σ_s e^(k s - M) over all rows is positive. -/
theorem lsum_univ_ne_zero (M : ℝ) : lsum k (univ : Finset (Fin 8192)) M ≠ 0 :=
  (Finset.sum_pos (fun i _ => Real.exp_pos _) ⟨(0 : Fin 8192), mem_univ _⟩).ne'

/-- Two states that between them have absorbed every row exactly once merge to the direct result. -/
theorem combine_good {R0 R1 : Finset (Fin 8192)} {s0 s1 : Acc} (h0 : Good k v R0 s0) (h1 : Good k v R1 s1)
    (hd : Disjoint R0 R1) (hu : R0 ∪ R1 = univ) :
    combine s0 s1 = colCtx (fun s => (k s : EReal)) (fun s => (v s : EReal)) := by
  obtain ⟨M0, hM0, rfl⟩ := h0
  obtain ⟨M1, hM1, rfl⟩ := h1
  have hM : IsMaxOn k univ (max M0 M1) := hu ▸ hM0.union k hM1
  have hL := lsum_univ_ne_zero k (max M0 M1)
  have hnum : asum k v R0 M0 * Real.exp (M0 - max M0 M1) + asum k v R1 M1 * Real.exp (M1 - max M0 M1)
      = asum k v univ (max M0 M1) := by
    rw [asum_rescale, asum_rescale, ← asum_union k v hd, hu]
  have hden : lsum k R0 M0 * Real.exp (M0 - max M0 M1) + lsum k R1 M1 * Real.exp (M1 - max M0 M1)
      = lsum k univ (max M0 M1) := by
    rw [lsum_rescale, lsum_rescale, ← lsum_union k hd, hu]
  have hl : combine (stateOf k v R0 M0) (stateOf k v R1 M1)
      = ((asum k v univ (max M0 M1) * (1 / lsum k univ (max M0 M1)) : ℝ) : EReal) := by
    unfold combine stateOf
    simp only []
    rw [coe_max, exp_coe_sub, exp_coe_sub, ← EReal.coe_mul, ← EReal.coe_mul, ← EReal.coe_mul, ← EReal.coe_mul,
      ← EReal.coe_add, ← EReal.coe_add, hnum, hden, Ideal.div_coe hL, ← EReal.coe_mul]
  have hcm : colMax (fun s => (k s : EReal)) = ((max M0 M1 : ℝ) : EReal) := sup_coe_eq k hM
  have hcd : colDen (fun s => (k s : EReal)) = ((lsum k univ (max M0 M1) : ℝ) : EReal) := by
    unfold colDen lsum
    rw [hcm, coe_sum]
    exact sum_congr rfl fun s _ => exp_coe_sub _ _
  have hterm : ∀ s, Ideal.div (Ideal.exp ((k s : EReal) - ((max M0 M1 : ℝ) : EReal)))
        ((lsum k univ (max M0 M1) : ℝ) : EReal) * (v s : EReal)
      = ((Real.exp (k s - max M0 M1) * (1 / lsum k univ (max M0 M1)) * v s : ℝ) : EReal) := fun s => by
    rw [Ideal.div_coe hL, exp_coe_sub, ← EReal.coe_mul, ← EReal.coe_mul]
  rw [hl]
  unfold colCtx
  rw [hcd, hcm, sum_congr rfl fun s _ => hterm s, ← coe_sum]
  refine congrArg _ ?_
  unfold asum
  rw [Finset.sum_mul]
  exact sum_congr rfl fun s _ => by ring

end Combine

end Streamed

/-! ## 5. The statements -/

/-- A projection of real data is real: (q·Wᵀ + b) at (s, f) is the real number Σ_e q s e · W f e + b f. -/
theorem proj_coe (q : Fin 8192 → Fin 1024 → ℝ) (W : Fin 1024 → Fin 1024 → ℝ) (b : Fin 1024 → ℝ) (s : Fin 8192)
    (f : Fin 1024) :
    proj (fun s e => ((q s e : ℝ) : EReal)) (fun f e => ((W f e : ℝ) : EReal)) (fun f => ((b f : ℝ) : EReal)) s f
      = (((∑ e, q s e * W f e) + b f : ℝ) : EReal) := by
  unfold proj
  rw [EReal.coe_add, Streamed.coe_sum]
  exact congrArg (· + (b f : EReal)) (sum_congr rfl fun e _ => (EReal.coe_mul _ _).symm)

/-- On a real column the two streamed halves merge to the direct softmax-weighted sum. -/
theorem combine_coreAcc (k v : Fin 8192 → ℝ) :
    combine (coreAcc (fun s => ((k s : ℝ) : EReal)) (fun s => ((v s : ℝ) : EReal)) 0)
        (coreAcc (fun s => ((k s : ℝ) : EReal)) (fun s => ((v s : ℝ) : EReal)) 1)
      = colCtx (fun s => ((k s : ℝ) : EReal)) (fun s => ((v s : ℝ) : EReal)) := by
  have g0 : Streamed.Good k v (Streamed.rows 0 4) (coreAcc (fun s => (k s : EReal)) (fun s => (v s : EReal)) 0) :=
    Streamed.coreAcc_good k v 0
  have g1 : Streamed.Good k v (Streamed.rows 4 8) (coreAcc (fun s => (k s : EReal)) (fun s => (v s : EReal)) 1) :=
    Streamed.coreAcc_good k v 1
  refine Streamed.combine_good k v g0 g1 (Streamed.rows_disjoint 0 4 8) ?_
  ext s
  have hs := s.isLt
  simp only [mem_union, Streamed.mem_rows, mem_univ, iff_true]
  omega

/-- With real activations, weights and biases the streamed context scalar is the direct one. -/
theorem ctxStreamed_proj_eq (q : Fin 8192 → Fin 1024 → EReal) (Wk Wv : Fin 1024 → Fin 1024 → EReal)
    (bk bv : Fin 1024 → EReal)
    (hq : ∀ s e, ∃ r : ℝ, q s e = (r : EReal)) (hWk : ∀ f e, ∃ r : ℝ, Wk f e = (r : EReal))
    (hbk : ∀ f, ∃ r : ℝ, bk f = (r : EReal))
    (hWv : ∀ f e, ∃ r : ℝ, Wv f e = (r : EReal)) (hbv : ∀ f, ∃ r : ℝ, bv f = (r : EReal)) :
    ctxStreamed (proj q Wk bk) (proj q Wv bv) = ctx (proj q Wk bk) (proj q Wv bv) := by
  choose q' hq' using hq
  choose Wk' hWk' using hWk
  choose bk' hbk' using hbk
  choose Wv' hWv' using hWv
  choose bv' hbv' using hbv
  obtain rfl : q = fun s e => (q' s e : EReal) := funext fun s => funext fun e => hq' s e
  obtain rfl : Wk = fun f e => (Wk' f e : EReal) := funext fun f => funext fun e => hWk' f e
  obtain rfl : bk = fun f => (bk' f : EReal) := funext fun f => hbk' f
  obtain rfl : Wv = fun f e => (Wv' f e : EReal) := funext fun f => funext fun e => hWv' f e
  obtain rfl : bv = fun f => (bv' f : EReal) := funext fun f => hbv' f
  unfold ctxStreamed ctx
  refine sum_congr rfl fun f _ => ?_
  have hK : (fun s => proj (fun s e => (q' s e : EReal)) (fun f e => (Wk' f e : EReal)) (fun f => (bk' f : EReal)) s f)
      = fun s => (((∑ e, q' s e * Wk' f e) + bk' f : ℝ) : EReal) := funext fun s => proj_coe _ _ _ s f
  have hV : (fun s => proj (fun s e => (q' s e : EReal)) (fun f e => (Wv' f e : EReal)) (fun f => (bv' f : EReal)) s f)
      = fun s => (((∑ e, q' s e * Wv' f e) + bv' f : ℝ) : EReal) := funext fun s => proj_coe _ _ _ s f
  rw [hK, hV]
  exact combine_coreAcc _ _

end Cert.Aft

end
-- ==== Proof.Finite.lean ====
/-
  From the certificate's precondition to: every entry of every argument array is a real number.

  The precondition says, of each of the seven argument arrays x, that all(|x| < +∞) holds, the seven conjoined.
  Over the extended reals |x| = max x (-x), and max x (-x) < ⊤ excludes x = ⊤ (then max = ⊤) and x = ⊥ (then -x = ⊤):
  what is left is a real number.
-/
import proofs.«181116_j87170656240173_2_alg».proof.Defs
import proofs.«181116_j87170656240173_2_alg».proof.Proof.Gen.Pre_finite_inputs
import Idealize.ShloMosaic.Lib.ReduceAll
import Idealize.ShloMosaic.Lib.ValueIdx

noncomputable section

namespace Cert.KernelIdeal.Finite

open Idealize.ShloMosaic Idealize.SL.Sem
open Cert.Pre_finite_inputs (S_ S1x8192x1024 S1024x1024 S1024)

/-! ## One value -/

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a truth value is 1 exactly when the value is true. -/
theorem ofBool_eq_one (b : Bool) : BitVec.ofBool b = 1#1 ↔ b = true := by cases b <;> decide

/-- The pattern 0x7F800000 denotes +∞. -/
theorem inf_eq_top : Ideal.ofBits .f32 0x7F800000#32 = ⊤ := by simp [Ideal.ofBits, Ideal.ieee]

/-- The comparison |x| < +∞ giving 1 says x is a real number. -/
theorem real_of_cmp (x : EReal) (h : Ideal.cmp .olt (max x (-x)) (Ideal.ofBits .f32 0x7F800000#32) = 1#1) :
    ∃ r : ℝ, x = (r : EReal) := by
  rw [inf_eq_top] at h
  unfold Ideal.cmp at h
  rw [ofBool_eq_one] at h
  exact real_of_abs_lt_top x (of_decide_eq_true h)

/-! ## One array -/

/-- The scalar shape has one index. -/
instance : Subsingleton S_.Idx := ⟨fun a b => funext fun d => d.elim0⟩

/-- all(|x| < +∞) giving 1 says every entry of x is a real number. -/
theorem all_real {s : Shape} {axes : List (Fin s.rank)} (hr : s.ReducesTo axes S_) (hu : 0 < S_.numel)
    (bc : S_.BroadcastsInDim s (![] : Fin 0 → Fin s.rank)) (x : FVec Ideal s .f32)
    (e : Host.reduce IntOp.andi
        (cmpf .olt (Host.absf x) (broadcastInDim s ![] bc (constant (F := Ideal) S_ .f32 0x7F800000#32)))
        (constantI S_ 1 1#1) hr hu ValueIdx.ix0 = 1#1) (i : s.Idx) :
    ∃ r : ℝ, x i = (r : EReal) :=
  real_of_cmp (x i) (Host.reduce_andi_all _ _ hr hu _ e i)

/-! ## The seven arrays -/

/-- The printed predicate all ones says each of its seven arguments has only real entries. -/
theorem real_of_fn [hF : Cert.Pre_finite_inputs.Facts] (x0 : FVec Ideal S1x8192x1024 .f32) (x1 : FVec Ideal S1024x1024 .f32)
    (x2 : FVec Ideal S1024 .f32) (x3 : FVec Ideal S1024x1024 .f32) (x4 : FVec Ideal S1024 .f32)
    (x5 : FVec Ideal S1024x1024 .f32) (x6 : FVec Ideal S1024 .f32)
    (e : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) := by
  have e0 := congrFun e ValueIdx.ix0
  dsimp only [Cert.Pre_finite_inputs.fn, Cert.Pre_finite_inputs.fn_part1] at e0
  simp only [andi, IntOp.andi_eq_one] at e0
  obtain ⟨⟨⟨⟨⟨⟨h0, h1⟩, h2⟩, h3⟩, h4⟩, h5⟩, h6⟩ := e0
  exact ⟨all_real _ _ _ x0 h0, all_real _ _ _ x1 h1, all_real _ _ _ x2 h2, all_real _ _ _ x3 h3,
    all_real _ _ _ x4 h4, all_real _ _ _ x5 h5, all_real _ _ _ x6 h6⟩

/-- The precondition says every entry of every argument array, on every device, is a real number. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal)) :=
  real_of_fn (hF := Cert.Pre_finite_inputs.Gen.facts) _ _ _ _ _ _ _ (h c)

end Cert.KernelIdeal.Finite

end
-- ==== Proof.KVal.lean ====
/-
  The kernel program's result, on the extended reals, under the precondition that every input entry is finite, is
  the specification's result array.

  The chain: the result is a reshape of the output kernel's array; its entry (s, f) is σ(Q(s, f)) times the one entry
  of the scalar array; that entry is the sum over the columns of the merged halves; each half's three result rows are
  the streaming kernel's scratch rows after the half's fourth tile, which column by column are the streamed softmax's
  state `coreAcc`; and the tiles' keys and values are the projections of the argument arrays. The streamed and the
  direct column sums agree because every entry is a real number (Proof/Streamed.lean), which is the one place the
  precondition enters.
-/
import proofs.«181116_j87170656240173_2_alg».proof.Proof.StateAcc
import proofs.«181116_j87170656240173_2_alg».proof.Proof.BlockIdx
import proofs.«181116_j87170656240173_2_alg».proof.Proof.ArrOut
import proofs.«181116_j87170656240173_2_alg».proof.Proof.ValChain
import proofs.«181116_j87170656240173_2_alg».proof.Proof.Streamed
import proofs.«181116_j87170656240173_2_alg».proof.Proof.SpecArr
import proofs.«181116_j87170656240173_2_alg».proof.Proof.Finite

set_option maxRecDepth 16384

noncomputable section

namespace Cert.KernelIdeal.Val

open Cert.KernelIdeal Cert.KernelIdeal.Gen Cert.KernelIdeal.Fr Cert.KernelIdeal.PayIdx Cert.KernelIdeal.BlockIdx
open Cert.KernelIdeal.ArrOut Cert.KernelIdeal.ValChain
open Idealize.ShloMosaic Idealize.ShloMosaic.ValueIdx Idealize.ShloMosaic.TcCoe Idealize.SL.Sem
open Cert.Aft

variable (m : (ℓ : Loc nD τ sig) → Buf (Elt Ideal) ℓ) (c : Dev nD)

/-- The keys, the values and the queries as projections of the argument arrays. -/
abbrev Kc : Fin 8192 → Fin 1024 → EReal := proj (qOf (m ((c : Thread nD τ).loc main_arg0) : S1x8192x1024.Idx → EReal)) (wOf (m ((c : Thread nD τ).loc main_arg3) : S1024x1024.Idx → EReal)) (bOf (m ((c : Thread nD τ).loc main_arg4) : S1024.Idx → EReal))
abbrev Vc : Fin 8192 → Fin 1024 → EReal := proj (qOf (m ((c : Thread nD τ).loc main_arg0) : S1x8192x1024.Idx → EReal)) (wOf (m ((c : Thread nD τ).loc main_arg5) : S1024x1024.Idx → EReal)) (bOf (m ((c : Thread nD τ).loc main_arg6) : S1024.Idx → EReal))
abbrev Qc : Fin 8192 → Fin 1024 → EReal := proj (qOf (m ((c : Thread nD τ).loc main_arg0) : S1x8192x1024.Idx → EReal)) (wOf (m ((c : Thread nD τ).loc main_arg1) : S1024x1024.Idx → EReal)) (bOf (m ((c : Thread nD τ).loc main_arg2) : S1024.Idx → EReal))

/-- Column `f` of the keys of the tile at position `t` is the keys' column at the tile's rows. -/
theorem kT_eq (t : Fin cfg0.N) (f : Fin 1024) :
    kT (Fr.V1 m) c t f = fun r => Kc m c (trow ⟨t.val, lt_of_lt_of_eq t.isLt (show cfg0.N = 8 from N_0)⟩ r) f := by
  funext r
  unfold kT tileProj Kc proj qOf wOf bOf trow
  simp only [iblk0_0_apply, iblk0_1_apply, iblk0_2_apply]
  refine congrArg₂ (· + ·) (Finset.sum_congr rfl fun e _ => ?_) (in0_bk m c f)
  exact congrArg₂ (· * ·) (in0_q m c _ e) (in0_wk m c e f)

theorem vT_eq (t : Fin cfg0.N) (f : Fin 1024) :
    vT (Fr.V1 m) c t f = fun r => Vc m c (trow ⟨t.val, lt_of_lt_of_eq t.isLt (show cfg0.N = 8 from N_0)⟩ r) f := by
  funext r
  unfold vT tileProj Vc proj qOf wOf bOf trow
  simp only [iblk0_0_apply, iblk0_3_apply, iblk0_4_apply]
  refine congrArg₂ (· + ·) (Finset.sum_congr rfl fun e _ => ?_) (in0_bv m c f)
  exact congrArg₂ (· * ·) (in0_q m c _ e) (in0_wv m c e f)

/-- After a half's fourth tile the three scratch rows, at column `f`, are that half of the column streamed. -/
theorem core_state (h : Fin 2) (f : Fin 1024) :
    accSt (stAt (Fr.V1 m) c (4 * h.val + 3) (pos_lt _ (by omega))) f = coreAcc (fun s => Kc m c s f) (fun s => Vc m c s f) h := by
  rw [acc_four (Fr.V1 m) c (4 * h.val) (pos_lt _ (by omega)) (by omega) f]
  simp only [kT_eq, vT_eq]
  rfl

/-- A half's three result rows, at column `f`, are that half of the column streamed. -/
theorem half_eq (h : Fin 2) (f : Fin 1024) :
    (⟨((dat0 (Fr.V1 m) c).arrAt 5 cfg0.N : S2x1x1024.Idx → EReal) (ix3 h (0 : Fin 1) f),
      ((dat0 (Fr.V1 m) c).arrAt 6 cfg0.N : S2x1x1024.Idx → EReal) (ix3 h (0 : Fin 1) f),
      ((dat0 (Fr.V1 m) c).arrAt 7 cfg0.N : S2x1x1024.Idx → EReal) (ix3 h (0 : Fin 1) f)⟩ : Acc)
      = coreAcc (fun s => Kc m c s f) (fun s => Vc m c s f) h := by
  rw [arr0_5 (Fr.V1 m) c h f, arr0_6 (Fr.V1 m) c h f, arr0_7 (Fr.V1 m) c h f]
  exact (out_four (Fr.V1 m) c (4 * h.val) (pos_bound h) (by omega) f).trans (core_state m c h f)

/-- The scalar the output kernel multiplies by is the streamed context sum. -/
theorem scalar_eq : (Fr.V3 m c main_call0_v36 : S1x1.Idx → EReal) (ix2 (0 : Fin 1) (0 : Fin 1)) = ctxStreamed (Kc m c) (Vc m c) :=
  (in1_c m c).trans ((zero_add (M := EReal) _).trans
    (Finset.sum_congr rfl fun f _ => congrArg₂ combine (half_eq m c 0 f) (half_eq m c 1 f)))

/-- THE RESULT. Under the precondition the program's result array is the specification's. -/
theorem final (hpre : Cert.Pre_KernelIdeal (hPre_finite_inputs := Cert.Pre_finite_inputs.Gen.facts) m) (c : Dev nD) :
    W5 m c (Proc.devRef .tc main_v0) = outArr (m ((c : Thread nD τ).loc main_arg0) : S1x8192x1024.Idx → EReal) (m ((c : Thread nD τ).loc main_arg1) : S1024x1024.Idx → EReal) (m ((c : Thread nD τ).loc main_arg2) : S1024.Idx → EReal) (m ((c : Thread nD τ).loc main_arg3) : S1024x1024.Idx → EReal) (m ((c : Thread nD τ).loc main_arg4) : S1024.Idx → EReal) (m ((c : Thread nD τ).loc main_arg5) : S1024x1024.Idx → EReal) (m ((c : Thread nD τ).loc main_arg6) : S1024.Idx → EReal) := by
  obtain ⟨h0, h1, h2, h3, h4, h5, h6⟩ := Cert.KernelIdeal.Finite.real_of_pre m hpre c
  funext i
  obtain ⟨a, s, f, rfl⟩ : ∃ (a : Fin 1) (s : Fin 8192) (f : Fin 1024), i = ix3 a s f := ⟨i 0, i 1, i 2, eq_ix3 i⟩
  obtain rfl : a = 0 := Subsingleton.elim _ _
  obtain ⟨t, r, rfl⟩ : ∃ (t : Fin cfg1.N) (r : Fin 1024), s = ⟨t.val * 1024 + r.val, by have := t.isLt; have : cfg1.N = 8 := N_1; have := r.isLt; omega⟩ :=
    ⟨⟨s.val / 1024, by have := s.isLt; have : cfg1.N = 8 := N_1; omega⟩, ⟨s.val % 1024, Nat.mod_lt _ (by decide)⟩, Fin.ext (by show s.val = s.val / 1024 * 1024 + s.val % 1024; omega)⟩
  show (W5 m c main_v0 : S1x8192x1024.Idx → EReal) (ix3 (0 : Fin 1) _ f) = _
  rw [out_eq, arr1_4 (Fr.V3 m) c t r f, after1_4, out1_4_eq, pay1_out]
  have hq : tileProj (iblk1 (Fr.V3 m) c 0 t) (iblk1 (Fr.V3 m) c 1 t) (iblk1 (Fr.V3 m) c 2 t) r f
      = Qc m c ⟨t.val * 1024 + r.val, by have := t.isLt; have : cfg1.N = 8 := N_1; have := r.isLt; omega⟩ f := by
    unfold tileProj Qc proj qOf wOf bOf
    simp only [iblk1_0_apply, iblk1_1_apply, iblk1_2_apply]
    refine congrArg₂ (· + ·) (Finset.sum_congr rfl fun e _ => ?_) (in1_bq m c f)
    exact congrArg₂ (· * ·) (in1_q m c _ e) (in1_wq m c e f)
  rw [hq, iblk1_3_apply, scalar_eq]
  rw [show ctxStreamed (Kc m c) (Vc m c) = ctx (Kc m c) (Vc m c) from
    ctxStreamed_proj_eq (qOf (m ((c : Thread nD τ).loc main_arg0) : S1x8192x1024.Idx → EReal)) (wOf (m ((c : Thread nD τ).loc main_arg3) : S1024x1024.Idx → EReal)) (wOf (m ((c : Thread nD τ).loc main_arg5) : S1024x1024.Idx → EReal)) (bOf (m ((c : Thread nD τ).loc main_arg4) : S1024.Idx → EReal)) (bOf (m ((c : Thread nD τ).loc main_arg6) : S1024.Idx → EReal))
      (fun s e => h0 _) (fun f e => h3 _) (fun f => h4 _) (fun f e => h5 _) (fun f => h6 _)]
  rfl

end Cert.KernelIdeal.Val

end
-- ==== Proof.lean ====
/-
  A streamed softmax against a direct one.

  Both programs compute, for activations q [1, 8192, 1024], three weight matrices and three biases,
      Y(s, f) = σ(Q(s, f)) · Σ_f Σ_s softmax(K · f)(s) · V(s, f),      Q = q·Wqᵀ + bq, K = q·Wkᵀ + bk, V = q·Wvᵀ + bv,
  the softmax taken down each column over the 8192 rows and σ x = 1 / (1 + e^(-x)). The reference does it directly.
  The kernel program streams: a first kernel walks the rows in 8 tiles of 1024, the two halves of the rows
  separately, keeping per column a running maximum, a running Σ e^(k - max) and a running Σ e^(k - max)·v in three
  scratch rows that it rescales by e^(old max - new max) whenever the maximum grows, and writes each half's three rows
  out after its fourth tile; host operations merge the two halves by the same rescaling, divide once, and sum over the
  columns; a second kernel multiplies σ(Q) by that scalar, tile by tile.

  On the extended reals the two agree when every input is finite: then every K and V entry is a real number, the
  rescalings are e^(a-b)·e^(b-c) = e^(a-c), sums of reals distribute over a real factor, the denominator is at least 1,
  and (Σ e·v)/L = Σ (e/L)·v (Proof/Streamed.lean). Without finiteness those laws fail at the infinities, which is
  where the precondition is used. σ is the same expression on both sides and Q the same sum, so nothing is needed there.

  The frames (each program runs to the end, faults nowhere, leaves its arguments unchanged) are: for the reference, its
  run with the result dropped; for the kernel program, at both instances, the run of its five segments
  (Proof/FrKernel*/Run.lean), whose kernel regions' bodies are run case by case (Run0A / Run0B / Run0C, Body0, Body1).
  Nothing was rewritten by the idealization, so `preserves` asks nothing.
-/
import proofs.«181116_j87170656240173_2_alg».proof.Defs
import proofs.«181116_j87170656240173_2_alg».proof.Proof.Gen.Kernel
import proofs.«181116_j87170656240173_2_alg».proof.Proof.Gen.KernelIdeal
import proofs.«181116_j87170656240173_2_alg».proof.Proof.Gen.ReferenceIdeal
import proofs.«181116_j87170656240173_2_alg».proof.Proof.Gen.Pre_finite_inputs
import proofs.«181116_j87170656240173_2_alg».proof.Proof.FrKernel.Run
import proofs.«181116_j87170656240173_2_alg».proof.Proof.FrKernelIdeal.Run
import proofs.«181116_j87170656240173_2_alg».proof.Proof.RefValue
import proofs.«181116_j87170656240173_2_alg».proof.Proof.KVal
import Idealize.ShloMosaic.Adequacy
import Idealize.ShloMosaic.Init

noncomputable section

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => Cert.Kernel.Fr.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Fr.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing: the idealized kernel program is the program's own text read on the extended reals. -/
theorem preserves : Cert.preserves_Kernel_KernelIdeal := trivial

/-- Both programs end, from memories that agree on the arguments, with the specification's result array: the kernel
    program by its run and the streamed-softmax law under finiteness, the reference by its run read operation by operation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Aft.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨?_, ?_⟩) (Cert.KernelIdeal.Fr.run_all (F := Ideal) m ρ)
    · exact (h c _ (Cert.KernelIdeal.Fr.mem_uc Cert.KernelIdeal.main_v0 (by decide))).trans (Cert.KernelIdeal.Val.final m hpre c)
    · exact ⟨(h c _ (Cert.KernelIdeal.Fr.mem_uc Cert.KernelIdeal.main_arg0 (by decide))).trans (Cert.KernelIdeal.Fr.W5_main_arg0 m c),
        (h c _ (Cert.KernelIdeal.Fr.mem_uc Cert.KernelIdeal.main_arg1 (by decide))).trans (Cert.KernelIdeal.Fr.W5_main_arg1 m c),
        (h c _ (Cert.KernelIdeal.Fr.mem_uc Cert.KernelIdeal.main_arg2 (by decide))).trans (Cert.KernelIdeal.Fr.W5_main_arg2 m c),
        (h c _ (Cert.KernelIdeal.Fr.mem_uc Cert.KernelIdeal.main_arg3 (by decide))).trans (Cert.KernelIdeal.Fr.W5_main_arg3 m c),
        (h c _ (Cert.KernelIdeal.Fr.mem_uc Cert.KernelIdeal.main_arg4 (by decide))).trans (Cert.KernelIdeal.Fr.W5_main_arg4 m c),
        (h c _ (Cert.KernelIdeal.Fr.mem_uc Cert.KernelIdeal.main_arg5 (by decide))).trans (Cert.KernelIdeal.Fr.W5_main_arg5 m c),
        (h c _ (Cert.KernelIdeal.Fr.mem_uc Cert.KernelIdeal.main_arg6 (by decide))).trans (Cert.KernelIdeal.Fr.W5_main_arg6 m c)⟩
  · refine (θ_run Cert.ReferenceIdeal.defs _ _).mono (fun r h c => ⟨(h c).1.trans ?_, (h c).2⟩) (Cert.ReferenceIdeal.RefValue.run_spec m' ρ')
    rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
